-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S100000x3 : Shape := ⟨2, ![100000, 3]⟩
abbrev S100000x3x3 : Shape := ⟨3, ![100000, 3, 3]⟩
abbrev S3200000x3 : Shape := ⟨2, ![3200000, 3]⟩
abbrev S3200000 : Shape := ⟨1, ![3200000]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S100000x3x3 : S_.BroadcastsInDim S100000x3x3 (![] : Fin 0 → Fin S100000x3x3.rank)
  reducesTo_S100000x3x3_S_d0_1_2 : S100000x3x3.ReducesTo [0, 1, 2] S_
  bcast_S_S3200000x3 : S_.BroadcastsInDim S3200000x3 (![] : Fin 0 → Fin S3200000x3.rank)
  reducesTo_S3200000x3_S_d0_1 : S3200000x3.ReducesTo [0, 1] S_
  bcast_S_S3200000 : S_.BroadcastsInDim S3200000 (![] : Fin 0 → Fin S3200000.rank)
  reducesTo_S3200000_S_d0 : S3200000.ReducesTo [0] S_

variable [Facts]

def fn_part1 {F : FTy → Type} [FloatOps F] (main_arg4 : FVec F S3200000 .f32) (main_v13 : IVec S_ 1) (main_v16 : IVec S3200000x3 1) : IVec S_ 1 :=
  let main_c_5 : IVec S_ 1 := constantI S_ 1 1#1
  let main_v17 : IVec S_ 1 := (fun x v => Host.reduce IntOp.andi x v reducesTo_S3200000x3_S_d0_1 h_S_) main_v16 main_c_5
  let main_v18 : IVec S_ 1 := andi main_v13 main_v17
  let main_v19 : FVec F S3200000 .f32 := Host.absf main_arg4
  let main_cst_6 : FVec F S_ .f32 := constant S_ .f32 0x7F800000#32
  let main_v20 : FVec F S3200000 .f32 := broadcastInDim S3200000 ![] bcast_S_S3200000 main_cst_6
  let main_v21 : IVec S3200000 1 := cmpf .olt main_v19 main_v20
  let main_c_7 : IVec S_ 1 := constantI S_ 1 1#1
  let main_v22 : IVec S_ 1 := (fun x v => Host.reduce IntOp.andi x v reducesTo_S3200000_S_d0 h_S_) main_v21 main_c_7
  let main_v23 : IVec S_ 1 := andi main_v18 main_v22
  let main_cst_8 : FVec F S_ .f32 := constant S_ .f32 0x00000000#32
  let main_v24 : FVec F S3200000 .f32 := broadcastInDim S3200000 ![] bcast_S_S3200000 main_cst_8
  let main_v25 : IVec S3200000 1 := cmpf .une main_arg4 main_v24
  let main_c_9 : IVec S_ 1 := constantI S_ 1 1#1
  let main_v26 : IVec S_ 1 := (fun x v => Host.reduce IntOp.andi x v reducesTo_S3200000_S_d0 h_S_) main_v25 main_c_9
  let main_v27 : IVec S_ 1 := andi main_v23 main_v26
  main_v27

def fn {F : FTy → Type} [FloatOps F] (main_arg0 : FVec F S100000 .f32) (main_arg1 : FVec F S100000x3 .f32) (main_arg2 : FVec F S100000x3x3 .f32) (main_arg3 : FVec F S3200000x3 .f32) (main_arg4 : FVec F S3200000 .f32) (main_arg5 : IVec S3200000 32) (main_arg6 : IVec S3200000 32) : IVec S_ 1 :=
  let main_v0 : FVec F S100000 .f32 := Host.absf main_arg0
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S100000x3x3 .f32 := Host.absf main_arg2
  let main_cst_2 : FVec F S_ .f32 := constant S_ .f32 0x7F800000#32
  let main_v10 : FVec F S100000x3x3 .f32 := broadcastInDim S100000x3x3 ![] bcast_S_S100000x3x3 main_cst_2
  let main_v11 : IVec S100000x3x3 1 := cmpf .olt main_v9 main_v10
  let main_c_3 : IVec S_ 1 := constantI S_ 1 1#1
  let main_v12 : IVec S_ 1 := (fun x v => Host.reduce IntOp.andi x v reducesTo_S100000x3x3_S_d0_1_2 h_S_) main_v11 main_c_3
  let main_v13 : IVec S_ 1 := andi main_v8 main_v12
  let main_v14 : FVec F S3200000x3 .f32 := Host.absf main_arg3
  let main_cst_4 : FVec F S_ .f32 := constant S_ .f32 0x7F800000#32
  let main_v15 : FVec F S3200000x3 .f32 := broadcastInDim S3200000x3 ![] bcast_S_S3200000x3 main_cst_4
  let main_v16 : IVec S3200000x3 1 := cmpf .olt main_v14 main_v15
  fn_part1 (F := F) main_arg4 main_v13 main_v16
-- ==== Kernel.lean ====
abbrev S100000 : Shape := ⟨1, ![100000]⟩
abbrev S100000x3 : Shape := ⟨2, ![100000, 3]⟩
abbrev S100000x3x3 : Shape := ⟨3, ![100000, 3, 3]⟩
abbrev S3200000x3 : Shape := ⟨2, ![3200000, 3]⟩
abbrev S3200000 : Shape := ⟨1, ![3200000]⟩
abbrev S_ : Shape := ⟨0, ![]⟩
abbrev S3200000x1 : Shape := ⟨2, ![3200000, 1]⟩
abbrev S3x100000 : Shape := ⟨2, ![3, 100000]⟩
abbrev S100000x9 : Shape := ⟨2, ![100000, 9]⟩
abbrev S9x100000 : Shape := ⟨2, ![9, 100000]⟩
abbrev S3x3200000 : Shape := ⟨2, ![3, 3200000]⟩
abbrev S9x3200000 : Shape := ⟨2, ![9, 3200000]⟩
abbrev S25000x128 : Shape := ⟨2, ![25000, 128]⟩
abbrev S3x25000x128 : Shape := ⟨3, ![3, 25000, 128]⟩
abbrev S9x25000x128 : Shape := ⟨3, ![9, 25000, 128]⟩
abbrev S1000x128 : Shape := ⟨2, ![1000, 128]⟩
abbrev S3x1000x128 : Shape := ⟨3, ![3, 1000, 128]⟩
abbrev S9x1000x128 : Shape := ⟨3, ![9, 1000, 128]⟩
abbrev S1x1000x128 : Shape := ⟨3, ![1, 1000, 128]⟩

abbrev nBuf : Space → Nat
  | .hbm => 65
  | .vmem => 16
  | .smem => 0
  | _ => 0

abbrev bufTy : (tb : Table) → Fin (tcTables nBuf tb) → BufTy
  | .hbm, ⟨0, _⟩ => ⟨S100000, .f32⟩
  | .hbm, ⟨1, _⟩ => ⟨S100000x3, .f32⟩
  | .hbm, ⟨2, _⟩ => ⟨S100000x3x3, .f32⟩
  | .hbm, ⟨3, _⟩ => ⟨S3200000x3, .f32⟩
  | .hbm, ⟨4, _⟩ => ⟨S3200000, .f32⟩
  | .hbm, ⟨5, _⟩ => ⟨S3200000, .i32⟩
  | .hbm, ⟨6, _⟩ => ⟨S3200000, .i32⟩
  | .hbm, ⟨7, _⟩ => ⟨S_, .i32⟩
  | .hbm, ⟨8, _⟩ => ⟨S3200000, .i32⟩
  | .hbm, ⟨9, _⟩ => ⟨S3200000, .i1⟩
  | .hbm, ⟨10, _⟩ => ⟨S_, .i32⟩
  | .hbm, ⟨11, _⟩ => ⟨S3200000, .i32⟩
  | .hbm, ⟨12, _⟩ => ⟨S3200000, .i32⟩
  | .hbm, ⟨13, _⟩ => ⟨S3200000, .i32⟩
  | .hbm, ⟨14, _⟩ => ⟨S3200000x1, .i32⟩
  | .hbm, ⟨15, _⟩ => ⟨S3200000, .f32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S3200000, .f32⟩
  | .hbm, ⟨25, _⟩ => ⟨S3x100000, .f32⟩
  | .hbm, ⟨26, _⟩ => ⟨S100000x9, .f32⟩
  | .hbm, ⟨27, _⟩ => ⟨S9x100000, .f32⟩
  | .hbm, ⟨28, _⟩ => ⟨S3x3200000, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3x3200000, .f32⟩
  | .hbm, ⟨38, _⟩ => ⟨S_, .i32⟩
  | .hbm, ⟨39, _⟩ => ⟨S3200000, .i32⟩
  | .hbm, ⟨40, _⟩ => ⟨S3200000, .i1⟩
  | .hbm, ⟨41, _⟩ => ⟨S_, .i32⟩
  | .hbm, ⟨42, _⟩ => ⟨S3200000, .i32⟩
  | .hbm, ⟨43, _⟩ => ⟨S3200000, .i32⟩
  | .hbm, ⟨44, _⟩ => ⟨S3200000, .i32⟩
  | .hbm, ⟨45, _⟩ => ⟨S3200000x1, .i32⟩
  | .hbm, ⟨46, _⟩ => ⟨S3x3200000, .f32⟩
  | .hbm, ⟨47, _⟩ => ⟨S_, .i32⟩
  | .hbm, ⟨48, _⟩ => ⟨S3200000, .i32⟩
  | .hbm, ⟨49, _⟩ => ⟨S3200000, .i1⟩
  | .hbm, ⟨50, _⟩ => ⟨S_, .i32⟩
  | .hbm, ⟨51, _⟩ => ⟨S3200000, .i32⟩
  | .hbm, ⟨52, _⟩ => ⟨S3200000, .i32⟩
  | .hbm, ⟨53, _⟩ => ⟨S3200000, .i32⟩
  | .hbm, ⟨54, _⟩ => ⟨S3200000x1, .i32⟩
  | .hbm, ⟨55, _⟩ => ⟨S9x3200000, .f32⟩
  | .hbm, ⟨56, _⟩ => ⟨S25000x128, .f32⟩
  | .hbm, ⟨57, _⟩ => ⟨S25000x128, .f32⟩
  | .hbm, ⟨58, _⟩ => ⟨S25000x128, .f32⟩
  | .hbm, ⟨59, _⟩ => ⟨S3x25000x128, .f32⟩
  | .hbm, ⟨60, _⟩ => ⟨S3x25000x128, .f32⟩
  | .hbm, ⟨61, _⟩ => ⟨S3x25000x128, .f32⟩
  | .hbm, ⟨62, _⟩ => ⟨S9x25000x128, .f32⟩
  | .hbm, ⟨63, _⟩ => ⟨S25000x128, .f32⟩
  | .hbm, ⟨64, _⟩ => ⟨S3200000, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S3x1000x128, .f32⟩
  | .local _ .vmem, ⟨7, _⟩ => ⟨S3x1000x128, .f32⟩
  | .local _ .vmem, ⟨8, _⟩ => ⟨S3x1000x128, .f32⟩
  | .local _ .vmem, ⟨9, _⟩ => ⟨S3x1000x128, .f32⟩
  | .local _ .vmem, ⟨10, _⟩ => ⟨S3x1000x128, .f32⟩
  | .local _ .vmem, ⟨11, _⟩ => ⟨S3x1000x128, .f32⟩
  | .local _ .vmem, ⟨12, _⟩ => ⟨S9x1000x128, .f32⟩
  | .local _ .vmem, ⟨13, _⟩ => ⟨S9x1000x128, .f32⟩
  | .local _ .vmem, ⟨14, _⟩ => ⟨S1000x128, .f32⟩
  | .local _ .vmem, ⟨15, _⟩ => ⟨S1000x128, .f32⟩
  | _, _ => ⟨S100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S9x1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  transposes_S100000x3_S3x100000_1_0 : S100000x3.Transposes [1, 0] S3x100000
  shapeCasts_S100000x3x3_S100000x9 : S100000x3x3.ShapeCasts S100000x9
  transposes_S100000x9_S9x100000_1_0 : S100000x9.Transposes [1, 0] S9x100000
  transposes_S3200000x3_S3x3200000_1_0 : S3200000x3.Transposes [1, 0] S3x3200000
  shapeCasts_S3200000_S25000x128 : S3200000.ShapeCasts S25000x128
  shapeCasts_S3x3200000_S3x25000x128 : S3x3200000.ShapeCasts S3x25000x128
  shapeCasts_S9x3200000_S9x25000x128 : S9x3200000.ShapeCasts S9x25000x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S3x1000x128_S1x1000x128_0_0_0 : ∀ a, (![0, 0, 0] : Fin 3 → Nat) a + S1x1000x128.size a ≤ S3x1000x128.size a
  h_S1x1000x128 : 0 < S1x1000x128.numel
  shapeCasts_S1x1000x128_S1000x128 : S1x1000x128.ShapeCasts S1000x128
  inb_S3x1000x128_S1x1000x128_1_0_0 : ∀ a, (![1, 0, 0] : Fin 3 → Nat) a + S1x1000x128.size a ≤ S3x1000x128.size a
  inb_S3x1000x128_S1x1000x128_2_0_0 : ∀ a, (![2, 0, 0] : Fin 3 → Nat) a + S1x1000x128.size a ≤ S3x1000x128.size a
  inb_S9x1000x128_S1x1000x128_0_0_0 : ∀ a, (![0, 0, 0] : Fin 3 → Nat) a + S1x1000x128.size a ≤ S9x1000x128.size a
  inb_S9x1000x128_S1x1000x128_1_0_0 : ∀ a, (![1, 0, 0] : Fin 3 → Nat) a + S1x1000x128.size a ≤ S9x1000x128.size a
  inb_S9x1000x128_S1x1000x128_2_0_0 : ∀ a, (![2, 0, 0] : Fin 3 → Nat) a + S1x1000x128.size a ≤ S9x1000x128.size a
  inb_S9x1000x128_S1x1000x128_3_0_0 : ∀ a, (![3, 0, 0] : Fin 3 → Nat) a + S1x1000x128.size a ≤ S9x1000x128.size a
  inb_S9x1000x128_S1x1000x128_4_0_0 : ∀ a, (![4, 0, 0] : Fin 3 → Nat) a + S1x1000x128.size a ≤ S9x1000x128.size a
  inb_S9x1000x128_S1x1000x128_5_0_0 : ∀ a, (![5, 0, 0] : Fin 3 → Nat) a + S1x1000x128.size a ≤ S9x1000x128.size a
  inb_S9x1000x128_S1x1000x128_6_0_0 : ∀ a, (![6, 0, 0] : Fin 3 → Nat) a + S1x1000x128.size a ≤ S9x1000x128.size a
  inb_S9x1000x128_S1x1000x128_7_0_0 : ∀ a, (![7, 0, 0] : Fin 3 → Nat) a + S1x1000x128.size a ≤ S9x1000x128.size a
  inb_S9x1000x128_S1x1000x128_8_0_0 : ∀ a, (![8, 0, 0] : Fin 3 → Nat) a + S1x1000x128.size a ≤ S9x1000x128.size a
  shapeCasts_S25000x128_S3200000 : S25000x128.ShapeCasts S3200000
  gather_S100000_S3200000x1_S3200000_n_0_n_n_0_1_1_wf : GatherDims.WF S100000 S3200000x1 S3200000 [] [0] [] [0] [] 1 ![1]
  gather_S3x100000_S3200000x1_S3x3200000_0_1_n_n_1_1_31_wf : GatherDims.WF S3x100000 S3200000x1 S3x3200000 [0] [1] [] [1] [] 1 ![3, 1]
  gather_S9x100000_S3200000x1_S9x3200000_0_1_n_n_1_1_91_wf : GatherDims.WF S9x100000 S3200000x1 S9x3200000 [0] [1] [] [1] [] 1 ![9, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S25000x128.size a
  hwx0_0 : ∀ i : grid0.Coords, EltTy.bits .f32 = 32 ∨ (Rect.block (s := S25000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S25000x128.size a
  hwx0_1 : ∀ i : grid0.Coords, EltTy.bits .f32 = 32 ∨ (Rect.block (s := S25000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S25000x128.size a
  hwx0_2 : ∀ i : grid0.Coords, EltTy.bits .f32 = 32 ∨ (Rect.block (s := S25000x128) S1000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x1000x128.size a ≤ S3x25000x128.size a
  hwx0_3 : ∀ i : grid0.Coords, EltTy.bits .f32 = 32 ∨ (Rect.block (s := S3x25000x128) S3x1000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3x1000x128.size a ≤ S3x25000x128.size a
  hwx0_4 : ∀ i : grid0.Coords, EltTy.bits .f32 = 32 ∨ (Rect.block (s := S3x25000x128) S3x1000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3x1000x128.size a ≤ S3x25000x128.size a
  hwx0_5 : ∀ i : grid0.Coords, EltTy.bits .f32 = 32 ∨ (Rect.block (s := S3x25000x128) S3x1000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S9x1000x128.size a ≤ S9x25000x128.size a
  hwx0_6 : ∀ i : grid0.Coords, EltTy.bits .f32 = 32 ∨ (Rect.block (s := S9x25000x128) S9x1000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x128.size a ≤ S25000x128.size a
  hwx0_7 : ∀ i : grid0.Coords, EltTy.bits .f32 = 32 ∨ (Rect.block (s := S25000x128) S1000x128.size (cc0_transform_7 i) (hinb0_7 i)).WholeWords (EltTy.packing .f32)

variable [Facts₀]

def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S3x100000_S3200000x1_S3x3200000_0_1_n_n_1_1_31 : GatherDims S3x100000 S3200000x1 S3x3200000 where
  offsetDims := [0]
  collapsedSliceDims := [1]
  operandBatchingDims := []
  startIndicesBatchingDims := []
  startIndexMap := [1]
  indexVectorDim := 1
  sliceSizes := ![3, 1]
  wf := gather_S3x100000_S3200000x1_S3x3200000_0_1_n_n_1_1_31_wf
def gather_S9x100000_S3200000x1_S9x3200000_0_1_n_n_1_1_91 : GatherDims S9x100000 S3200000x1 S9x3200000 where
  offsetDims := [0]
  collapsedSliceDims := [1]
  operandBatchingDims := []
  startIndicesBatchingDims := []
  startIndexMap := [1]
  indexVectorDim := 1
  sliceSizes := ![9, 1]
  wf := gather_S9x100000_S3200000x1_S9x3200000_0_1_n_n_1_1_91_wf

abbrev win0_0 : Pipeline.Window sig grid0 :=
  Pipeline.Window.ofSpec (Memref.whole main_v39) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v42) S3x1000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v43) S3x1000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v44) S3x1000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v45) S9x1000x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v46) S1000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000 : Shape := ⟨1, ![100000]⟩
abbrev S100000x3 : Shape := ⟨2, ![100000, 3]⟩
abbrev S100000x3x3 : Shape := ⟨3, ![100000, 3, 3]⟩
abbrev S3200000x3 : Shape := ⟨2, ![3200000, 3]⟩
abbrev S3200000 : Shape := ⟨1, ![3200000]⟩
abbrev S_ : Shape := ⟨0, ![]⟩
abbrev S3200000x1 : Shape := ⟨2, ![3200000, 1]⟩
abbrev S3200000x3x1 : Shape := ⟨3, ![3200000, 3, 1]⟩
abbrev S3200000x1x3 : Shape := ⟨3, ![3200000, 1, 3]⟩
abbrev S3200000x3x3 : Shape := ⟨3, ![3200000, 3, 3]⟩
abbrev S3x3 : Shape := ⟨2, ![3, 3]⟩
abbrev S3200000x1x1 : Shape := ⟨3, ![3200000, 1, 1]⟩
abbrev S1x3x3 : Shape := ⟨3, ![1, 3, 3]⟩

abbrev nBuf : Space → Nat
  | .hbm => 199
  | .vmem => 0
  | .smem => 0
  | _ => 0

abbrev hbmTy0_0 (i : Nat) : BufTy := match i % 128 with
  | 0 => ⟨S100000, .f32⟩
  | 1 => ⟨S100000x3, .f32⟩
  | 2 => ⟨S100000x3x3, .f32⟩
  | 3 => ⟨S3200000x3, .f32⟩
  | 4 => ⟨S3200000, .f32⟩
  | 5 => ⟨S3200000, .i32⟩
  | 6 => ⟨S3200000, .i32⟩
  | 7 => ⟨S3200000, .f32⟩
  | 8 => ⟨S_, .f32⟩
  | 9 => ⟨S3200000, .f32⟩
  | 10 => ⟨S3200000, .f32⟩
  | 11 => ⟨S3200000, .f32⟩
  | 12 => ⟨S_, .f32⟩
  | 13 => ⟨S3200000, .f32⟩
  | 14 => ⟨S3200000, .f32⟩
  | 15 => ⟨S3200000, .f32⟩
  | 16 => ⟨S3200000, .f32⟩
  | 17 => ⟨S_, .f32⟩
  | 18 => ⟨S3200000, .f32⟩
  | 19 => ⟨S3200000, .f32⟩
  | 20 => ⟨S_, .f32⟩
  | 21 => ⟨S3200000, .f32⟩
  | 22 => ⟨S3200000, .f32⟩
  | 23 => ⟨S_, .f32⟩
  | 24 => ⟨S3200000, .f32⟩
  | 25 => ⟨S3200000, .f32⟩
  | 26 => ⟨S3200000, .f32⟩
  | 27 => ⟨S3200000, .f32⟩
  | 28 => ⟨S3200000, .f32⟩
  | 29 => ⟨S_, .f32⟩
  | 30 => ⟨S3200000, .f32⟩
  | 31 => ⟨S3200000, .f32⟩
  | 32 => ⟨S_, .f32⟩
  | 33 => ⟨S3200000, .f32⟩
  | 34 => ⟨S3200000, .i1⟩
  | 35 => ⟨S_, .f32⟩
  | 36 => ⟨S_, .f32⟩
  | 37 => ⟨S3200000, .f32⟩
  | 38 => ⟨S3200000, .f32⟩
  | 39 => ⟨S3200000, .f32⟩
  | 40 => ⟨S_, .f32⟩
  | 41 => ⟨S3200000, .f32⟩
  | 42 => ⟨S3200000, .f32⟩
  | 43 => ⟨S3200000, .f32⟩
  | 44 => ⟨S3200000, .f32⟩
  | 45 => ⟨S_, .f32⟩
  | 46 => ⟨S3200000, .f32⟩
  | 47 => ⟨S3200000, .f32⟩
  | 48 => ⟨S_, .f32⟩
  | 49 => ⟨S3200000, .f32⟩
  | 50 => ⟨S3200000, .f32⟩
  | 51 => ⟨S_, .i32⟩
  | 52 => ⟨S3200000, .i32⟩
  | 53 => ⟨S3200000, .i1⟩
  | 54 => ⟨S_, .i32⟩
  | 55 => ⟨S3200000, .i32⟩
  | 56 => ⟨S3200000, .i32⟩
  | 57 => ⟨S3200000, .i32⟩
  | 58 => ⟨S3200000x1, .i32⟩
  | 59 => ⟨S3200000, .f32⟩
  | 60 => ⟨S_, .i32⟩
  | 61 => ⟨S3200000, .i32⟩
  | 62 => ⟨S3200000, .i1⟩
  | 63 => ⟨S_, .i32⟩
  | 64 => ⟨S3200000, .i32⟩
  | 65 => ⟨S3200000, .i32⟩
  | 66 => ⟨S3200000, .i32⟩
  | 67 => ⟨S3200000x1, .i32⟩
  | 68 => ⟨S3200000, .f32⟩
  | 69 => ⟨S3200000, .f32⟩
  | 70 => ⟨S3200000, .f32⟩
  | 71 => ⟨S3200000, .f32⟩
  | 72 => ⟨S3200000, .f32⟩
  | 73 => ⟨S3200000, .f32⟩
  | 74 => ⟨S_, .f32⟩
  | 75 => ⟨S3200000, .f32⟩
  | 76 => ⟨S3200000, .f32⟩
  | 77 => ⟨S_, .f32⟩
  | 78 => ⟨S3200000, .f32⟩
  | 79 => ⟨S3200000, .f32⟩
  | 80 => ⟨S_, .f32⟩
  | 81 => ⟨S3200000, .f32⟩
  | 82 => ⟨S3200000, .f32⟩
  | 83 => ⟨S_, .f32⟩
  | 84 => ⟨S3200000, .f32⟩
  | 85 => ⟨S3200000, .f32⟩
  | 86 => ⟨S_, .f32⟩
  | 87 => ⟨S3200000, .f32⟩
  | 88 => ⟨S3200000, .f32⟩
  | 89 => ⟨S_, .f32⟩
  | 90 => ⟨S3200000, .f32⟩
  | 91 => ⟨S3200000, .f32⟩
  | 92 => ⟨S3200000x1, .f32⟩
  | 93 => ⟨S3200000x3, .f32⟩
  | 94 => ⟨S3200000x3, .f32⟩
  | 95 => ⟨S_, .i32⟩
  | 96 => ⟨S3200000, .i32⟩
  | 97 => ⟨S3200000, .i1⟩
  | 98 => ⟨S_, .i32⟩
  | 99 => ⟨S3200000, .i32⟩
  | 100 => ⟨S3200000, .i32⟩
  | 101 => ⟨S3200000, .i32⟩
  | 102 => ⟨S3200000x1, .i32⟩
  | 103 => ⟨S3200000x3, .f32⟩
  | 104 => ⟨S_, .i32⟩
  | 105 => ⟨S3200000, .i32⟩
  | 106 => ⟨S3200000, .i1⟩
  | 107 => ⟨S_, .i32⟩
  | 108 => ⟨S3200000, .i32⟩
  | 109 => ⟨S3200000, .i32⟩
  | 110 => ⟨S3200000, .i32⟩
  | 111 => ⟨S3200000x1, .i32⟩
  | 112 => ⟨S3200000x3, .f32⟩
  | 113 => ⟨S3200000x3, .f32⟩
  | 114 => ⟨S_, .f32⟩
  | 115 => ⟨S3200000, .f32⟩
  | 116 => ⟨S3200000x3, .f32⟩
  | 117 => ⟨S_, .f32⟩
  | 118 => ⟨S3200000, .f32⟩
  | 119 => ⟨S_, .f32⟩
  | 120 => ⟨S3200000, .f32⟩
  | 121 => ⟨S3200000, .f32⟩
  | 122 => ⟨S3200000, .f32⟩
  | 123 => ⟨S3200000, .f32⟩
  | 124 => ⟨S3200000, .f32⟩
  | 125 => ⟨S3200000x3, .f32⟩
  | 126 => ⟨S_, .f32⟩
  | 127 => ⟨S3200000, .f32⟩
  | _ => ⟨S100000, .f32⟩

abbrev hbmTy0_1 (i : Nat) : BufTy := match i % 128 with
  | 0 => ⟨S_, .f32⟩
  | 1 => ⟨S3200000, .f32⟩
  | 2 => ⟨S3200000, .f32⟩
  | 3 => ⟨S3200000, .f32⟩
  | 4 => ⟨S3200000, .f32⟩
  | 5 => ⟨S3200000, .f32⟩
  | 6 => ⟨S3200000, .f32⟩
  | 7 => ⟨S3200000, .f32⟩
  | 8 => ⟨S3200000, .f32⟩
  | 9 => ⟨S3200000x3x1, .f32⟩
  | 10 => ⟨S3200000x1x3, .f32⟩
  | 11 => ⟨S3200000x3x3, .f32⟩
  | 12 => ⟨S3200000x3x3, .f32⟩
  | 13 => ⟨S3200000x3x3, .f32⟩
  | 14 => ⟨S3x3, .i32⟩
  | 15 => ⟨S3x3, .i32⟩
  | 16 => ⟨S_, .i32⟩
  | 17 => ⟨S3x3, .i32⟩
  | 18 => ⟨S3x3, .i32⟩
  | 19 => ⟨S3x3, .i1⟩
  | 20 => ⟨S_, .f32⟩
  | 21 => ⟨S3200000x3x3, .f32⟩
  | 22 => ⟨S3200000x3x3, .i1⟩
  | 23 => ⟨S3200000x3x3, .f32⟩
  | 24 => ⟨S_, .f32⟩
  | 25 => ⟨S3200000, .f32⟩
  | 26 => ⟨S_, .f32⟩
  | 27 => ⟨S3200000, .f32⟩
  | 28 => ⟨S3200000, .f32⟩
  | 29 => ⟨S3200000x1x1, .f32⟩
  | 30 => ⟨S3x3, .i32⟩
  | 31 => ⟨S3x3, .i32⟩
  | 32 => ⟨S_, .i32⟩
  | 33 => ⟨S3x3, .i32⟩
  | 34 => ⟨S3x3, .i32⟩
  | 35 => ⟨S3x3, .i1⟩
  | 36 => ⟨S3x3, .f32⟩
  | 37 => ⟨S1x3x3, .f32⟩
  | 38 => ⟨S3200000x3x3, .f32⟩
  | 39 => ⟨S3200000x3x3, .f32⟩
  | 40 => ⟨S3200000x3x3, .f32⟩
  | 41 => ⟨S3200000x3x3, .f32⟩
  | 42 => ⟨S3200000, .f32⟩
  | 43 => ⟨S3200000x1x1, .f32⟩
  | 44 => ⟨S3200000x3x3, .f32⟩
  | 45 => ⟨S3200000x3x3, .f32⟩
  | 46 => ⟨S_, .i32⟩
  | 47 => ⟨S3200000, .i32⟩
  | 48 => ⟨S3200000, .i1⟩
  | 49 => ⟨S_, .i32⟩
  | 50 => ⟨S3200000, .i32⟩
  | 51 => ⟨S3200000, .i32⟩
  | 52 => ⟨S3200000, .i32⟩
  | 53 => ⟨S3200000x1, .i32⟩
  | 54 => ⟨S3200000x3x3, .f32⟩
  | 55 => ⟨S3200000x3x3, .f32⟩
  | 56 => ⟨S_, .f32⟩
  | 57 => ⟨S3200000, .f32⟩
  | 58 => ⟨S3200000, .f32⟩
  | 59 => ⟨S3200000, .f32⟩
  | 60 => ⟨S3200000, .f32⟩
  | 61 => ⟨S3200000, .f32⟩
  | 62 => ⟨S_, .f32⟩
  | 63 => ⟨S3200000, .f32⟩
  | 64 => ⟨S3200000, .f32⟩
  | 65 => ⟨S_, .f32⟩
  | 66 => ⟨S3200000, .f32⟩
  | 67 => ⟨S3200000, .i1⟩
  | 68 => ⟨S_, .f32⟩
  | 69 => ⟨S3200000, .f32⟩
  | 70 => ⟨S3200000, .f32⟩
  | _ => ⟨S100000, .f32⟩

abbrev hbmTy (i : Nat) : BufTy := match i / 128 with
  | 0 => hbmTy0_0 i
  | 1 => hbmTy0_1 i
  | _ => ⟨S100000, .f32⟩

abbrev bufTy : (tb : Table) → Fin (tcTables nBuf tb) → BufTy
  | .hbm, ⟨i, _⟩ => hbmTy i
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_call0_v0 : Ref sig .tc := ⟨.hbm, 36, rfl⟩
abbrev main_call0_v1 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_c : Ref sig .tc := ⟨.hbm, 51, rfl⟩
abbrev main_v31 : Ref sig .tc := ⟨.hbm, 52, rfl⟩
abbrev main_v32 : Ref sig .tc := ⟨.hbm, 53, rfl⟩
abbrev main_c_10 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_11 : Ref sig .tc := ⟨.hbm, 60, rfl⟩
abbrev main_v38 : Ref sig .tc := ⟨.hbm, 61, rfl⟩
abbrev main_v39 : Ref sig .tc := ⟨.hbm, 62, rfl⟩
abbrev main_c_12 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_13 : Ref sig .tc := ⟨.hbm, 74, rfl⟩
abbrev main_v50 : Ref sig .tc := ⟨.hbm, 75, rfl⟩
abbrev main_v51 : Ref sig .tc := ⟨.hbm, 76, rfl⟩
abbrev main_cst_14 : Ref sig .tc := ⟨.hbm, 77, rfl⟩
abbrev main_v52 : Ref sig .tc := ⟨.hbm, 78, rfl⟩
abbrev main_v53 : Ref sig .tc := ⟨.hbm, 79, rfl⟩
abbrev main_cst_15 : Ref sig .tc := ⟨.hbm, 80, rfl⟩
abbrev main_v54 : Ref sig .tc := ⟨.hbm, 81, rfl⟩
abbrev main_v55 : Ref sig .tc := ⟨.hbm, 82, rfl⟩
abbrev main_cst_16 : Ref sig .tc := ⟨.hbm, 83, rfl⟩
abbrev main_v56 : Ref sig .tc := ⟨.hbm, 84, rfl⟩
abbrev main_v57 : Ref sig .tc := ⟨.hbm, 85, rfl⟩
abbrev main_cst_17 : Ref sig .tc := ⟨.hbm, 86, rfl⟩
abbrev main_v58 : Ref sig .tc := ⟨.hbm, 87, rfl⟩
abbrev main_v59 : Ref sig .tc := ⟨.hbm, 88, rfl⟩
abbrev main_cst_18 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_19 : Ref sig .tc := ⟨.hbm, 95, rfl⟩
abbrev main_v65 : Ref sig .tc := ⟨.hbm, 96, rfl⟩
abbrev main_v66 : Ref sig .tc := ⟨.hbm, 97, rfl⟩
abbrev main_c_20 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_21 : Ref sig .tc := ⟨.hbm, 104, rfl⟩
abbrev main_v72 : Ref sig .tc := ⟨.hbm, 105, rfl⟩
abbrev main_v73 : Ref sig .tc := ⟨.hbm, 106, rfl⟩
abbrev main_c_22 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_23 : Ref sig .tc := ⟨.hbm, 114, rfl⟩
abbrev main_v80 : Ref sig .tc := ⟨.hbm, 115, rfl⟩
abbrev main_v81 : Ref sig .tc := ⟨.hbm, 116, rfl⟩
abbrev main_cst_24 : Ref sig .tc := ⟨.hbm, 117, rfl⟩
abbrev main_v82 : Ref sig .tc := ⟨.hbm, 118, rfl⟩
abbrev main_cst_25 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_26 : Ref sig .tc := ⟨.hbm, 126, rfl⟩
abbrev main_v89 : Ref sig .tc := ⟨.hbm, 127, rfl⟩
abbrev main_cst_27 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_call1_v0 : Ref sig .tc := ⟨.hbm, 142, rfl⟩
abbrev main_call1_v1 : Ref sig .tc := ⟨.hbm, 143, rfl⟩
abbrev main_call1_c : Ref sig .tc := ⟨.hbm, 144, rfl⟩
abbrev main_call1_v2 : Ref sig .tc := ⟨.hbm, 145, rfl⟩
abbrev main_call1_v3 : Ref sig .tc := ⟨.hbm, 146, rfl⟩
abbrev main_call1_v4 : Ref sig .tc := ⟨.hbm, 147, rfl⟩
abbrev main_call1_cst : Ref sig .tc := ⟨.hbm, 148, rfl⟩
abbrev main_call1_v5 : Ref sig .tc := ⟨.hbm, 149, rfl⟩
abbrev main_call1_call0_v0 : Ref sig .tc := ⟨.hbm, 150, rfl⟩
abbrev main_call1_v6 : Ref sig .tc := ⟨.hbm, 151, rfl⟩
abbrev main_call1_cst_0 : Ref sig .tc := ⟨.hbm, 152, rfl⟩
abbrev main_v103 : Ref sig .tc := ⟨.hbm, 153, rfl⟩
abbrev main_cst_28 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_c_29 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_c_30 : Ref sig .tc := ⟨.hbm, 174, rfl⟩
abbrev main_v122 : Ref sig .tc := ⟨.hbm, 175, rfl⟩
abbrev main_v123 : Ref sig .tc := ⟨.hbm, 176, rfl⟩
abbrev main_c_31 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_cst_32 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_cst_33 : Ref sig .tc := ⟨.hbm, 190, rfl⟩
abbrev main_v135 : Ref sig .tc := ⟨.hbm, 191, rfl⟩
abbrev main_v136 : Ref sig .tc := ⟨.hbm, 192, rfl⟩
abbrev main_cst_34 : Ref sig .tc := ⟨.hbm, 193, rfl⟩
abbrev main_v137 : Ref sig .tc := ⟨.hbm, 194, rfl⟩
abbrev main_v138 : Ref sig .tc := ⟨.hbm, 195, rfl⟩
abbrev main_cst_35 : Ref sig .tc := ⟨.hbm, 196, rfl⟩
abbrev main_v139 : Ref sig .tc := ⟨.hbm, 197, rfl⟩
abbrev main_v140 : Ref sig .tc := ⟨.hbm, 198, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x3_0_1 : S3200000x1.BroadcastsInDim S3200000x3 (![0, 1] : Fin 2 → Fin S3200000x3.rank)
  reducesTo_S3200000x3_S3200000_d1 : S3200000x3.ReducesTo [1] S3200000
  h_S_ : 0 < S_.numel
  bcast_S3200000x3_S3200000x3x1_0_1 : S3200000x3.BroadcastsInDim S3200000x3x1 (![0, 1] : Fin 2 → Fin S3200000x3x1.rank)
  bcast_S3200000x3_S3200000x1x3_0_2 : S3200000x3.BroadcastsInDim S3200000x1x3 (![0, 2] : Fin 2 → Fin S3200000x1x3.rank)
  bcast_S3200000x3x1_S3200000x3x3_0_1_2 : S3200000x3x1.BroadcastsInDim S3200000x3x3 (![0, 1, 2] : Fin 3 → Fin S3200000x3x3.rank)
  bcast_S3200000x1x3_S3200000x3x3_0_1_2 : S3200000x1x3.BroadcastsInDim S3200000x3x3 (![0, 1, 2] : Fin 3 → Fin S3200000x3x3.rank)
  bcast_S_S3x3 : S_.BroadcastsInDim S3x3 (![] : Fin 0 → Fin S3x3.rank)
  bcast_S_S3200000x3x3 : S_.BroadcastsInDim S3200000x3x3 (![] : Fin 0 → Fin S3200000x3x3.rank)
  bcast_S3x3_S3200000x3x3_1_2 : S3x3.BroadcastsInDim S3200000x3x3 (![1, 2] : Fin 2 → Fin S3200000x3x3.rank)
  reducesTo_S3200000x3x3_S3200000_d1_2 : S3200000x3x3.ReducesTo [1, 2] S3200000
  bcast_S3200000_S3200000x1x1_0 : S3200000.BroadcastsInDim S3200000x1x1 (![0] : Fin 1 → Fin S3200000x1x1.rank)
  bcast_S3x3_S1x3x3_1_2 : S3x3.BroadcastsInDim S1x3x3 (![1, 2] : Fin 2 → Fin S1x3x3.rank)
  bcast_S3200000x1x1_S3200000x3x3_0_1_2 : S3200000x1x1.BroadcastsInDim S3200000x3x3 (![0, 1, 2] : Fin 3 → Fin S3200000x3x3.rank)
  bcast_S1x3x3_S3200000x3x3_0_1_2 : S1x3x3.BroadcastsInDim S3200000x3x3 (![0, 1, 2] : Fin 3 → Fin S3200000x3x3.rank)
  gather_S100000_S3200000x1_S3200000_n_0_n_n_0_1_1_wf : GatherDims.WF S100000 S3200000x1 S3200000 [] [0] [] [0] [] 1 ![1]
  gather_S100000x3_S3200000x1_S3200000x3_1_0_n_n_0_1_13_wf : GatherDims.WF S100000x3 S3200000x1 S3200000x3 [1] [0] [] [0] [] 1 ![1, 3]
  gather_S100000x3x3_S3200000x1_S3200000x3x3_12_0_n_n_0_1_133_wf : GatherDims.WF S100000x3x3 S3200000x1 S3200000x3x3 [1, 2] [0] [] [0] [] 1 ![1, 3, 3]

variable [Facts₀]

def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def gather_S100000x3x3_S3200000x1_S3200000x3x3_12_0_n_n_0_1_133 : GatherDims S100000x3x3 S3200000x1 S3200000x3x3 where
  offsetDims := [1, 2]
  collapsedSliceDims := [0]
  operandBatchingDims := []
  startIndicesBatchingDims := []
  startIndexMap := [0]
  indexVectorDim := 1
  sliceSizes := ![1, 3, 3]
  wf := gather_S100000x3x3_S3200000x1_S3200000x3x3_12_0_n_n_0_1_133_wf

class Facts : Prop extends Facts₀ where

variable [Facts]
-- ==== Proof.Spec.lean ====
/-
  The per-edge electrostatic energy, twice: as the kernel's body computes it (one reciprocal of the distance,
  reused by multiplication; the damped term by an inverse square root; the trace mean by a product with one third)
  and as the reference computes it (quotients by the distance and by its square, a square root, a quotient by
  three, sums over the three components and over the nine entries of the quadrupole). Every operation is the
  extended reals' own; the float words are kept as words. Also the atom a 32-bit index names once "add N if
  negative" and the gather's clamp have been applied, and the two whole-array functions over the seven arguments.
-/
import Idealize.ShloMosaic.PureOps.Ideal
import Idealize.ShloMosaic.Lib.ValueIdx

noncomputable section

namespace Cert.Elec

open Idealize.ShloMosaic Idealize.ShloMosaic.ValueIdx

/-- The extended real an f32 word denotes. -/
abbrev W (b : BitVec 32) : EReal := Ideal.ofBits .f32 b

abbrev c0 : EReal := W 0x00000000#32      -- 0
abbrev c1 : EReal := W 0x3F800000#32      -- 1
abbrev c025 : EReal := W 0x3E800000#32    -- 1/4
abbrev c4 : EReal := W 0x40800000#32      -- 4
abbrev c15 : EReal := W 0x41700000#32     -- 15
abbrev c10 : EReal := W 0x41200000#32     -- 10
abbrev c6 : EReal := W 0x40C00000#32      -- 6
abbrev c100 : EReal := W 0x42C80000#32    -- 100
abbrev c02 : EReal := W 0x3E4CCCCD#32     -- the f32 nearest 0.2
abbrev c2 : EReal := W 0x40000000#32      -- 2
abbrev c1000 : EReal := W 0x447A0000#32   -- 1000
abbrev c003 : EReal := W 0x3CF5C28F#32    -- the f32 nearest 0.03
abbrev c3 : EReal := W 0x40400000#32      -- 3
abbrev c10000 : EReal := W 0x461C4000#32  -- 10000
abbrev c0004 : EReal := W 0x3B83126F#32   -- the f32 nearest 0.004
abbrev cK : EReal := W 0x40E664F3#32      -- the f32 nearest 7.199822675975274

/-- The energy of one edge as the kernel computes it: `third` is the constant the trace is multiplied by, `qu`, `qv`
    the two charges, `d` the distance, `v` the edge vector, `a`, `b` the dipoles of the first and second atom, `Q` the
    quadrupole of the second atom. -/
def kEdge (third qu qv d : EReal) (v a b : Fin 3 → EReal) (Q : Fin 3 → Fin 3 → EReal) : EReal :=
  let inv := Ideal.div c1 d
  let inv2 := inv * inv
  let damp := Ideal.rsqrt (d * d + c1)
  let x := d * c025
  let x3 := x * x * x
  let s := c1 - x3 * ((c10 - c15 * x) + c6 * x * x)
  let sw := Scalar.select (Ideal.cmp .olt x c1) s c0
  let chi := sw * damp + (c1 - sw) * inv
  let sh1 := c02 - Ideal.div d c100
  let e0 := qu * qv * (chi - sh1)
  let chi2 := chi * chi
  let chi3 := chi2 * chi
  let sh2 := c003 - Ideal.div (c2 * d) c1000
  let sh3 := c0004 - Ideal.div (c3 * d) c10000
  let n0 := v 0 * inv
  let n1 := v 1 * inv
  let n2 := v 2 * inv
  let duv := n0 * b 0 + n1 * b 1 + n2 * b 2
  let dvu := n0 * a 0 + n1 * a 1 + n2 * a 2
  let ecd := c2 * qu * duv * (chi2 - sh2)
  let dd := a 0 * b 0 + a 1 * b 1 + a 2 * b 2
  let edd := (dd - c3 * duv * dvu) * (chi3 - sh3)
  let e1 := e0 + ecd + edd
  let tm := (v 0 * v 0 + v 1 * v 1 + v 2 * v 2) * third
  let term := v 0 * (v 0 * Q 0 0 + v 1 * Q 0 1 + v 2 * Q 0 2) + v 1 * (v 0 * Q 1 0 + v 1 * Q 1 1 + v 2 * Q 1 2)
    + v 2 * (v 0 * Q 2 0 + v 1 * Q 2 1 + v 2 * Q 2 2)
  let suv := (term - tm * (Q 0 0 + Q 1 1 + Q 2 2)) * inv2
  let e2 := e1 + qu * suv * (chi3 - sh3)
  Scalar.select (Ideal.cmp .ole d c10) (cK * e2) c0

/-- The energy of one edge as the reference computes it (same arguments, no `third`: it divides by three). -/
def rEdge (qu qv d : EReal) (v a b : Fin 3 → EReal) (Q : Fin 3 → Fin 3 → EReal) : EReal :=
  let damp := Ideal.sqrt (d * d + c1)
  let x := Ideal.div d c4
  let x3 := x * x * x
  let s := c1 - x3 * ((c10 - c15 * x) + c6 * x * x)
  let sw := Scalar.select (Ideal.cmp .olt x c1) s c0
  let chi := Ideal.div sw damp + Ideal.div (c1 - sw) d
  let sh1 := c02 - Ideal.div d c100
  let e0 := qu * qv * (chi - sh1)
  let chi2 := chi * chi
  let chi3 := chi2 * chi
  let sh2 := c003 - Ideal.div (c2 * d) c1000
  let sh3 := c0004 - Ideal.div (c3 * d) c10000
  let n : Fin 3 → EReal := fun k => Ideal.div (v k) d
  let duv := c0 + ∑ k : Fin 3, n k * b k
  let dvu := c0 + ∑ k : Fin 3, n k * a k
  let ecd := c2 * qu * duv * (chi2 - sh2)
  let dd := c0 + ∑ k : Fin 3, a k * b k
  let edd := (dd - c3 * duv * dvu) * (chi3 - sh3)
  let e1 := e0 + ecd + edd
  let tr := c0 + ∑ i : Fin 3, ∑ j : Fin 3, (if i = j then v i * v j else c0)
  let tm := Ideal.div tr c3
  let suv := c0 + ∑ i : Fin 3, ∑ j : Fin 3,
    Ideal.div (v i * v j - tm * (if i = j then (1 : EReal) else 0)) (d * d) * Q i j
  let e2 := e1 + qu * suv * (chi3 - sh3)
  Scalar.select (Ideal.cmp .ole d c10) (cK * e2) c0

/-- "Add 100000 if negative": what both programs do to an index before they gather with it. -/
def wrap (i : BitVec 32) : BitVec 32 := Scalar.select (IntOp.cmpi .slt i 0#32) (IntOp.addi i 100000#32) i

/-- The atom an index names: wrapped, read signed, a negative value as 0, clamped to the last atom (the gather's own
    clamp of a start index). -/
def atom (i : BitVec 32) : Fin 100000 := ⟨min (wrap i).toInt.toNat 99999, by omega⟩

/-- The channel of a nine-channel layout that holds entry (i, j) of a 3×3 matrix (row-major). -/
def q9 (i j : Fin 3) : Fin 9 := ⟨3 * i.val + j.val, by have := i.isLt; have := j.isLt; omega⟩

/-- The edge that sits at row `r`, lane `l` when the 3200000 edges are laid out as 25000 rows of 128. -/
def eidx (r : Fin 25000) (l : Fin 128) : Fin 3200000 := ⟨128 * r.val + l.val, by have := r.isLt; have := l.isLt; omega⟩

/-- The three components of edge `e`'s vector. -/
def edgeV (vec : FVec Ideal ⟨2, ![3200000, 3]⟩ .f32) (e : Fin 3200000) : Fin 3 → EReal := fun k => vec (ix2 e k)
/-- The three components of atom `n`'s dipole. -/
def atomD (dip : FVec Ideal ⟨2, ![100000, 3]⟩ .f32) (n : Fin 100000) : Fin 3 → EReal := fun k => dip (ix2 n k)
/-- The nine entries of atom `n`'s quadrupole. -/
def atomQ (quad : FVec Ideal ⟨3, ![100000, 3, 3]⟩ .f32) (n : Fin 100000) : Fin 3 → Fin 3 → EReal :=
  fun i j => quad (ix3 n i j)

/-- The kernel's result as one function of the seven arguments: edge `e` gets the kernel's per-edge energy of the
    charges, dipoles and quadrupole of the atoms its two indices name. -/
def Gk (third : EReal) (ch : FVec Ideal ⟨1, ![100000]⟩ .f32) (dip : FVec Ideal ⟨2, ![100000, 3]⟩ .f32)
    (quad : FVec Ideal ⟨3, ![100000, 3, 3]⟩ .f32) (vec : FVec Ideal ⟨2, ![3200000, 3]⟩ .f32)
    (dist : FVec Ideal ⟨1, ![3200000]⟩ .f32) (iu iv : IVec ⟨1, ![3200000]⟩ 32) : FVec Ideal ⟨1, ![3200000]⟩ .f32 :=
  fun j => kEdge third (ch (ix1 (atom (iu j)))) (ch (ix1 (atom (iv j)))) (dist j) (edgeV vec (j 0))
    (atomD dip (atom (iu j))) (atomD dip (atom (iv j))) (atomQ quad (atom (iv j)))

/-- The reference's result as one function of the seven arguments. -/
def Gr (ch : FVec Ideal ⟨1, ![100000]⟩ .f32) (dip : FVec Ideal ⟨2, ![100000, 3]⟩ .f32)
    (quad : FVec Ideal ⟨3, ![100000, 3, 3]⟩ .f32) (vec : FVec Ideal ⟨2, ![3200000, 3]⟩ .f32)
    (dist : FVec Ideal ⟨1, ![3200000]⟩ .f32) (iu iv : IVec ⟨1, ![3200000]⟩ 32) : FVec Ideal ⟨1, ![3200000]⟩ .f32 :=
  fun j => rEdge (ch (ix1 (atom (iu j)))) (ch (ix1 (atom (iv j)))) (dist j) (edgeV vec (j 0))
    (atomD dip (atom (iu j))) (atomD dip (atom (iv j))) (atomQ quad (atom (iv j)))

end Cert.Elec

end
-- ==== Proof.Third.lean ====
/-
  The constant the kernel multiplies the squared length of the edge vector by is named one third: at the ideal
  instance it denotes the rational 1/3, by the certificate's table of named constants.
-/
import proofs.«173083_j48498770706888_2_alg».proof.KernelIdeal
import Idealize.ShloMosaic.PureOps.IdealRules

noncomputable section

namespace Cert.Elec

open Idealize.ShloMosaic

/-- The kernel's named constant, as an extended real. -/
abbrev third : EReal := Named.named (F := Ideal) Cert.KernelIdeal.κ "inv_3" (φ := .f32) 0x3EAAAAAB#32

/-- It is one third. -/
theorem third_eq : third = ((1 / 3 : ℝ) : EReal) :=
  IdealRules.named_const.ideal_named_scalar _ _ _ _ rfl

end Cert.Elec

end
-- ==== Proof.KernelPayload.lean ====
/-
  What the kernel's body stores at one position of its output block: the kernel's per-edge energy of what it
  loaded at that position of its seven input blocks.

  Three steps. (1) Every operation of the body between its loads and its one store acts position by position, so
  the stored value at a position is the per-edge energy of the loaded vectors' values there; with the loaded
  vectors left as they are (each still under its change of shape) this holds by unfolding. (2) A load of a whole
  block followed by a change of shape to the same shape reads the block's own entry; a load of channel k of a
  block [n, 1000, 128] followed by dropping the leading unit axis reads entry (k, p, q). (3) The one store covers
  the whole output block from offset zero, so the block is the stored value.
-/
import proofs.«173083_j48498770706888_2_alg».proof.Proof.Gen.KernelIdeal.Frame
import proofs.«173083_j48498770706888_2_alg».proof.Proof.Spec
import proofs.«173083_j48498770706888_2_alg».proof.Proof.Third
import Idealize.ShloMosaic.Lib.ValueLayout

noncomputable section

namespace Cert.Elec

open Idealize.ShloMosaic Idealize.ShloMosaic.ValueIdx Cert.KernelIdeal

namespace Payload

/-- The offsets (0, 0), however spelt, are the zero offsets. -/
theorem zeros2 : (![0, 0] : Fin 2 → Nat) = fun _ => 0 := by
  funext a
  match a with
  | ⟨0, _⟩ => rfl
  | ⟨1, _⟩ => rfl

/-- A whole block loaded from offset zero and cast to its own shape reads the block's own entry. -/
theorem whole_apply (x : Vec Ideal S1000x128 .f32) (j : S1000x128.Idx) :
    Gen.k0_pay2 (F := Ideal) (View.ld x Gen.r0_0) j = x j := by
  rw [View.ld_unit_zero (S := S1000x128) zeros2]
  exact congrFun (shapeCast_self x _) j

/-- Channel k of a block [n, 1000, 128], loaded as a [1, 1000, 128] slab at offsets (k, 0, 0) and cast to
    [1000, 128], reads at (p, q) the block's entry (k, p, q). -/
theorem chan_apply {n : Nat} (x : Vec Ideal ⟨3, ![n, 1000, 128]⟩ .f32) (off : Fin 3 → Nat)
    (inb : ∀ a, off a + S1x1000x128.size a ≤ (⟨3, ![n, 1000, 128]⟩ : Shape).size a) (k : Fin n)
    (h0 : off 0 = k.val) (h1 : off 1 = 0) (h2 : off 2 = 0) (p : Fin 1000) (q : Fin 128) :
    Gen.k0_pay14 (F := Ideal) (View.ld x (Rect.unit off S1x1000x128.size inb)) (ix2 p q) = x (ix3 k p q) := by
  unfold Gen.k0_pay14
  refine (shapeCast_1ab_ab_apply (a := 1000) (b := 128) _ _ p q).trans ?_
  show x ((Rect.unit (s := ⟨3, ![n, 1000, 128]⟩) off S1x1000x128.size inb).idx (ix3 (0 : Fin 1) p q)) = x (ix3 k p q)
  refine congrArg x (funext fun a => Fin.ext ?_)
  match a with
  | ⟨0, _⟩ => show off 0 + 1 * 0 = k.val; omega
  | ⟨1, _⟩ => show off 1 + 1 * p.val = p.val; omega
  | ⟨2, _⟩ => show off 2 + 1 * q.val = q.val; omega

/-- The stored value at a position, over loaded vectors left as they are: the per-edge energy of their values at
    that position (each still under its change of shape). Every operation in between acts position by position. -/
theorem payload_pointwise (y0 y1 y2 : Vec Ideal S1000x128 .f32)
    (v0 v1 v2 a0 a1 a2 b0 b1 b2 : Vec Ideal S1x1000x128 .f32)
    (Q0 Q1 Q2 Q3 Q4 Q5 Q6 Q7 Q8 : Vec Ideal S1x1000x128 .f32) (j : S1000x128.Idx) :
    Gen.k0_pay1 (Gen.k0_pay2 y2) (Gen.k0_pay11 (Gen.k0_pay7 y2)) (Gen.k0_pay13 (Gen.k0_pay2 y2))
      (Gen.k0_pay23 (Gen.k0_pay3 y0) (Gen.k0_pay9 (Gen.k0_pay3 y0) (Gen.k0_pay4 y1) (Gen.k0_pay7 y2) (Gen.k0_pay8 y2))
        (Gen.k0_pay10 (Gen.k0_pay7 y2)) (Gen.k0_pay11 (Gen.k0_pay7 y2)) (Gen.k0_pay12 (Gen.k0_pay2 y2))
        (Gen.k0_pay13 (Gen.k0_pay2 y2)) (Gen.k0_pay17 (Gen.k0_pay5 y2) v0) (Gen.k0_pay18 (Gen.k0_pay5 y2) v1)
        (Gen.k0_pay19 (Gen.k0_pay5 y2) v2) (Gen.k0_pay20 a0) (Gen.k0_pay21 a1) (Gen.k0_pay22 a2) b0 b1 b2)
      (Gen.k0_pay27 (Gen.k0_pay3 y0) (Gen.k0_pay6 y2) (Gen.k0_pay14 v0) (Gen.k0_pay15 v1) (Gen.k0_pay16 v2)
        (Gen.k0_pay24 Q0) (Gen.k0_pay25 Q1) (Gen.k0_pay26 Q2) Q3 Q4 Q5 Q6 Q7 Q8) j
      = kEdge third (Gen.k0_pay2 y0 j) (Gen.k0_pay2 y1 j) (Gen.k0_pay2 y2 j)
          ![Gen.k0_pay14 v0 j, Gen.k0_pay14 v1 j, Gen.k0_pay14 v2 j]
          ![Gen.k0_pay14 a0 j, Gen.k0_pay14 a1 j, Gen.k0_pay14 a2 j]
          ![Gen.k0_pay14 b0 j, Gen.k0_pay14 b1 j, Gen.k0_pay14 b2 j]
          ![![Gen.k0_pay14 Q0 j, Gen.k0_pay14 Q1 j, Gen.k0_pay14 Q2 j],
            ![Gen.k0_pay14 Q3 j, Gen.k0_pay14 Q4 j, Gen.k0_pay14 Q5 j],
            ![Gen.k0_pay14 Q6 j, Gen.k0_pay14 Q7 j, Gen.k0_pay14 Q8 j]] := by
  rfl

end Payload

open Payload in
/-- Entry (p, q) of the output block is the per-edge energy of entry (p, q) of the two charge blocks and the distance
    block, channels 0–2 at (p, q) of the vector block and of the two dipole blocks, and channel 3i + j at (p, q) of
    the quadrupole block. -/
theorem out0_7_apply (x0 x1 x2 : Vec Ideal S1000x128 .f32) (x3 x4 x5 : Vec Ideal S3x1000x128 .f32)
    (x6 : Vec Ideal S9x1000x128 .f32) (p : Fin 1000) (q : Fin 128) :
    Cert.KernelIdeal.Gen.out0_7 (F := Ideal) x0 x1 x2 x3 x4 x5 x6 (ix2 p q)
      = kEdge third (x0 (ix2 p q)) (x1 (ix2 p q)) (x2 (ix2 p q)) (fun k => x3 (ix3 k p q)) (fun k => x4 (ix3 k p q))
          (fun k => x5 (ix3 k p q)) (fun i j => x6 (ix3 (q9 i j) p q)) := by
  unfold Gen.out0_7
  rw [View.canon_unit_zero (S := S1000x128) zeros2]
  refine (payload_pointwise _ _ _ _ _ _ _ _ _ _ _ _ _ _ _ _ _ _ _ _ _ (ix2 p q)).trans ?_
  have e0 := whole_apply x0 (ix2 p q)
  have e1 := whole_apply x1 (ix2 p q)
  have e2 := whole_apply x2 (ix2 p q)
  have ev : (![Gen.k0_pay14 (F := Ideal) (View.ld x3 Gen.r0_1) (ix2 p q),
      Gen.k0_pay14 (F := Ideal) (View.ld x3 Gen.r0_2) (ix2 p q),
      Gen.k0_pay14 (F := Ideal) (View.ld x3 Gen.r0_3) (ix2 p q)] : Fin 3 → EReal) = fun k => x3 (ix3 k p q) := by
    funext k
    match k with
    | ⟨0, _⟩ => exact chan_apply x3 ![0, 0, 0] Gen.inb_S3x1000x128_S1x1000x128_0_0_0 (0 : Fin 3) rfl rfl rfl p q
    | ⟨1, _⟩ => exact chan_apply x3 ![1, 0, 0] Gen.inb_S3x1000x128_S1x1000x128_1_0_0 (1 : Fin 3) rfl rfl rfl p q
    | ⟨2, _⟩ => exact chan_apply x3 ![2, 0, 0] Gen.inb_S3x1000x128_S1x1000x128_2_0_0 (2 : Fin 3) rfl rfl rfl p q
  have ea : (![Gen.k0_pay14 (F := Ideal) (View.ld x4 Gen.r0_1) (ix2 p q),
      Gen.k0_pay14 (F := Ideal) (View.ld x4 Gen.r0_2) (ix2 p q),
      Gen.k0_pay14 (F := Ideal) (View.ld x4 Gen.r0_3) (ix2 p q)] : Fin 3 → EReal) = fun k => x4 (ix3 k p q) := by
    funext k
    match k with
    | ⟨0, _⟩ => exact chan_apply x4 ![0, 0, 0] Gen.inb_S3x1000x128_S1x1000x128_0_0_0 (0 : Fin 3) rfl rfl rfl p q
    | ⟨1, _⟩ => exact chan_apply x4 ![1, 0, 0] Gen.inb_S3x1000x128_S1x1000x128_1_0_0 (1 : Fin 3) rfl rfl rfl p q
    | ⟨2, _⟩ => exact chan_apply x4 ![2, 0, 0] Gen.inb_S3x1000x128_S1x1000x128_2_0_0 (2 : Fin 3) rfl rfl rfl p q
  have eb : (![Gen.k0_pay14 (F := Ideal) (View.ld x5 Gen.r0_1) (ix2 p q),
      Gen.k0_pay14 (F := Ideal) (View.ld x5 Gen.r0_2) (ix2 p q),
      Gen.k0_pay14 (F := Ideal) (View.ld x5 Gen.r0_3) (ix2 p q)] : Fin 3 → EReal) = fun k => x5 (ix3 k p q) := by
    funext k
    match k with
    | ⟨0, _⟩ => exact chan_apply x5 ![0, 0, 0] Gen.inb_S3x1000x128_S1x1000x128_0_0_0 (0 : Fin 3) rfl rfl rfl p q
    | ⟨1, _⟩ => exact chan_apply x5 ![1, 0, 0] Gen.inb_S3x1000x128_S1x1000x128_1_0_0 (1 : Fin 3) rfl rfl rfl p q
    | ⟨2, _⟩ => exact chan_apply x5 ![2, 0, 0] Gen.inb_S3x1000x128_S1x1000x128_2_0_0 (2 : Fin 3) rfl rfl rfl p q
  have eQ : (![![Gen.k0_pay14 (F := Ideal) (View.ld x6 Gen.r0_4) (ix2 p q),
        Gen.k0_pay14 (F := Ideal) (View.ld x6 Gen.r0_5) (ix2 p q),
        Gen.k0_pay14 (F := Ideal) (View.ld x6 Gen.r0_6) (ix2 p q)],
      ![Gen.k0_pay14 (F := Ideal) (View.ld x6 Gen.r0_7) (ix2 p q),
        Gen.k0_pay14 (F := Ideal) (View.ld x6 Gen.r0_8) (ix2 p q),
        Gen.k0_pay14 (F := Ideal) (View.ld x6 Gen.r0_9) (ix2 p q)],
      ![Gen.k0_pay14 (F := Ideal) (View.ld x6 Gen.r0_10) (ix2 p q),
        Gen.k0_pay14 (F := Ideal) (View.ld x6 Gen.r0_11) (ix2 p q),
        Gen.k0_pay14 (F := Ideal) (View.ld x6 Gen.r0_12) (ix2 p q)]] : Fin 3 → Fin 3 → EReal)
      = fun i j => x6 (ix3 (q9 i j) p q) := by
    funext i j
    match i, j with
    | ⟨0, _⟩, ⟨0, _⟩ => exact chan_apply x6 ![0, 0, 0] Gen.inb_S9x1000x128_S1x1000x128_0_0_0 (0 : Fin 9) rfl rfl rfl p q
    | ⟨0, _⟩, ⟨1, _⟩ => exact chan_apply x6 ![1, 0, 0] Gen.inb_S9x1000x128_S1x1000x128_1_0_0 (1 : Fin 9) rfl rfl rfl p q
    | ⟨0, _⟩, ⟨2, _⟩ => exact chan_apply x6 ![2, 0, 0] Gen.inb_S9x1000x128_S1x1000x128_2_0_0 (2 : Fin 9) rfl rfl rfl p q
    | ⟨1, _⟩, ⟨0, _⟩ => exact chan_apply x6 ![3, 0, 0] Gen.inb_S9x1000x128_S1x1000x128_3_0_0 (3 : Fin 9) rfl rfl rfl p q
    | ⟨1, _⟩, ⟨1, _⟩ => exact chan_apply x6 ![4, 0, 0] Gen.inb_S9x1000x128_S1x1000x128_4_0_0 (4 : Fin 9) rfl rfl rfl p q
    | ⟨1, _⟩, ⟨2, _⟩ => exact chan_apply x6 ![5, 0, 0] Gen.inb_S9x1000x128_S1x1000x128_5_0_0 (5 : Fin 9) rfl rfl rfl p q
    | ⟨2, _⟩, ⟨0, _⟩ => exact chan_apply x6 ![6, 0, 0] Gen.inb_S9x1000x128_S1x1000x128_6_0_0 (6 : Fin 9) rfl rfl rfl p q
    | ⟨2, _⟩, ⟨1, _⟩ => exact chan_apply x6 ![7, 0, 0] Gen.inb_S9x1000x128_S1x1000x128_7_0_0 (7 : Fin 9) rfl rfl rfl p q
    | ⟨2, _⟩, ⟨2, _⟩ => exact chan_apply x6 ![8, 0, 0] Gen.inb_S9x1000x128_S1x1000x128_8_0_0 (8 : Fin 9) rfl rfl rfl p q
  rw [e0, e1, e2, ev, ea, eb, eQ]

end Cert.Elec

end
-- ==== Proof.LibEdgeSum.lean ====
/-
  Sums over the edges of a graph, as a row gather followed by a scatter-add, over the extended reals.

  General facts, no program in them:
  * a nonnegative real factor passes through a finite sum of extended reals (`sum_mul_of_nonneg_of_ne_top`:
    the extended reals do not distribute in general, but (y + z)·c = y·c + z·c for 0 ≤ c < ⊤);
  * which operand element a ROW GATHER reads (operand [N, C], one start index per row e of the result [E, C]:
    row = the index read signed and clamped into [0, N − 1], column kept), and which a VECTOR gather reads
    (operand [N], result [E]);
  * where a ROW SCATTER puts an update row (operand [N, C], updates [E, C]): if update (e, c) lands at (n, c')
    then the scatter index of e, read signed, is n, and c = c' (an update whose index is outside lands nowhere);
  * the EDGE-SUM LAW (`edge_sum_law`): gathering rows already scaled by a per-row factor, summing them at their
    targets and scaling the target row by its factor equals gathering the unscaled rows, scaling each by the
    product of the source's and the target's factors, and summing — provided the factors are nonnegative reals
    and an edge that lands at row n reads the target factor at n.
-/
import Idealize.ShloMosaic.PureOps.Ideal
import Idealize.ShloMosaic.PureOps.Ideal.Laws
import Idealize.ShloMosaic.Lib.ValueIdx

noncomputable section

open scoped BigOperators

namespace Cert.EdgeSum

open Idealize.ShloMosaic Idealize.ShloMosaic.ValueIdx

/-! ## A nonnegative real factor and a finite sum -/

/-- (Σ f)·c = Σ (f·c) over the extended reals when 0 ≤ c < ⊤. -/
theorem sum_mul_of_nonneg_of_ne_top {ι : Type*} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih =>
    rw [Finset.sum_insert ha, Finset.sum_insert ha, EReal.right_distrib_of_nonneg_of_ne_top h0 ht, ih]

/-! ## A row gather: operand [N, C], start indices [E, 1], result [E, C] -/

/-- The dimension numbers of `x[idx]` for a matrix `x : [N, C]` and a vector of E row indices kept as [E, 1]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a row gather reads for result row `j 0`: the start index, signed, clamped into [0, N − 1]. -/
theorem rowGather_row {N E C w : Nat}
    (wf : GatherDims.WF ⟨2, ![N, C]⟩ ⟨2, ![E, 1]⟩ ⟨2, ![E, C]⟩ [1] [0] [] [0] [] 1 ![1, C])
    (j : (⟨2, ![E, C]⟩ : Shape).Idx) (idx : IVec ⟨2, ![E, 1]⟩ w) :
    (((rowGatherDims N E C wf).operandIdx j idx) 0).val
      = min (idx (ix2 (j 0) (0 : Fin 1))).toInt.toNat (N - 1) := by
  show (rowGatherDims N E C wf).start j idx 0 + (rowGatherDims N E C wf).batchCoord j 0
    + (rowGatherDims N E C wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx j ⟨List.idxOf (0 : Fin 2) (rowGatherDims N E C wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The column a row gather reads: the result's own column. -/
theorem rowGather_col {N E C w : Nat}
    (wf : GatherDims.WF ⟨2, ![N, C]⟩ ⟨2, ![E, 1]⟩ ⟨2, ![E, C]⟩ [1] [0] [] [0] [] 1 ![1, C])
    (j : (⟨2, ![E, C]⟩ : Shape).Idx) (idx : IVec ⟨2, ![E, 1]⟩ w) :
    (((rowGatherDims N E C wf).operandIdx j idx) 1).val = (j 1).val := by
  show (rowGatherDims N E C wf).start j idx 1 + (rowGatherDims N E C wf).batchCoord j 1
    + (rowGatherDims N E C wf).offCoord j 1 = _
  rw [GatherDims.batchCoord_eq_zero _ _ _ List.not_mem_nil]
  have hs : (rowGatherDims N E C wf).start j idx 1 = 0 := by
    unfold GatherDims.start
    rw [dif_neg (show ¬ (1 : Fin 2) ∈ [(0 : Fin 2)] by decide)]
  rw [hs]
  simp only [Nat.add_zero, Nat.zero_add]
  unfold GatherDims.offCoord
  rw [dif_pos (show (1 : Fin 2) ∈ (rowGatherDims N E C wf).sKept from
    (GatherDims.mem_sKept _ _).mpr ⟨(show ¬ (1 : Fin 2) ∈ [(0 : Fin 2)] by decide), List.not_mem_nil⟩)]
  rfl

/-! ## A vector gather: operand [N], start indices [E, 1], result [E] -/

/-- The dimension numbers of `v[idx]` for a vector `v : [N]` and E indices kept as [E, 1]. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The element a vector gather reads for result element `j 0`: the start index, signed, clamped into [0, N − 1]. -/
theorem vecGather_elt {N E w : Nat}
    (wf : GatherDims.WF ⟨1, ![N]⟩ ⟨2, ![E, 1]⟩ ⟨1, ![E]⟩ [] [0] [] [0] [] 1 ![1])
    (j : (⟨1, ![E]⟩ : Shape).Idx) (idx : IVec ⟨2, ![E, 1]⟩ w) :
    (((vecGatherDims N E wf).operandIdx j idx) 0).val
      = min (idx (ix2 (j 0) (0 : Fin 1))).toInt.toNat (N - 1) := by
  show (vecGatherDims N E wf).start j idx 0 + (vecGatherDims N E wf).batchCoord j 0
    + (vecGatherDims N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx j ⟨List.idxOf (0 : Fin 1) (vecGatherDims N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-! ## A row scatter: operand [N, C], scatter indices [E, 1], updates [E, C] -/

/-- The dimension numbers of `x.at[idx].add(u)` for a matrix `x : [N, C]`, E row indices kept as [E, 1] and update
    rows `u : [E, C]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section RowScatter
variable {N E C w : Nat} (wf : ScatterDims.WF ⟨2, ![N, C]⟩ ⟨2, ![E, 1]⟩ ⟨2, ![E, C]⟩ [1] [0] [0] 1)
  (j : (⟨2, ![E, C]⟩ : Shape).Idx) (idx : IVec ⟨2, ![E, 1]⟩ w)

theorem rowScatter_start0 :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowScatter_window0 : (rowScatterDims N E C wf).window j 0 = 0 := by
  unfold ScatterDims.window
  rw [dif_neg (show ¬ (0 : Fin 2) ∈ (rowScatterDims N E C wf).sKept by simp [ScatterDims.sKept, Shape.kept])]

theorem rowScatter_start1 : (rowScatterDims N E C wf).start j idx 1 = 0 := by
  unfold ScatterDims.start
  rw [dif_neg (show ¬ (1 : Fin 2) ∈ [(0 : Fin 2)] by decide)]

theorem rowScatter_window1 : (rowScatterDims N E C wf).window j 1 = (j 1).val := by
  unfold ScatterDims.window
  rw [dif_pos (show (1 : Fin 2) ∈ (rowScatterDims N E C wf).sKept by simp [ScatterDims.sKept, Shape.kept])]
  rfl

/-- WHERE AN UPDATE LANDS: if update (e, c) lands at operand index `i`, the scatter index of row e, read signed,
    is `i`'s row, and the column is the update's own. -/
theorem rowScatter_lands (i : (⟨2, ![N, C]⟩ : Shape).Idx)
    (h : (rowScatterDims N E C wf).resultIdx? j idx = some i) :
    (idx (ix2 (j 0) (0 : Fin 1))).toInt = ((i 0).val : Int) ∧ (j 1).val = (i 1).val := by
  unfold ScatterDims.resultIdx? at h
  split at h
  · rename_i hall
    have hi := Option.some.inj h
    have h0 := congrArg Fin.val (congrFun hi 0)
    have h1 := congrArg Fin.val (congrFun hi 1)
    have a0 := hall 0
    have a1 := hall 1
    simp only [rowScatter_start0, rowScatter_window0, rowScatter_start1, rowScatter_window1] at h0 h1 a0 a1
    constructor
    · omega
    · omega
  · exact absurd h (by simp)

end RowScatter

/-! ## The normalising factor, and numpy's negative indices -/

/-- The f32 word of 1.0 denotes the real 1. -/
theorem one_word : Ideal.ofBits .f32 0x3F800000#32 = ((1 : ℝ) : EReal) := by
  simp [Ideal.ofBits, Ideal.ieee]
  norm_cast
  norm_num

/-- The inverse square root of anything bounded below by a positive quantity is a nonnegative real: the maximum is a
    positive real or +∞, whose inverse square roots are a nonnegative real and 0. -/
theorem rsqrt_max_nonneg (d one : EReal) (h1 : 0 < one) :
    0 ≤ Ideal.rsqrt (max d one) ∧ Ideal.rsqrt (max d one) ≠ ⊤ := by
  have hy : 0 < max d one := lt_max_of_lt_right h1
  generalize max d one = y at hy
  induction y using EReal.rec with
  | bot => exact absurd hy (by simp)
  | coe r =>
    have hr : 0 < r := by exact_mod_cast hy
    have e : Ideal.rsqrt (r : EReal) = (((Real.sqrt r)⁻¹ : ℝ) : EReal) := by
      show (if r < 0 then ⊥ else if r = 0 then ⊤ else (((Real.sqrt r)⁻¹ : ℝ) : EReal)) = _
      rw [if_neg (not_lt.mpr hr.le), if_neg hr.ne']
    rw [e]
    exact ⟨EReal.coe_nonneg.mpr (inv_nonneg.mpr (Real.sqrt_nonneg r)), EReal.coe_ne_top _⟩
  | top => exact ⟨le_of_eq rfl, by show (0 : EReal) ≠ ⊤; exact EReal.zero_ne_top⟩

/-- A 32-bit index whose signed value is a natural number n below N is left alone by "add N if negative", and
    clamping it into [0, N − 1] gives n back. -/
theorem wrap_clamp_of_toInt (N : Nat) (w : BitVec 32) (x : BitVec 32) (n : Nat) (hn : n < N) (hx : x.toInt = (n : Int)) :
    min (Scalar.select (IntOp.cmpi .slt x 0#32) (IntOp.addi x w) x).toInt.toNat (N - 1) = n := by
  have hs : IntOp.cmpi .slt x 0#32 = 0#1 := by
    show BitVec.ofBool (x.slt 0#32) = 0#1
    have : x.slt 0#32 = false := by
      rw [BitVec.slt_eq_decide]
      simp [hx]
    rw [this]; rfl
  rw [hs, select_zero, hx]
  simp only [Int.toNat_natCast]
  omega

/-! ## The edge-sum law -/

/-- THE EDGE-SUM LAW. `H` holds one row per node, `dis` one factor per node, a nonnegative real; `idxS` names the
    source row of each edge, `idxD` its target row as the scatter reads it (signed, dropped when outside) and `idxDw`
    its target row as a gather reads it (clamped); `hD`: whenever the scatter lands an edge at row n, the gather reads
    row n too. Then
        (Σ over edges landing at row i₀ of H[src]·dis[src]) · dis[i₀]
      = Σ over edges landing at row i₀ of H[src]·(dis[src]·dis[target]),
    entry by entry, both sums started from an all-zero array: the factor dis[i₀] is the same for every edge of the sum
    (`hD`), a nonnegative real passes through a finite sum of extended reals, and the product is associative. -/
theorem edge_sum_law {N E C : Nat}
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H : (⟨2, ![N, C]⟩ : Shape).Idx → EReal) (dis : (⟨1, ![N]⟩ : Shape).Idx → EReal)
    (hdis : ∀ n, 0 ≤ dis n ∧ dis n ≠ ⊤)
    (Z : (⟨2, ![N, C]⟩ : Shape).Idx → EReal) (hZ : ∀ i, Z i = 0)
    (idxS idxD idxDw : IVec ⟨2, ![E, 1]⟩ 32)
    (hD : ∀ (e : Fin E) (n : Fin N), (idxD (ix2 e (0 : Fin 1))).toInt = (n.val : Int) →
        min (idxDw (ix2 e (0 : Fin 1))).toInt.toNat (N - 1) = n.val)
    (i : (⟨2, ![N, C]⟩ : Shape).Idx) :
    Ideal.hostScatterAdd (rowScatterDims N E C wfs) Z idxD
        (Host.gather (rowGatherDims N E C wfg) (fun r => H r * dis (ix1 (r 0))) idxS) i * dis (ix1 (i 0))
      = Ideal.hostScatterAdd (rowScatterDims N E C wfs) Z idxD
        (fun j => Host.gather (rowGatherDims N E C wfg) H idxS j
          * (Host.gather (vecGatherDims N E wfv) dis idxS (ix1 (j 0))
              * Host.gather (vecGatherDims N E wfv) dis idxDw (ix1 (j 0)))) i := by
  unfold Ideal.hostScatterAdd
  obtain ⟨h0, ht⟩ := hdis (ix1 (i 0))
  rw [hZ i, zero_add, zero_add, sum_mul_of_nonneg_of_ne_top _ _ h0 ht]
  refine Finset.sum_congr rfl fun j hj => ?_
  have hl := (Finset.mem_filter.mp hj).2
  obtain ⟨hrow, -⟩ := rowScatter_lands wfs j idxD i hl
  have e1 : ix1 (((rowGatherDims N E C wfg).operandIdx j idxS) 0)
      = (vecGatherDims N E wfv).operandIdx (ix1 (j 0)) idxS := funext fun a => Fin.ext (by
    match a with
    | ⟨0, _⟩ => exact (rowGather_row wfg j idxS).trans (vecGather_elt wfv (ix1 (j 0)) idxS).symm)
  have e2 : ix1 (i 0) = (vecGatherDims N E wfv).operandIdx (ix1 (j 0)) idxDw := funext fun a => Fin.ext (by
    match a with
    | ⟨0, _⟩ => exact ((vecGather_elt wfv (ix1 (j 0)) idxDw).trans (hD (j 0) (i 0) hrow)).symm)
  show H ((rowGatherDims N E C wfg).operandIdx j idxS)
        * dis (ix1 (((rowGatherDims N E C wfg).operandIdx j idxS) 0)) * dis (ix1 (i 0))
      = H ((rowGatherDims N E C wfg).operandIdx j idxS)
        * (dis ((vecGatherDims N E wfv).operandIdx (ix1 (j 0)) idxS)
            * dis ((vecGatherDims N E wfv).operandIdx (ix1 (j 0)) idxDw))
  rw [mul_assoc]
  exact congrArg (H ((rowGatherDims N E C wfg).operandIdx j idxS) * ·)
    (congrArg₂ (· * ·) (congrArg dis e1) (congrArg dis e2))

/-- The same law with the sum written as the host's accumulating scatter at the ideal instance (it is that sum). -/
theorem edge_sum_law_host {N E C : Nat}
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H : (⟨2, ![N, C]⟩ : Shape).Idx → EReal) (dis : (⟨1, ![N]⟩ : Shape).Idx → EReal)
    (hdis : ∀ n, 0 ≤ dis n ∧ dis n ≠ ⊤)
    (Z : (⟨2, ![N, C]⟩ : Shape).Idx → EReal) (hZ : ∀ i, Z i = 0)
    (idxS idxD idxDw : IVec ⟨2, ![E, 1]⟩ 32)
    (hD : ∀ (e : Fin E) (n : Fin N), (idxD (ix2 e (0 : Fin 1))).toInt = (n.val : Int) →
        min (idxDw (ix2 e (0 : Fin 1))).toInt.toNat (N - 1) = n.val)
    (i : (⟨2, ![N, C]⟩ : Shape).Idx) :
    (Host.scatterAdd (F := Ideal) (φ := .f32) (rowScatterDims N E C wfs) Z idxD
        (Host.gather (α := EReal) (rowGatherDims N E C wfg) (fun r => H r * dis (ix1 (r 0))) idxS) i : EReal)
        * dis (ix1 (i 0))
      = Host.scatterAdd (F := Ideal) (φ := .f32) (rowScatterDims N E C wfs) Z idxD
        (fun j => Host.gather (α := EReal) (rowGatherDims N E C wfg) H idxS j
          * (Host.gather (α := EReal) (vecGatherDims N E wfv) dis idxS (ix1 (j 0))
              * Host.gather (α := EReal) (vecGatherDims N E wfv) dis idxDw (ix1 (j 0)))) i :=
  edge_sum_law wfg wfv wfs H dis hdis Z hZ idxS idxD idxDw hD i

end Cert.EdgeSum

end
-- ==== Proof.LibColGather.lean ====
/-
  Which element of a table a gather along its second axis reads. The table is channel-major, [C, N]: C channels, N
  columns. One start index per result column e, kept as a column [E, 1], names a column of the table; the result is
  [C, E]. The channel axis is the offset axis (the whole of it is sliced), the column axis is collapsed and is the one
  the start index addresses. Entry (k, e) of the result is the table at channel k and at the column the start index of
  e names once it is read signed and clamped into [0, N − 1]. The same reading is stated for a gather from a vector
  [N] by E start indices. Both are stated so that the column (or element) can be supplied as any n with
  n = min (start index, signed, negative as 0) (N − 1), which is how a specification usually names it.
-/
import Idealize.ShloMosaic.PureOps.Ideal
import Idealize.ShloMosaic.Lib.ValueIdx
import proofs.«173083_j48498770706888_2_alg».proof.Proof.LibEdgeSum

noncomputable section

namespace Cert.ColGather

open Idealize.ShloMosaic Idealize.ShloMosaic.ValueIdx

/-! ## A column gather: operand [C, N], start indices [E, 1], result [C, E] -/

/-- The dimension numbers of `x[:, idx]` for a channel-major table `x : [C, N]` and a vector of E column indices kept
    as [E, 1]: the channel axis is the offset axis, the column axis is collapsed and named by the start index. -/
abbrev colGatherDims (C N E : Nat)
    (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

/-- The column a column gather reads for result column `j 1`: the start index, signed, clamped into [0, N − 1]. -/
theorem colGather_col {C N E w : Nat}
    (wf : GatherDims.WF ⟨2, ![C, N]⟩ ⟨2, ![E, 1]⟩ ⟨2, ![C, E]⟩ [0] [1] [] [1] [] 1 ![C, 1])
    (j : (⟨2, ![C, E]⟩ : Shape).Idx) (idx : IVec ⟨2, ![E, 1]⟩ w) :
    (((colGatherDims C N E wf).operandIdx j idx) 1).val
      = min (idx (ix2 (j 1) (0 : Fin 1))).toInt.toNat (N - 1) := by
  show (colGatherDims C N E wf).start j idx 1 + (colGatherDims C N E wf).batchCoord j 1
    + (colGatherDims C N E wf).offCoord j 1 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (colGatherDims C N E wf).startIndexMap from List.mem_singleton.mpr rfl)]
  have hsi : (colGatherDims C N E wf).siIdx j ⟨List.idxOf (1 : Fin 2) (colGatherDims C N E wf).startIndexMap,
      List.idxOf_lt_length_iff.2 (List.mem_singleton.mpr rfl)⟩ = ix2 (j 1) (0 : Fin 1) := by
    funext b; refine Fin.ext ?_
    match b with
    | ⟨0, _⟩ => rfl
    | ⟨1, _⟩ => rfl
  rw [hsi]
  rfl

/-- The channel a column gather reads: the result's own channel. -/
theorem colGather_chan {C N E w : Nat}
    (wf : GatherDims.WF ⟨2, ![C, N]⟩ ⟨2, ![E, 1]⟩ ⟨2, ![C, E]⟩ [0] [1] [] [1] [] 1 ![C, 1])
    (j : (⟨2, ![C, E]⟩ : Shape).Idx) (idx : IVec ⟨2, ![E, 1]⟩ w) :
    (((colGatherDims C N E wf).operandIdx j idx) 0).val = (j 0).val := by
  show (colGatherDims C N E wf).start j idx 0 + (colGatherDims C N E wf).batchCoord j 0
    + (colGatherDims C N E wf).offCoord j 0 = _
  rw [GatherDims.batchCoord_eq_zero _ _ _ List.not_mem_nil]
  have hs : (colGatherDims C N E wf).start j idx 0 = 0 := by
    unfold GatherDims.start
    rw [dif_neg (show ¬ (0 : Fin 2) ∈ [(1 : Fin 2)] by decide)]
  rw [hs]
  simp only [Nat.add_zero, Nat.zero_add]
  unfold GatherDims.offCoord
  rw [dif_pos (show (0 : Fin 2) ∈ (colGatherDims C N E wf).sKept from
    (GatherDims.mem_sKept _ _).mpr ⟨(show ¬ (0 : Fin 2) ∈ [(1 : Fin 2)] by decide), List.not_mem_nil⟩)]
  rfl

/-- A column gather read at channel `k`, column `e`: the table at channel `k` and the column `n` the clamped start index
    of `e` names. -/
theorem colGather_apply {α : Type} {C N E w : Nat}
    (wf : GatherDims.WF ⟨2, ![C, N]⟩ ⟨2, ![E, 1]⟩ ⟨2, ![C, E]⟩ [0] [1] [] [1] [] 1 ![C, 1])
    (x : (⟨2, ![C, N]⟩ : Shape).Idx → α) (idx : IVec ⟨2, ![E, 1]⟩ w) (k : Fin C) (e : Fin E) (n : Fin N)
    (hn : n.val = min (idx (ix2 e (0 : Fin 1))).toInt.toNat (N - 1)) :
    Host.gather (colGatherDims C N E wf) x idx (ix2 k e) = x (ix2 k n) := by
  show x ((colGatherDims C N E wf).operandIdx (ix2 k e) idx) = x (ix2 k n)
  refine congrArg x (funext fun a => Fin.ext ?_)
  match a with
  | ⟨0, _⟩ => exact colGather_chan wf (ix2 k e) idx
  | ⟨1, _⟩ => exact (colGather_col wf (ix2 k e) idx).trans hn.symm

/-! ## A vector gather: operand [N], start indices [E, 1], result [E] -/

/-- A vector gather read at element `e`: the table at the element `n` the clamped start index of `e` names. -/
theorem vecGather_apply {α : Type} {N E w : Nat}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) (n : Fin N)
    (hn : n.val = min (idx (ix2 e (0 : Fin 1))).toInt.toNat (N - 1)) :
    Host.gather (Cert.EdgeSum.vecGatherDims N E wf) x idx (ix1 e) = x (ix1 n) := by
  show x ((Cert.EdgeSum.vecGatherDims N E wf).operandIdx (ix1 e) idx) = x (ix1 n)
  refine congrArg x (funext fun a => Fin.ext ?_)
  match a with
  | ⟨0, _⟩ => exact (Cert.EdgeSum.vecGather_elt wf (ix1 e) idx).trans hn.symm

end Cert.ColGather

end
-- ==== Proof.KernelInputs.lean ====
/-
  What the seven arrays the kernel's windows read hold when the region is entered, index by index: the host
  operations before the region gather the charges, the dipoles and the quadrupoles by the wrapped indices (the
  dipole and quadrupole tables transposed first, so the gathers produce channel-major arrays), transpose the edge
  vectors, and lay every edge axis out as 25000 rows of 128.
-/
import proofs.«173083_j48498770706888_2_alg».proof.Proof.Gen.KernelIdeal.Frame
import proofs.«173083_j48498770706888_2_alg».proof.Proof.Spec
import proofs.«173083_j48498770706888_2_alg».proof.Proof.LibEdgeSum
import proofs.«173083_j48498770706888_2_alg».proof.Proof.LibColGather
import Idealize.ShloMosaic.Lib.Pipeline.Value
import Idealize.ShloMosaic.Lib.ValueLayout
import Idealize.ShloMosaic.Lib.StableHlo.Run

noncomputable section

namespace Cert.Elec

open Idealize.ShloMosaic Idealize.ShloMosaic.ValueIdx Idealize.ShloMosaic.TcCoe Idealize.SL.Sem Cert.KernelIdeal Cert.KernelIdeal.Gen

/-! ## The wrapped indices, as the gathers receive them -/

/-- The start indices both kinds of gather receive: "add 100000 if negative" applied to every index, kept as a
    column [3200000, 1]. -/
def widx (x : IVec S3200000 32) : IVec S3200000x1 32 :=
  broadcastInDim S3200000x1 ![0] bcast_S3200000_S3200000x1_0
    (select (cmpi .slt x (broadcastInDim S3200000 ![] bcast_S_S3200000 (constantI S_ 32 0#32)))
      (addi x (broadcastInDim S3200000 ![] bcast_S_S3200000 (constantI S_ 32 100000#32))) x)

/-- Entry `e` of the column is the wrapped index of edge `e`. -/
theorem widx_apply (x : IVec S3200000 32) (e : Fin 3200000) :
    widx x (ix2 e (0 : Fin 1)) = wrap (x (ix1 e)) := by
  unfold widx
  refine (broadcastInDim_apply _ _ _ (ix2 e (0 : Fin 1)) (ix1 e) (fun a => ?_)).trans ?_
  · match a with
    | ⟨0, _⟩ => rfl
  · rfl

/-- So the atom the gathers read for edge `e` is the one the specification names. -/
theorem atom_val (x : IVec S3200000 32) (e : Fin 3200000) :
    (atom (x (ix1 e))).val = min (widx x (ix2 e (0 : Fin 1))).toInt.toNat (100000 - 1) := by
  rw [widx_apply]
  rfl

/-! ## The seven arrays as terms of the arguments -/

variable (m : (ℓ : Loc nD τ sig) → Buf (Elt Ideal) ℓ) (c : Dev nD) (r : Fin 25000) (l : Fin 128)

/-- The charges gathered by the wrapped first indices, 25000 rows of 128. -/
theorem Vqu_term : (V m c main_v39 : S25000x128.Idx → EReal)
    = shapeCast S25000x128 (Host.gather gather_S100000_S3200000x1_S3200000_n_0_n_n_0_1_1
        (m ((c : Thread nD τ).loc main_arg0) : S100000.Idx → EReal)
        (widx (m ((c : Thread nD τ).loc main_arg5)))) shapeCasts_S3200000_S25000x128 := by
  show StableHlo.after hostOps0 (fun b => m (c, b)) (Proc.devRef .tc main_v39) = _
  after_results_simp
  rfl

/-- The charges gathered by the wrapped second indices. -/
theorem Vqv_term : (V m c main_v40 : S25000x128.Idx → EReal)
    = shapeCast S25000x128 (Host.gather gather_S100000_S3200000x1_S3200000_n_0_n_n_0_1_1
        (m ((c : Thread nD τ).loc main_arg0) : S100000.Idx → EReal)
        (widx (m ((c : Thread nD τ).loc main_arg6)))) shapeCasts_S3200000_S25000x128 := by
  show StableHlo.after hostOps0 (fun b => m (c, b)) (Proc.devRef .tc main_v40) = _
  after_results_simp
  rfl

/-- The distances. -/
theorem Vd_term : (V m c main_v41 : S25000x128.Idx → EReal)
    = shapeCast S25000x128 (m ((c : Thread nD τ).loc main_arg4) : S3200000.Idx → EReal) shapeCasts_S3200000_S25000x128 := by
  show StableHlo.after hostOps0 (fun b => m (c, b)) (Proc.devRef .tc main_v41) = _
  after_results_simp
  rfl

/-- The edge vectors, component-major. -/
theorem Vvec_term : (V m c main_v42 : S3x25000x128.Idx → EReal)
    = shapeCast S3x25000x128 (transpose S3x3200000 [1, 0] (m ((c : Thread nD τ).loc main_arg3) : S3200000x3.Idx → EReal)
        transposes_S3200000x3_S3x3200000_1_0) shapeCasts_S3x3200000_S3x25000x128 := by
  show StableHlo.after hostOps0 (fun b => m (c, b)) (Proc.devRef .tc main_v42) = _
  after_results_simp
  rfl

/-- The dipoles of the first atoms, component-major. -/
theorem Vdipu_term : (V m c main_v43 : S3x25000x128.Idx → EReal)
    = shapeCast S3x25000x128 (Host.gather gather_S3x100000_S3200000x1_S3x3200000_0_1_n_n_1_1_31
        (transpose S3x100000 [1, 0] (m ((c : Thread nD τ).loc main_arg1) : S100000x3.Idx → EReal)
          transposes_S100000x3_S3x100000_1_0)
        (widx (m ((c : Thread nD τ).loc main_arg5)))) shapeCasts_S3x3200000_S3x25000x128 := by
  show StableHlo.after hostOps0 (fun b => m (c, b)) (Proc.devRef .tc main_v43) = _
  after_results_simp
  rfl

/-- The dipoles of the second atoms, component-major. -/
theorem Vdipv_term : (V m c main_v44 : S3x25000x128.Idx → EReal)
    = shapeCast S3x25000x128 (Host.gather gather_S3x100000_S3200000x1_S3x3200000_0_1_n_n_1_1_31
        (transpose S3x100000 [1, 0] (m ((c : Thread nD τ).loc main_arg1) : S100000x3.Idx → EReal)
          transposes_S100000x3_S3x100000_1_0)
        (widx (m ((c : Thread nD τ).loc main_arg6)))) shapeCasts_S3x3200000_S3x25000x128 := by
  show StableHlo.after hostOps0 (fun b => m (c, b)) (Proc.devRef .tc main_v44) = _
  after_results_simp
  rfl

/-- The quadrupoles of the second atoms, channel-major (channel 3i + j holds entry (i, j)). -/
theorem Vquadv_term : (V m c main_v45 : S9x25000x128.Idx → EReal)
    = shapeCast S9x25000x128 (Host.gather gather_S9x100000_S3200000x1_S9x3200000_0_1_n_n_1_1_91
        (transpose S9x100000 [1, 0]
          (shapeCast S100000x9 (m ((c : Thread nD τ).loc main_arg2) : S100000x3x3.Idx → EReal) shapeCasts_S100000x3x3_S100000x9)
          transposes_S100000x9_S9x100000_1_0)
        (widx (m ((c : Thread nD τ).loc main_arg6)))) shapeCasts_S9x3200000_S9x25000x128 := by
  show StableHlo.after hostOps0 (fun b => m (c, b)) (Proc.devRef .tc main_v45) = _
  after_results_simp
  rfl

/-! ## Reading a layout of 25000 rows of 128 at (row, lane) -/

/-- An edge vector laid out as 25000 rows of 128 reads, at row `r`, lane `l`, edge 128·r + l. -/
theorem rows_apply {α : Type} (x : S3200000.Idx → α) (r : Fin 25000) (l : Fin 128) :
    shapeCast S25000x128 x shapeCasts_S3200000_S25000x128 (ix2 r l) = x (ix1 (eidx r l)) :=
  shapeCast_apply x _ (ix2 r l) (ix1 (eidx r l)) (by
    rw [Shape.rowMajor_val_one, Shape.rowMajor_val_two]
    show 128 * r.val + l.val = r.val * 128 + l.val
    omega)

/-- A three-channel edge array laid out as 3 × 25000 rows of 128 reads, at channel `k`, row `r`, lane `l`, channel
    `k` of edge 128·r + l. -/
theorem rows3_apply {α : Type} (x : S3x3200000.Idx → α) (k : Fin 3) (r : Fin 25000) (l : Fin 128) :
    shapeCast S3x25000x128 x shapeCasts_S3x3200000_S3x25000x128 (ix3 k r l) = x (ix2 k (eidx r l)) :=
  shapeCast_apply x _ (ix3 k r l) (ix2 k (eidx r l)) (by
    rw [Shape.rowMajor_val_two, Shape.rowMajor_val_three]
    show k.val * 3200000 + (128 * r.val + l.val) = (k.val * 25000 + r.val) * 128 + l.val
    omega)

/-- The same for nine channels. -/
theorem rows9_apply {α : Type} (x : S9x3200000.Idx → α) (k : Fin 9) (r : Fin 25000) (l : Fin 128) :
    shapeCast S9x25000x128 x shapeCasts_S9x3200000_S9x25000x128 (ix3 k r l) = x (ix2 k (eidx r l)) :=
  shapeCast_apply x _ (ix3 k r l) (ix2 k (eidx r l)) (by
    rw [Shape.rowMajor_val_two, Shape.rowMajor_val_three]
    show k.val * 3200000 + (128 * r.val + l.val) = (k.val * 25000 + r.val) * 128 + l.val
    omega)

/-- The quadrupole table flattened to nine channels reads, at atom `n`, channel 3i + j, entry (i, j) of atom `n`. -/
theorem flat9_apply {α : Type} (x : S100000x3x3.Idx → α) (n : Fin 100000) (i j : Fin 3) :
    shapeCast S100000x9 x shapeCasts_S100000x3x3_S100000x9 (ix2 n (q9 i j)) = x (ix3 n i j) :=
  shapeCast_apply x _ (ix2 n (q9 i j)) (ix3 n i j) (by
    rw [Shape.rowMajor_val_three, Shape.rowMajor_val_two]
    show (n.val * 3 + i.val) * 3 + j.val = n.val * 9 + (3 * i.val + j.val)
    omega)

/-! ## The seven arrays at an index -/

theorem V_qu : (V m c main_v39 : S25000x128.Idx → EReal) (ix2 r l)
    = (m ((c : Thread nD τ).loc main_arg0) : S100000.Idx → EReal)
        (ix1 (atom ((m ((c : Thread nD τ).loc main_arg5) : S3200000.Idx → BitVec 32) (ix1 (eidx r l))))) := by
  refine (congrFun (Vqu_term m c) (ix2 r l)).trans ((rows_apply _ r l).trans ?_)
  exact Cert.ColGather.vecGather_apply gather_S100000_S3200000x1_S3200000_n_0_n_n_0_1_1_wf _ _ (eidx r l) _ (atom_val _ (eidx r l))
theorem V_qv : (V m c main_v40 : S25000x128.Idx → EReal) (ix2 r l)
    = (m ((c : Thread nD τ).loc main_arg0) : S100000.Idx → EReal)
        (ix1 (atom ((m ((c : Thread nD τ).loc main_arg6) : S3200000.Idx → BitVec 32) (ix1 (eidx r l))))) := by
  refine (congrFun (Vqv_term m c) (ix2 r l)).trans ((rows_apply _ r l).trans ?_)
  exact Cert.ColGather.vecGather_apply gather_S100000_S3200000x1_S3200000_n_0_n_n_0_1_1_wf _ _ (eidx r l) _ (atom_val _ (eidx r l))
theorem V_d : (V m c main_v41 : S25000x128.Idx → EReal) (ix2 r l)
    = (m ((c : Thread nD τ).loc main_arg4) : S3200000.Idx → EReal) (ix1 (eidx r l)) :=
  (congrFun (Vd_term m c) (ix2 r l)).trans (rows_apply _ r l)
theorem V_vec (k : Fin 3) : (V m c main_v42 : S3x25000x128.Idx → EReal) (ix3 k r l)
    = (m ((c : Thread nD τ).loc main_arg3) : S3200000x3.Idx → EReal) (ix2 (eidx r l) k) :=
  (congrFun (Vvec_term m c) (ix3 k r l)).trans ((rows3_apply _ k r l).trans
    (transpose_ix2_apply _ transposes_S3200000x3_S3x3200000_1_0 k (eidx r l)))
theorem V_dipu (k : Fin 3) : (V m c main_v43 : S3x25000x128.Idx → EReal) (ix3 k r l)
    = (m ((c : Thread nD τ).loc main_arg1) : S100000x3.Idx → EReal)
        (ix2 (atom ((m ((c : Thread nD τ).loc main_arg5) : S3200000.Idx → BitVec 32) (ix1 (eidx r l)))) k) := by
  refine (congrFun (Vdipu_term m c) (ix3 k r l)).trans ((rows3_apply _ k r l).trans ?_)
  refine (Cert.ColGather.colGather_apply gather_S3x100000_S3200000x1_S3x3200000_0_1_n_n_1_1_31_wf _ _ k (eidx r l) _
    (atom_val _ (eidx r l))).trans ?_
  exact transpose_ix2_apply _ transposes_S100000x3_S3x100000_1_0 k _
theorem V_dipv (k : Fin 3) : (V m c main_v44 : S3x25000x128.Idx → EReal) (ix3 k r l)
    = (m ((c : Thread nD τ).loc main_arg1) : S100000x3.Idx → EReal)
        (ix2 (atom ((m ((c : Thread nD τ).loc main_arg6) : S3200000.Idx → BitVec 32) (ix1 (eidx r l)))) k) := by
  refine (congrFun (Vdipv_term m c) (ix3 k r l)).trans ((rows3_apply _ k r l).trans ?_)
  refine (Cert.ColGather.colGather_apply gather_S3x100000_S3200000x1_S3x3200000_0_1_n_n_1_1_31_wf _ _ k (eidx r l) _
    (atom_val _ (eidx r l))).trans ?_
  exact transpose_ix2_apply _ transposes_S100000x3_S3x100000_1_0 k _
theorem V_quadv (i j : Fin 3) : (V m c main_v45 : S9x25000x128.Idx → EReal) (ix3 (q9 i j) r l)
    = (m ((c : Thread nD τ).loc main_arg2) : S100000x3x3.Idx → EReal)
        (ix3 (atom ((m ((c : Thread nD τ).loc main_arg6) : S3200000.Idx → BitVec 32) (ix1 (eidx r l)))) i j) := by
  refine (congrFun (Vquadv_term m c) (ix3 (q9 i j) r l)).trans ((rows9_apply _ (q9 i j) r l).trans ?_)
  refine (Cert.ColGather.colGather_apply gather_S9x100000_S3200000x1_S9x3200000_0_1_n_n_1_1_91_wf _ _ (q9 i j) (eidx r l) _
    (atom_val _ (eidx r l))).trans ?_
  refine (transpose_ix2_apply _ transposes_S100000x9_S9x100000_1_0 (q9 i j) _).trans ?_
  exact flat9_apply _ _ i j

end Cert.Elec

end
-- ==== Proof.KernelValue.lean ====
/-
  The kernel's run: every block of the output array is the per-edge energy of the blocks of the seven input arrays,
  the 25 blocks tile the 25000 rows, and the reshape after the region lays the rows out as one vector of 3200000
  edges; so the result is the kernel's whole-array function of the seven arguments.
-/
import proofs.«173083_j48498770706888_2_alg».proof.Proof.KernelPayload
import proofs.«173083_j48498770706888_2_alg».proof.Proof.KernelInputs
import Idealize.ShloMosaic.Lib.Pipeline.Value

noncomputable section

namespace Cert.Elec

open Idealize.ShloMosaic Idealize.ShloMosaic.ValueIdx Idealize.ShloMosaic.TcCoe Idealize.SL.Sem Cert.KernelIdeal Cert.KernelIdeal.Gen

namespace KernelValue

open Idealize.ShloMosaic.Pipeline (Dat)

variable (m : (ℓ : Loc nD τ sig) → Buf (Elt Ideal) ℓ) (ρ : Dev nD → PrngReg)

/-! ## The rows as one function of the seven arrays the windows read -/

/-- The per-edge energy at row r, lane l of seven arrays laid out as 25000 rows of 128: the two charges and the
    distance at (r, l), channels 0–2 of the vector and of the two dipoles at (k, r, l), channel 3i + j of the
    quadrupole at (3i + j, r, l). -/
def edgeE (y0 y1 y2 : S25000x128.Idx → EReal) (y3 y4 y5 : S3x25000x128.Idx → EReal) (y6 : S9x25000x128.Idx → EReal)
    (r : Fin 25000) (l : Fin 128) : EReal :=
  kEdge third (y0 (ix2 r l)) (y1 (ix2 r l)) (y2 (ix2 r l)) (fun k => y3 (ix3 k r l)) (fun k => y4 (ix3 k r l))
    (fun k => y5 (ix3 k r l)) (fun i j => y6 (ix3 (q9 i j) r l))

/-- The same as an array of 25000 rows of 128. -/
def rowsE (y0 y1 y2 : S25000x128.Idx → EReal) (y3 y4 y5 : S3x25000x128.Idx → EReal) (y6 : S9x25000x128.Idx → EReal) :
    S25000x128.Idx → EReal :=
  fun i => edgeE y0 y1 y2 y3 y4 y5 y6 (i 0) (i 1)

theorem rowsE_ix2 (y0 y1 y2 : S25000x128.Idx → EReal) (y3 y4 y5 : S3x25000x128.Idx → EReal) (y6 : S9x25000x128.Idx → EReal)
    (r : Fin 25000) (l : Fin 128) : rowsE y0 y1 y2 y3 y4 y5 y6 (ix2 r l) = edgeE y0 y1 y2 y3 y4 y5 y6 r l := rfl

/-- A block's energy at (p, q) is the rows' energy at (r, l) once each of the seven blocks at (p, q) is its array at
    (r, l). -/
theorem block_energy (x0 x1 x2 : Vec Ideal S1000x128 .f32) (x3 x4 x5 : Vec Ideal S3x1000x128 .f32)
    (x6 : Vec Ideal S9x1000x128 .f32) (y0 y1 y2 : S25000x128.Idx → EReal) (y3 y4 y5 : S3x25000x128.Idx → EReal)
    (y6 : S9x25000x128.Idx → EReal) (p : Fin 1000) (q : Fin 128) (r : Fin 25000) (l : Fin 128)
    (h0 : x0 (ix2 p q) = y0 (ix2 r l)) (h1 : x1 (ix2 p q) = y1 (ix2 r l)) (h2 : x2 (ix2 p q) = y2 (ix2 r l))
    (h3 : ∀ k : Fin 3, x3 (ix3 k p q) = y3 (ix3 k r l)) (h4 : ∀ k : Fin 3, x4 (ix3 k p q) = y4 (ix3 k r l))
    (h5 : ∀ k : Fin 3, x5 (ix3 k p q) = y5 (ix3 k r l)) (h6 : ∀ k : Fin 9, x6 (ix3 k p q) = y6 (ix3 k r l)) :
    Cert.KernelIdeal.Gen.out0_7 (F := Ideal) x0 x1 x2 x3 x4 x5 x6 (ix2 p q)
      = rowsE y0 y1 y2 y3 y4 y5 y6 (ix2 r l) := by
  rw [out0_7_apply, rowsE_ix2]
  unfold edgeE
  simp only [h0, h1, h2, h3, h4, h5, h6]

/-! ## The windows' index maps -/

/-- The grid has 25 points. -/
theorem point_lt (t : Fin cfg0.N) : t.val < 25 := lt_of_lt_of_eq t.isLt N_0

/-- Point t's blocks are block t along the row axis and block 0 along every other axis, for all eight windows. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = t.val ∧ win0_3.index t (2 : Fin 3) = 0
    ∧ win0_4.index t (0 : Fin 3) = 0 ∧ win0_4.index t (1 : Fin 3) = t.val ∧ win0_4.index t (2 : Fin 3) = 0
    ∧ win0_5.index t (0 : Fin 3) = 0 ∧ win0_5.index t (1 : Fin 3) = t.val ∧ win0_5.index t (2 : Fin 3) = 0
    ∧ win0_6.index t (0 : Fin 3) = 0 ∧ win0_6.index t (1 : Fin 3) = t.val ∧ win0_6.index t (2 : Fin 3) = 0
    ∧ win0_7.index t (0 : Fin 2) = t.val ∧ win0_7.index t (1 : Fin 2) = 0 :=
  (by decide +kernel : ∀ t : Fin grid0.N, _)

/-- Row p of point t's block is row 1000 t + p of the array. -/
def rowOf (t : Fin cfg0.N) (p : Fin 1000) : Fin 25000 := ⟨1000 * t.val + p.val, by have := point_lt t; have := p.isLt; omega⟩

/-! ## Each block read where it sits in its array -/

/-- Where entry (p, q) of point t's output block sits in the array. -/
theorem out_emb (t : Fin cfg0.N) (p : Fin 1000) (q : Fin 128) :
    (((cfg0.win 7).blk t).view.emb (ix2 p q) : S25000x128.Idx) = ix2 (rowOf t p) q := by
  obtain ⟨-, -, -, -, -, -, -, -, -, -, -, -, -, -, -, -, -, -, e0, e1⟩ := idx_facts t
  funext a; apply Fin.ext
  match a with
  | ⟨0, _⟩ => show win0_7.index t (0 : Fin 2) * 1000 + 1 * p.val = 1000 * t.val + p.val; rw [e0]; omega
  | ⟨1, _⟩ => show win0_7.index t (1 : Fin 2) * 128 + 1 * q.val = q.val; rw [e1]; omega

/-- Entry (p, q) of point t's block of window 0 is entry (1000 t + p, q) of its array. -/
theorem read0 (c : Dev nD) (t : Fin cfg0.N) (p : Fin 1000) (q : Fin 128) :
    (iblk m c 0 t : Vec Ideal S1000x128 .f32) (ix2 p q) = (V m c main_v39 : S25000x128.Idx → EReal) (ix2 (rowOf t p) q) := by
  obtain ⟨e0, e1, -⟩ := idx_facts t
  unfold iblk
  rw [View.read_apply]
  show (V m c main_v39 : S25000x128.Idx → EReal) _ = V m c main_v39 _
  refine congrArg (V m c main_v39 : S25000x128.Idx → EReal) ?_
  funext a; apply Fin.ext
  match a with
  | ⟨0, _⟩ => show win0_0.index t (0 : Fin 2) * 1000 + 1 * p.val = 1000 * t.val + p.val; rw [e0]; omega
  | ⟨1, _⟩ => show win0_0.index t (1 : Fin 2) * 128 + 1 * q.val = q.val; rw [e1]; omega

/-- Entry (p, q) of point t's block of window 1 is entry (1000 t + p, q) of its array. -/
theorem read1 (c : Dev nD) (t : Fin cfg0.N) (p : Fin 1000) (q : Fin 128) :
    (iblk m c 1 t : Vec Ideal S1000x128 .f32) (ix2 p q) = (V m c main_v40 : S25000x128.Idx → EReal) (ix2 (rowOf t p) q) := by
  obtain ⟨-, -, e0, e1, -⟩ := idx_facts t
  unfold iblk
  rw [View.read_apply]
  show (V m c main_v40 : S25000x128.Idx → EReal) _ = V m c main_v40 _
  refine congrArg (V m c main_v40 : S25000x128.Idx → EReal) ?_
  funext a; apply Fin.ext
  match a with
  | ⟨0, _⟩ => show win0_1.index t (0 : Fin 2) * 1000 + 1 * p.val = 1000 * t.val + p.val; rw [e0]; omega
  | ⟨1, _⟩ => show win0_1.index t (1 : Fin 2) * 128 + 1 * q.val = q.val; rw [e1]; omega

/-- Entry (p, q) of point t's block of window 2 is entry (1000 t + p, q) of its array. -/
theorem read2 (c : Dev nD) (t : Fin cfg0.N) (p : Fin 1000) (q : Fin 128) :
    (iblk m c 2 t : Vec Ideal S1000x128 .f32) (ix2 p q) = (V m c main_v41 : S25000x128.Idx → EReal) (ix2 (rowOf t p) q) := by
  obtain ⟨-, -, -, -, e0, e1, -⟩ := idx_facts t
  unfold iblk
  rw [View.read_apply]
  show (V m c main_v41 : S25000x128.Idx → EReal) _ = V m c main_v41 _
  refine congrArg (V m c main_v41 : S25000x128.Idx → EReal) ?_
  funext a; apply Fin.ext
  match a with
  | ⟨0, _⟩ => show win0_2.index t (0 : Fin 2) * 1000 + 1 * p.val = 1000 * t.val + p.val; rw [e0]; omega
  | ⟨1, _⟩ => show win0_2.index t (1 : Fin 2) * 128 + 1 * q.val = q.val; rw [e1]; omega

/-- Entry (k, p, q) of point t's block of window 3 is entry (k, 1000 t + p, q) of its array. -/
theorem read3 (c : Dev nD) (t : Fin cfg0.N) (k : Fin 3) (p : Fin 1000) (q : Fin 128) :
    (iblk m c 3 t : Vec Ideal S3x1000x128 .f32) (ix3 k p q)
      = (V m c main_v42 : S3x25000x128.Idx → EReal) (ix3 k (rowOf t p) q) := by
  obtain ⟨-, -, -, -, -, -, e0, e1, e2, -⟩ := idx_facts t
  unfold iblk
  rw [View.read_apply]
  show (V m c main_v42 : S3x25000x128.Idx → EReal) _ = V m c main_v42 _
  refine congrArg (V m c main_v42 : S3x25000x128.Idx → EReal) ?_
  funext a; apply Fin.ext
  match a with
  | ⟨0, _⟩ => show win0_3.index t (0 : Fin 3) * 3 + 1 * k.val = k.val; rw [e0]; omega
  | ⟨1, _⟩ => show win0_3.index t (1 : Fin 3) * 1000 + 1 * p.val = 1000 * t.val + p.val; rw [e1]; omega
  | ⟨2, _⟩ => show win0_3.index t (2 : Fin 3) * 128 + 1 * q.val = q.val; rw [e2]; omega

/-- Entry (k, p, q) of point t's block of window 4 is entry (k, 1000 t + p, q) of its array. -/
theorem read4 (c : Dev nD) (t : Fin cfg0.N) (k : Fin 3) (p : Fin 1000) (q : Fin 128) :
    (iblk m c 4 t : Vec Ideal S3x1000x128 .f32) (ix3 k p q)
      = (V m c main_v43 : S3x25000x128.Idx → EReal) (ix3 k (rowOf t p) q) := by
  obtain ⟨-, -, -, -, -, -, -, -, -, e0, e1, e2, -⟩ := idx_facts t
  unfold iblk
  rw [View.read_apply]
  show (V m c main_v43 : S3x25000x128.Idx → EReal) _ = V m c main_v43 _
  refine congrArg (V m c main_v43 : S3x25000x128.Idx → EReal) ?_
  funext a; apply Fin.ext
  match a with
  | ⟨0, _⟩ => show win0_4.index t (0 : Fin 3) * 3 + 1 * k.val = k.val; rw [e0]; omega
  | ⟨1, _⟩ => show win0_4.index t (1 : Fin 3) * 1000 + 1 * p.val = 1000 * t.val + p.val; rw [e1]; omega
  | ⟨2, _⟩ => show win0_4.index t (2 : Fin 3) * 128 + 1 * q.val = q.val; rw [e2]; omega

/-- Entry (k, p, q) of point t's block of window 5 is entry (k, 1000 t + p, q) of its array. -/
theorem read5 (c : Dev nD) (t : Fin cfg0.N) (k : Fin 3) (p : Fin 1000) (q : Fin 128) :
    (iblk m c 5 t : Vec Ideal S3x1000x128 .f32) (ix3 k p q)
      = (V m c main_v44 : S3x25000x128.Idx → EReal) (ix3 k (rowOf t p) q) := by
  obtain ⟨-, -, -, -, -, -, -, -, -, -, -, -, e0, e1, e2, -⟩ := idx_facts t
  unfold iblk
  rw [View.read_apply]
  show (V m c main_v44 : S3x25000x128.Idx → EReal) _ = V m c main_v44 _
  refine congrArg (V m c main_v44 : S3x25000x128.Idx → EReal) ?_
  funext a; apply Fin.ext
  match a with
  | ⟨0, _⟩ => show win0_5.index t (0 : Fin 3) * 3 + 1 * k.val = k.val; rw [e0]; omega
  | ⟨1, _⟩ => show win0_5.index t (1 : Fin 3) * 1000 + 1 * p.val = 1000 * t.val + p.val; rw [e1]; omega
  | ⟨2, _⟩ => show win0_5.index t (2 : Fin 3) * 128 + 1 * q.val = q.val; rw [e2]; omega

/-- Entry (k, p, q) of point t's block of window 6 is entry (k, 1000 t + p, q) of its array. -/
theorem read6 (c : Dev nD) (t : Fin cfg0.N) (k : Fin 9) (p : Fin 1000) (q : Fin 128) :
    (iblk m c 6 t : Vec Ideal S9x1000x128 .f32) (ix3 k p q)
      = (V m c main_v45 : S9x25000x128.Idx → EReal) (ix3 k (rowOf t p) q) := by
  obtain ⟨-, -, -, -, -, -, -, -, -, -, -, -, -, -, -, e0, e1, e2, -⟩ := idx_facts t
  unfold iblk
  rw [View.read_apply]
  show (V m c main_v45 : S9x25000x128.Idx → EReal) _ = V m c main_v45 _
  refine congrArg (V m c main_v45 : S9x25000x128.Idx → EReal) ?_
  funext a; apply Fin.ext
  match a with
  | ⟨0, _⟩ => show win0_6.index t (0 : Fin 3) * 9 + 1 * k.val = k.val; rw [e0]; omega
  | ⟨1, _⟩ => show win0_6.index t (1 : Fin 3) * 1000 + 1 * p.val = 1000 * t.val + p.val; rw [e1]; omega
  | ⟨2, _⟩ => show win0_6.index t (2 : Fin 3) * 128 + 1 * q.val = q.val; rw [e2]; omega

/-- A block whose entry (p, q) is entry (1000 t + p, q) of an array of rows is what point t's output block reads of
    that array. -/
theorem cut_eq_read (t : Fin cfg0.N) (X : Vec Ideal S1000x128 .f32) (G : S25000x128.Idx → EReal)
    (h : ∀ (p : Fin 1000) (q : Fin 128), X (ix2 p q) = G (ix2 (rowOf t p) q)) :
    (cfg0.win 7).cut (grid0.coords t) X = ((cfg0.win 7).blk t).view.read (Elt Ideal) G := by
  funext j
  obtain ⟨p, q, rfl⟩ : ∃ (p : Fin 1000) (q : Fin 128), j = ix2 p q := ⟨j 0, j 1, eq_ix2 j⟩
  show X (ix2 p q) = G (((cfg0.win 7).blk t).view.emb (ix2 p q))
  rw [out_emb t p q]
  exact h p q

/-! ## What a point writes back, the cover, the array after the region -/

/-- The rows' energy of the seven arrays as the region finds them. -/
abbrev rowsV (c : Dev nD) : S25000x128.Idx → EReal :=
  rowsE (V m c main_v39) (V m c main_v40) (V m c main_v41) (V m c main_v42) (V m c main_v43) (V m c main_v44)
    (V m c main_v45)

/-- What point t writes back is block t of the rows' energy. -/
theorem flushed_eq (c : Dev nD) (t : Fin cfg0.N) :
    (dats m 0 c).flushed 7 t = ((cfg0.win 7).blk t).view.read (Elt Ideal) (rowsV m c) := by
  show (cfg0.win 7).cut (grid0.coords t) ((dats m 0 c).after 7 t) = _
  rw [after0_7]
  exact cut_eq_read t (out0_7 (F := Ideal) (iblk m c 0 t) (iblk m c 1 t) (iblk m c 2 t) (iblk m c 3 t) (iblk m c 4 t)
      (iblk m c 5 t) (iblk m c 6 t)) (rowsV m c) (fun p q =>
    block_energy (iblk m c 0 t) (iblk m c 1 t) (iblk m c 2 t) (iblk m c 3 t) (iblk m c 4 t) (iblk m c 5 t)
      (iblk m c 6 t) (V m c main_v39) (V m c main_v40) (V m c main_v41) (V m c main_v42) (V m c main_v43)
      (V m c main_v44) (V m c main_v45) p q (rowOf t p) q (read0 m c t p q) (read1 m c t p q) (read2 m c t p q)
      (fun k => read3 m c t k p q) (fun k => read4 m c t k p q) (fun k => read5 m c t k p q)
      (fun k => read6 m c t k p q))
/-- An index of the array is in point t's block iff each coordinate is in the block's range on its axis. -/
theorem mem_blk (t : Fin cfg0.N) (i : S25000x128.Idx) :
    i ∈ ((cfg0.win 7).blk t).view.set ↔ ∀ a : Fin 2, win0_7.index t a * S1000x128.size a ≤ (i a).val
      ∧ (i a).val < win0_7.index t a * S1000x128.size a + S1000x128.size a := by
  show i ∈ ((View.whole main_v46).slice (win0_7.rect t)).set ↔ _
  rw [View.set_slice_whole, Rect.mem_set_unit]
  exact Iff.rfl

/-- Row r lies in the block of point r / 1000. -/
theorem cover (i : S25000x128.Idx) :
    ∃ t : Fin cfg0.N, (cfg0.win 7).flush t = true ∧ i ∈ ((cfg0.win 7).blk t).view.set := by
  have hi0 : (i 0).val < 25000 := (i 0).isLt
  have hi1 : (i 1).val < 128 := (i 1).isLt
  obtain ⟨t, ht⟩ : ∃ t : Fin cfg0.N, t.val = (i 0).val / 1000 :=
    ⟨⟨(i 0).val / 1000, lt_of_lt_of_eq (b := 25) (by omega) N_0.symm⟩, rfl⟩
  obtain ⟨-, -, -, -, -, -, -, -, -, -, -, -, -, -, -, -, -, -, e0, e1⟩ := idx_facts t
  refine ⟨t, flush0_7 t, ?_⟩
  rw [mem_blk]
  intro a
  match a with
  | ⟨0, _⟩ =>
    show win0_7.index t (0 : Fin 2) * 1000 ≤ (i 0).val ∧ (i 0).val < win0_7.index t (0 : Fin 2) * 1000 + 1000
    rw [e0, ht]; omega
  | ⟨1, _⟩ =>
    show win0_7.index t (1 : Fin 2) * 128 ≤ (i 1).val ∧ (i 1).val < win0_7.index t (1 : Fin 2) * 128 + 128
    rw [e1]; omega

/-- The output array after the region is the rows' energy. -/
theorem final (c : Dev nD) : (dats m 0 c).arrAt 7 cfg0.N = rowsV m c :=
  (dats m 0 c).arrAt_eq_of_cover 7 (rowsV m c) (fun t _ => flushed_eq m c t) cover

/-! ## The reshape after the region, and the run -/

/-- Row e / 128, lane e % 128 is edge e. -/
theorem eidx_div_mod (e : Fin 3200000) (h0 : e.val / 128 < 25000) (h1 : e.val % 128 < 128) :
    eidx ⟨e.val / 128, h0⟩ ⟨e.val % 128, h1⟩ = e :=
  Fin.ext (by show 128 * (e.val / 128) + e.val % 128 = e.val; omega)

/-- The rows laid out as one vector, read at edge e: row e / 128, lane e % 128. -/
theorem reshape_apply (x : S25000x128.Idx → EReal) (h : S25000x128.ShapeCasts S3200000) (e : Fin 3200000) :
    shapeCast S3200000 x h (ix1 e)
      = x (ix2 (⟨e.val / 128, by have := e.isLt; omega⟩ : Fin 25000) (⟨e.val % 128, by omega⟩ : Fin 128)) := by
  refine shapeCast_apply x h (ix1 e) _ ?_
  rw [Shape.rowMajor_val_two, Shape.rowMajor_val_one]
  show e.val / 128 * 128 + e.val % 128 = e.val
  omega

/-- The rows' energy of the arrays the region finds, at (r, l), is the kernel's whole-array function at edge 128 r + l. -/
theorem rowsV_apply (c : Dev nD) (r : Fin 25000) (l : Fin 128) :
    rowsV m c (ix2 r l)
      = Gk third (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (ix1 (eidx r l)) := by
  unfold rowsV
  rw [rowsE_ix2]
  unfold edgeE
  rw [V_qu m c r l, V_qv m c r l, V_d m c r l]
  simp only [V_vec m c r l, V_dipu m c r l, V_dipv m c r l, V_quadv m c r l]
  rfl

/-- The rows' energy laid out as one vector is the kernel's whole-array function of the arguments. -/
theorem result_eq (c : Dev nD) (h : S25000x128.ShapeCasts S3200000) :
    shapeCast S3200000 (rowsV m c) h
      = Gk third (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  funext j
  obtain ⟨e, rfl⟩ : ∃ e : Fin 3200000, j = ix1 e := ⟨j 0, eq_ix1 j⟩
  rw [reshape_apply, rowsV_apply, eidx_div_mod]

/-- What the host operation after the region leaves in the result array. -/
theorem tail_eq (c : Dev nD) :
    Pipeline.afterTail₀ cfgs (dats m) 0 (V0 m) [hostOps1] c main_v47
      = Gk third (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold Pipeline.afterTail₀
  show StableHlo.after hostOps1 _ (Proc.devRef .tc main_v47) = _
  after_results
  have hw : Pipeline.withArrays (cfgs 0).spec c (V0 m c) (fun w => (dats m 0 c).arrAt w (cfgs 0).N)
      (Proc.devRef .tc main_v46) = rowsV m c :=
    (Pipeline.withArrays_arr spec0 launch0.win.arr_inj c _ _ 7).trans (final m c)
  rw [hw]
  exact result_eq m c _

end KernelValue

open KernelValue in
/-- Every weakly fair execution of the idealized kernel's @main terminates with the result array at the kernel's
    whole-array function of the arguments, the arguments unchanged. -/
theorem kernel_run (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩
      (fun r => ∀ c : Dev nD,
        r.2.mem ((c.tc : Thread nD τ).loc main_v47)
          = Gk third (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) := by
  refine (θ_run (Cert.KernelIdeal.defs (F := Ideal)) _ _).mono (fun _ h c => ?_) (run_main m ρ)
  exact ⟨((h c).2 main_v47 (Pipeline.mem_restRefs_of main_v47 (by decide) (by decide))).trans (tail_eq m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c)⟩

end Cert.Elec

end
-- ==== Proof.RefOps.lean ====
/-
  The reference program's @main as the list of its 192 host operations, in order, the outlined functions'
  operations written out at their calls over each call's own buffers.
-/
import proofs.«173083_j48498770706888_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 192 operations, in order. -/
abbrev ops : List (HloOp τ sig (Elt F)) :=
  [ binary main_arg4 main_arg4 main_v0 (mulf : (⟨S3200000, .f32⟩ : BufTy).Contents (Elt F) → (⟨S3200000, .f32⟩ : BufTy).Contents (Elt F) → (⟨S3200000, .f32⟩ : BufTy).Contents (Elt F)),
    nullary main_cst (constant S_ .f32 0x3F800000#32),
    unary main_cst main_v1 (broadcastInDim S3200000 ![] bcast_S_S3200000 : (⟨S_, .f32⟩ : BufTy).Contents (Elt F) → (⟨S3200000, .f32⟩ : BufTy).Contents (Elt F)),
    binary main_v0 main_v1 main_v2 (addf : (⟨S3200000, .f32⟩ : BufTy).Contents (Elt F) → (⟨S3200000, .f32⟩ : BufTy).Contents (Elt F) → (⟨S3200000, .f32⟩ : BufTy).Contents (Elt F)),
    unary main_v2 main_v3 (Host.sqrt : (⟨S3200000, .f32⟩ : BufTy).Contents (Elt F) → (⟨S3200000, .f32⟩ : BufTy).Contents (Elt F)),
    nullary main_cst_0 (constant S_ .f32 0x40800000#32),
    unary main_cst_0 main_v4 (broadcastInDim S3200000 ![] bcast_S_S3200000 : (⟨S_, .f32⟩ : BufTy).Contents (Elt F) → (⟨S3200000, .f32⟩ : BufTy).Contents (Elt F)),
    binary main_arg4 main_v4 main_v5 (Host.divf : (⟨S3200000, .f32⟩ : BufTy).Contents (Elt F) → (⟨S3200000, .f32⟩ : BufTy).Contents (Elt F) → (⟨S3200000, .f32⟩ : BufTy).Contents (Elt F)),
    binary main_v5 main_v5 main_v6 (mulf : (⟨S3200000, .f32⟩ : BufTy).Contents (Elt F) → (⟨S3200000, .f32⟩ : BufTy).Contents (Elt F) → (⟨S3200000, .f32⟩ : BufTy).Contents (Elt F)),
    binary main_v6 main_v5 main_v7 (mulf : (⟨S3200000, .f32⟩ : BufTy).Contents (Elt F) → (⟨S3200000, .f32⟩ : BufTy).Contents (Elt F) → (⟨S3200000, .f32⟩ : BufTy).Contents (Elt F)),
    nullary main_cst_1 (constant S_ .f32 0x41700000#32),
    unary main_cst_1 main_v8 (broadcastInDim S3200000 ![] bcast_S_S3200000 : (⟨S_, .f32⟩ : BufTy).Contents (Elt F) → (⟨S3200000, .f32⟩ : BufTy).Contents (Elt F)),
    binary main_v8 main_v5 main_v9 (mulf : (⟨S3200000, .f32⟩ : BufTy).Contents (Elt F) → (⟨S3200000, .f32⟩ : BufTy).Contents (Elt F) → (⟨S3200000, .f32⟩ : BufTy).Contents (Elt F)),
    nullary main_cst_2 (constant S_ .f32 0x41200000#32),
    unary main_cst_2 main_v10 (broadcastInDim S3200000 ![] bcast_S_S3200000 : (⟨S_, .f32⟩ : BufTy).Contents (Elt F) → (⟨S3200000, .f32⟩ : BufTy).Contents (Elt F)),
    binary main_v10 main_v9 main_v11 (subf : (⟨S3200000, .f32⟩ : BufTy).Contents (Elt F) → (⟨S3200000, .f32⟩ : BufTy).Contents (Elt F) → (⟨S3200000, .f32⟩ : BufTy).Contents (Elt F)),
    nullary main_cst_3 (constant S_ .f32 0x40C00000#32),
    unary main_cst_3 main_v12 (broadcastInDim S3200000 ![] bcast_S_S3200000 : (⟨S_, .f32⟩ : BufTy).Contents (Elt F) → (⟨S3200000, .f32⟩ : BufTy).Contents (Elt F)),
    binary main_v12 main_v5 main_v13 (mulf : (⟨S3200000, .f32⟩ : BufTy).Contents (Elt F) → (⟨S3200000, .f32⟩ : BufTy).Contents (Elt F) → (⟨S3200000, .f32⟩ : BufTy).Contents (Elt F)),
    binary main_v13 main_v5 main_v14 (mulf : (⟨S3200000, .f32⟩ : BufTy).Contents (Elt F) → (⟨S3200000, .f32⟩ : BufTy).Contents (Elt F) → (⟨S3200000, .f32⟩ : BufTy).Contents (Elt F)),
    binary main_v11 main_v14 main_v15 (addf : (⟨S3200000, .f32⟩ : BufTy).Contents (Elt F) → (⟨S3200000, .f32⟩ : BufTy).Contents (Elt F) → (⟨S3200000, .f32⟩ : BufTy).Contents (Elt F)),
    binary main_v7 main_v15 main_v16 (mulf : (⟨S3200000, .f32⟩ : BufTy).Contents (Elt F) → (⟨S3200000, .f32⟩ : BufTy).Contents (Elt F) → (⟨S3200000, .f32⟩ : BufTy).Contents (Elt F)),
    nullary main_cst_4 (constant S_ .f32 0x3F800000#32),
    unary main_cst_4 main_v17 (broadcastInDim S3200000 ![] bcast_S_S3200000 : (⟨S_, .f32⟩ : BufTy).Contents (Elt F) → (⟨S3200000, .f32⟩ : BufTy).Contents (Elt F)),
    binary main_v17 main_v16 main_v18 (subf : (⟨S3200000, .f32⟩ : BufTy).Contents (Elt F) → (⟨S3200000, .f32⟩ : BufTy).Contents (Elt F) → (⟨S3200000, .f32⟩ : BufTy).Contents (Elt F)),
    nullary main_cst_5 (constant S_ .f32 0x3F800000#32),
    unary main_cst_5 main_v19 (broadcastInDim S3200000 ![] bcast_S_S3200000 : (⟨S_, .f32⟩ : BufTy).Contents (Elt F) → (⟨S3200000, .f32⟩ : BufTy).Contents (Elt F)),
    binary main_v5 main_v19 main_v20 (cmpf .olt : (⟨S3200000, .f32⟩ : BufTy).Contents (Elt F) → (⟨S3200000, .f32⟩ : BufTy).Contents (Elt F) → (⟨S3200000, .i1⟩ : BufTy).Contents (Elt F)),
    nullary main_cst_6 (constant S_ .f32 0x00000000#32),
    TRef.unary (.of main_cst_6) main_call0.v0 id,
    TRef.unary main_call0.v0 main_call0.v1 (broadcastInDim S3200000 ![] bcast_S_S3200000),
    TRef.ternary (.of main_v20) (.of main_v18) main_call0.v1 main_call0.v2 select,
    binary main_v21 main_v3 main_v22 (Host.divf : (⟨S3200000, .f32⟩ : BufTy).Contents (Elt F) → (⟨S3200000, .f32⟩ : BufTy).Contents (Elt F) → (⟨S3200000, .f32⟩ : BufTy).Contents (Elt F)),
    nullary main_cst_7 (constant S_ .f32 0x3F800000#32),
    unary main_cst_7 main_v23 (broadcastInDim S3200000 ![] bcast_S_S3200000 : (⟨S_, .f32⟩ : BufTy).Contents (Elt F) → (⟨S3200000, .f32⟩ : BufTy).Contents (Elt F)),
    binary main_v23 main_v21 main_v24 (subf : (⟨S3200000, .f32⟩ : BufTy).Contents (Elt F) → (⟨S3200000, .f32⟩ : BufTy).Contents (Elt F) → (⟨S3200000, .f32⟩ : BufTy).Contents (Elt F)),
    binary main_v24 main_arg4 main_v25 (Host.divf : (⟨S3200000, .f32⟩ : BufTy).Contents (Elt F) → (⟨S3200000, .f32⟩ : BufTy).Contents (Elt F) → (⟨S3200000, .f32⟩ : BufTy).Contents (Elt F)),
    binary main_v22 main_v25 main_v26 (addf : (⟨S3200000, .f32⟩ : BufTy).Contents (Elt F) → (⟨S3200000, .f32⟩ : BufTy).Contents (Elt F) → (⟨S3200000, .f32⟩ : BufTy).Contents (Elt F)),
    nullary main_cst_8 (constant S_ .f32 0x42C80000#32),
    unary main_cst_8 main_v27 (broadcastInDim S3200000 ![] bcast_S_S3200000 : (⟨S_, .f32⟩ : BufTy).Contents (Elt F) → (⟨S3200000, .f32⟩ : BufTy).Contents (Elt F)),
    binary main_arg4 main_v27 main_v28 (Host.divf : (⟨S3200000, .f32⟩ : BufTy).Contents (Elt F) → (⟨S3200000, .f32⟩ : BufTy).Contents (Elt F) → (⟨S3200000, .f32⟩ : BufTy).Contents (Elt F)),
    nullary main_cst_9 (constant S_ .f32 0x3E4CCCCD#32),
    unary main_cst_9 main_v29 (broadcastInDim S3200000 ![] bcast_S_S3200000 : (⟨S_, .f32⟩ : BufTy).Contents (Elt F) → (⟨S3200000, .f32⟩ : BufTy).Contents (Elt F)),
    binary main_v29 main_v28 main_v30 (subf : (⟨S3200000, .f32⟩ : BufTy).Contents (Elt F) → (⟨S3200000, .f32⟩ : BufTy).Contents (Elt F) → (⟨S3200000, .f32⟩ : BufTy).Contents (Elt F)),
    nullary main_c (constantI S_ 32 0#32),
    unary main_c main_v31 (broadcastInDim S3200000 ![] bcast_S_S3200000 : (⟨S_, .i32⟩ : BufTy).Contents (Elt F) → (⟨S3200000, .i32⟩ : BufTy).Contents (Elt F)),
    binary main_arg5 main_v31 main_v32 (cmpi .slt : (⟨S3200000, .i32⟩ : BufTy).Contents (Elt F) → (⟨S3200000, .i32⟩ : BufTy).Contents (Elt F) → (⟨S3200000, .i1⟩ : BufTy).Contents (Elt F)),
    nullary main_c_10 (constantI S_ 32 100000#32),
    unary main_c_10 main_v33 (broadcastInDim S3200000 ![] bcast_S_S3200000 : (⟨S_, .i32⟩ : BufTy).Contents (Elt F) → (⟨S3200000, .i32⟩ : BufTy).Contents (Elt F)),
    binary main_arg5 main_v33 main_v34 (addi : (⟨S3200000, .i32⟩ : BufTy).Contents (Elt F) → (⟨S3200000, .i32⟩ : BufTy).Contents (Elt F) → (⟨S3200000, .i32⟩ : BufTy).Contents (Elt F)),
    ternary main_v32 main_v34 main_arg5 main_v35 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v35 main_v36 (broadcastInDim S3200000x1 ![0] bcast_S3200000_S3200000x1_0 : (⟨S3200000, .i32⟩ : BufTy).Contents (Elt F) → (⟨S3200000x1, .i32⟩ : BufTy).Contents (Elt F)),
    binary main_arg0 main_v36 main_v37 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    nullary main_c_11 (constantI S_ 32 0#32),
    unary main_c_11 main_v38 (broadcastInDim S3200000 ![] bcast_S_S3200000 : (⟨S_, .i32⟩ : BufTy).Contents (Elt F) → (⟨S3200000, .i32⟩ : BufTy).Contents (Elt F)),
    binary main_arg6 main_v38 main_v39 (cmpi .slt : (⟨S3200000, .i32⟩ : BufTy).Contents (Elt F) → (⟨S3200000, .i32⟩ : BufTy).Contents (Elt F) → (⟨S3200000, .i1⟩ : BufTy).Contents (Elt F)),
    nullary main_c_12 (constantI S_ 32 100000#32),
    unary main_c_12 main_v40 (broadcastInDim S3200000 ![] bcast_S_S3200000 : (⟨S_, .i32⟩ : BufTy).Contents (Elt F) → (⟨S3200000, .i32⟩ : BufTy).Contents (Elt F)),
    binary main_arg6 main_v40 main_v41 (addi : (⟨S3200000, .i32⟩ : BufTy).Contents (Elt F) → (⟨S3200000, .i32⟩ : BufTy).Contents (Elt F) → (⟨S3200000, .i32⟩ : BufTy).Contents (Elt F)),
    ternary main_v39 main_v41 main_arg6 main_v42 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v42 main_v43 (broadcastInDim S3200000x1 ![0] bcast_S3200000_S3200000x1_0 : (⟨S3200000, .i32⟩ : BufTy).Contents (Elt F) → (⟨S3200000x1, .i32⟩ : BufTy).Contents (Elt F)),
    binary main_arg0 main_v43 main_v44 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v37 main_v44 main_v45 (mulf : (⟨S3200000, .f32⟩ : BufTy).Contents (Elt F) → (⟨S3200000, .f32⟩ : BufTy).Contents (Elt F) → (⟨S3200000, .f32⟩ : BufTy).Contents (Elt F)),
    binary main_v26 main_v30 main_v46 (subf : (⟨S3200000, .f32⟩ : BufTy).Contents (Elt F) → (⟨S3200000, .f32⟩ : BufTy).Contents (Elt F) → (⟨S3200000, .f32⟩ : BufTy).Contents (Elt F)),
    binary main_v45 main_v46 main_v47 (mulf : (⟨S3200000, .f32⟩ : BufTy).Contents (Elt F) → (⟨S3200000, .f32⟩ : BufTy).Contents (Elt F) → (⟨S3200000, .f32⟩ : BufTy).Contents (Elt F)),
    binary main_v26 main_v26 main_v48 (mulf : (⟨S3200000, .f32⟩ : BufTy).Contents (Elt F) → (⟨S3200000, .f32⟩ : BufTy).Contents (Elt F) → (⟨S3200000, .f32⟩ : BufTy).Contents (Elt F)),
    binary main_v48 main_v26 main_v49 (mulf : (⟨S3200000, .f32⟩ : BufTy).Contents (Elt F) → (⟨S3200000, .f32⟩ : BufTy).Contents (Elt F) → (⟨S3200000, .f32⟩ : BufTy).Contents (Elt F)),
    nullary main_cst_13 (constant S_ .f32 0x40000000#32),
    unary main_cst_13 main_v50 (broadcastInDim S3200000 ![] bcast_S_S3200000 : (⟨S_, .f32⟩ : BufTy).Contents (Elt F) → (⟨S3200000, .f32⟩ : BufTy).Contents (Elt F)),
    binary main_v50 main_arg4 main_v51 (mulf : (⟨S3200000, .f32⟩ : BufTy).Contents (Elt F) → (⟨S3200000, .f32⟩ : BufTy).Contents (Elt F) → (⟨S3200000, .f32⟩ : BufTy).Contents (Elt F)),
    nullary main_cst_14 (constant S_ .f32 0x447A0000#32),
    unary main_cst_14 main_v52 (broadcastInDim S3200000 ![] bcast_S_S3200000 : (⟨S_, .f32⟩ : BufTy).Contents (Elt F) → (⟨S3200000, .f32⟩ : BufTy).Contents (Elt F)),
    binary main_v51 main_v52 main_v53 (Host.divf : (⟨S3200000, .f32⟩ : BufTy).Contents (Elt F) → (⟨S3200000, .f32⟩ : BufTy).Contents (Elt F) → (⟨S3200000, .f32⟩ : BufTy).Contents (Elt F)),
    nullary main_cst_15 (constant S_ .f32 0x3CF5C28F#32),
    unary main_cst_15 main_v54 (broadcastInDim S3200000 ![] bcast_S_S3200000 : (⟨S_, .f32⟩ : BufTy).Contents (Elt F) → (⟨S3200000, .f32⟩ : BufTy).Contents (Elt F)),
    binary main_v54 main_v53 main_v55 (subf : (⟨S3200000, .f32⟩ : BufTy).Contents (Elt F) → (⟨S3200000, .f32⟩ : BufTy).Contents (Elt F) → (⟨S3200000, .f32⟩ : BufTy).Contents (Elt F)),
    nullary main_cst_16 (constant S_ .f32 0x40400000#32),
    unary main_cst_16 main_v56 (broadcastInDim S3200000 ![] bcast_S_S3200000 : (⟨S_, .f32⟩ : BufTy).Contents (Elt F) → (⟨S3200000, .f32⟩ : BufTy).Contents (Elt F)),
    binary main_v56 main_arg4 main_v57 (mulf : (⟨S3200000, .f32⟩ : BufTy).Contents (Elt F) → (⟨S3200000, .f32⟩ : BufTy).Contents (Elt F) → (⟨S3200000, .f32⟩ : BufTy).Contents (Elt F)),
    nullary main_cst_17 (constant S_ .f32 0x461C4000#32),
    unary main_cst_17 main_v58 (broadcastInDim S3200000 ![] bcast_S_S3200000 : (⟨S_, .f32⟩ : BufTy).Contents (Elt F) → (⟨S3200000, .f32⟩ : BufTy).Contents (Elt F)),
    binary main_v57 main_v58 main_v59 (Host.divf : (⟨S3200000, .f32⟩ : BufTy).Contents (Elt F) → (⟨S3200000, .f32⟩ : BufTy).Contents (Elt F) → (⟨S3200000, .f32⟩ : BufTy).Contents (Elt F)),
    nullary main_cst_18 (constant S_ .f32 0x3B83126F#32),
    unary main_cst_18 main_v60 (broadcastInDim S3200000 ![] bcast_S_S3200000 : (⟨S_, .f32⟩ : BufTy).Contents (Elt F) → (⟨S3200000, .f32⟩ : BufTy).Contents (Elt F)),
    binary main_v60 main_v59 main_v61 (subf : (⟨S3200000, .f32⟩ : BufTy).Contents (Elt F) → (⟨S3200000, .f32⟩ : BufTy).Contents (Elt F) → (⟨S3200000, .f32⟩ : BufTy).Contents (Elt F)),
    unary main_arg4 main_v62 (broadcastInDim S3200000x1 ![0] bcast_S3200000_S3200000x1_0 : (⟨S3200000, .f32⟩ : BufTy).Contents (Elt F) → (⟨S3200000x1, .f32⟩ : BufTy).Contents (Elt F)),
    unary main_v62 main_v63 (broadcastInDim S3200000x3 ![0, 1] bcast_S3200000x1_S3200000x3_0_1 : (⟨S3200000x1, .f32⟩ : BufTy).Contents (Elt F) → (⟨S3200000x3, .f32⟩ : BufTy).Contents (Elt F)),
    binary main_arg3 main_v63 main_v64 (Host.divf : (⟨S3200000x3, .f32⟩ : BufTy).Contents (Elt F) → (⟨S3200000x3, .f32⟩ : BufTy).Contents (Elt F) → (⟨S3200000x3, .f32⟩ : BufTy).Contents (Elt F)),
    nullary main_c_19 (constantI S_ 32 0#32),
    unary main_c_19 main_v65 (broadcastInDim S3200000 ![] bcast_S_S3200000 : (⟨S_, .i32⟩ : BufTy).Contents (Elt F) → (⟨S3200000, .i32⟩ : BufTy).Contents (Elt F)),
    binary main_arg5 main_v65 main_v66 (cmpi .slt : (⟨S3200000, .i32⟩ : BufTy).Contents (Elt F) → (⟨S3200000, .i32⟩ : BufTy).Contents (Elt F) → (⟨S3200000, .i1⟩ : BufTy).Contents (Elt F)),
    nullary main_c_20 (constantI S_ 32 100000#32),
    unary main_c_20 main_v67 (broadcastInDim S3200000 ![] bcast_S_S3200000 : (⟨S_, .i32⟩ : BufTy).Contents (Elt F) → (⟨S3200000, .i32⟩ : BufTy).Contents (Elt F)),
    binary main_arg5 main_v67 main_v68 (addi : (⟨S3200000, .i32⟩ : BufTy).Contents (Elt F) → (⟨S3200000, .i32⟩ : BufTy).Contents (Elt F) → (⟨S3200000, .i32⟩ : BufTy).Contents (Elt F)),
    ternary main_v66 main_v68 main_arg5 main_v69 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v69 main_v70 (broadcastInDim S3200000x1 ![0] bcast_S3200000_S3200000x1_0 : (⟨S3200000, .i32⟩ : BufTy).Contents (Elt F) → (⟨S3200000x1, .i32⟩ : BufTy).Contents (Elt F)),
    binary main_arg1 main_v70 main_v71 ((fun x i => Host.gather gather_S100000x3_S3200000x1_S3200000x3_1_0_n_n_0_1_13 x i) : (⟨S100000x3, .f32⟩ : BufTy).Contents (Elt F) → (⟨S3200000x1, .i32⟩ : BufTy).Contents (Elt F) → (⟨S3200000x3, .f32⟩ : BufTy).Contents (Elt F)),
    nullary main_c_21 (constantI S_ 32 0#32),
    unary main_c_21 main_v72 (broadcastInDim S3200000 ![] bcast_S_S3200000 : (⟨S_, .i32⟩ : BufTy).Contents (Elt F) → (⟨S3200000, .i32⟩ : BufTy).Contents (Elt F)),
    binary main_arg6 main_v72 main_v73 (cmpi .slt : (⟨S3200000, .i32⟩ : BufTy).Contents (Elt F) → (⟨S3200000, .i32⟩ : BufTy).Contents (Elt F) → (⟨S3200000, .i1⟩ : BufTy).Contents (Elt F)),
    nullary main_c_22 (constantI S_ 32 100000#32),
    unary main_c_22 main_v74 (broadcastInDim S3200000 ![] bcast_S_S3200000 : (⟨S_, .i32⟩ : BufTy).Contents (Elt F) → (⟨S3200000, .i32⟩ : BufTy).Contents (Elt F)),
    binary main_arg6 main_v74 main_v75 (addi : (⟨S3200000, .i32⟩ : BufTy).Contents (Elt F) → (⟨S3200000, .i32⟩ : BufTy).Contents (Elt F) → (⟨S3200000, .i32⟩ : BufTy).Contents (Elt F)),
    ternary main_v73 main_v75 main_arg6 main_v76 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v76 main_v77 (broadcastInDim S3200000x1 ![0] bcast_S3200000_S3200000x1_0 : (⟨S3200000, .i32⟩ : BufTy).Contents (Elt F) → (⟨S3200000x1, .i32⟩ : BufTy).Contents (Elt F)),
    binary main_arg1 main_v77 main_v78 ((fun x i => Host.gather gather_S100000x3_S3200000x1_S3200000x3_1_0_n_n_0_1_13 x i) : (⟨S100000x3, .f32⟩ : BufTy).Contents (Elt F) → (⟨S3200000x1, .i32⟩ : BufTy).Contents (Elt F) → (⟨S3200000x3, .f32⟩ : BufTy).Contents (Elt F)),
    binary main_v64 main_v78 main_v79 (mulf : (⟨S3200000x3, .f32⟩ : BufTy).Contents (Elt F) → (⟨S3200000x3, .f32⟩ : BufTy).Contents (Elt F) → (⟨S3200000x3, .f32⟩ : BufTy).Contents (Elt F)),
    nullary main_cst_23 (constant S_ .f32 0x00000000#32),
    binary main_v79 main_cst_23 main_v80 ((fun x v => Host.reduceAdd x v reducesTo_S3200000x3_S3200000_d1 h_S_) : (⟨S3200000x3, .f32⟩ : BufTy).Contents (Elt F) → (⟨S_, .f32⟩ : BufTy).Contents (Elt F) → (⟨S3200000, .f32⟩ : BufTy).Contents (Elt F)),
    binary main_v64 main_v71 main_v81 (mulf : (⟨S3200000x3, .f32⟩ : BufTy).Contents (Elt F) → (⟨S3200000x3, .f32⟩ : BufTy).Contents (Elt F) → (⟨S3200000x3, .f32⟩ : BufTy).Contents (Elt F)),
    nullary main_cst_24 (constant S_ .f32 0x00000000#32),
    binary main_v81 main_cst_24 main_v82 ((fun x v => Host.reduceAdd x v reducesTo_S3200000x3_S3200000_d1 h_S_) : (⟨S3200000x3, .f32⟩ : BufTy).Contents (Elt F) → (⟨S_, .f32⟩ : BufTy).Contents (Elt F) → (⟨S3200000, .f32⟩ : BufTy).Contents (Elt F)),
    nullary main_cst_25 (constant S_ .f32 0x40000000#32),
    unary main_cst_25 main_v83 (broadcastInDim S3200000 ![] bcast_S_S3200000 : (⟨S_, .f32⟩ : BufTy).Contents (Elt F) → (⟨S3200000, .f32⟩ : BufTy).Contents (Elt F)),
    binary main_v83 main_v37 main_v84 (mulf : (⟨S3200000, .f32⟩ : BufTy).Contents (Elt F) → (⟨S3200000, .f32⟩ : BufTy).Contents (Elt F) → (⟨S3200000, .f32⟩ : BufTy).Contents (Elt F)),
    binary main_v84 main_v80 main_v85 (mulf : (⟨S3200000, .f32⟩ : BufTy).Contents (Elt F) → (⟨S3200000, .f32⟩ : BufTy).Contents (Elt F) → (⟨S3200000, .f32⟩ : BufTy).Contents (Elt F)),
    binary main_v48 main_v55 main_v86 (subf : (⟨S3200000, .f32⟩ : BufTy).Contents (Elt F) → (⟨S3200000, .f32⟩ : BufTy).Contents (Elt F) → (⟨S3200000, .f32⟩ : BufTy).Contents (Elt F)),
    binary main_v85 main_v86 main_v87 (mulf : (⟨S3200000, .f32⟩ : BufTy).Contents (Elt F) → (⟨S3200000, .f32⟩ : BufTy).Contents (Elt F) → (⟨S3200000, .f32⟩ : BufTy).Contents (Elt F)),
    binary main_v71 main_v78 main_v88 (mulf : (⟨S3200000x3, .f32⟩ : BufTy).Contents (Elt F) → (⟨S3200000x3, .f32⟩ : BufTy).Contents (Elt F) → (⟨S3200000x3, .f32⟩ : BufTy).Contents (Elt F)),
    nullary main_cst_26 (constant S_ .f32 0x00000000#32),
    binary main_v88 main_cst_26 main_v89 ((fun x v => Host.reduceAdd x v reducesTo_S3200000x3_S3200000_d1 h_S_) : (⟨S3200000x3, .f32⟩ : BufTy).Contents (Elt F) → (⟨S_, .f32⟩ : BufTy).Contents (Elt F) → (⟨S3200000, .f32⟩ : BufTy).Contents (Elt F)),
    nullary main_cst_27 (constant S_ .f32 0x40400000#32),
    unary main_cst_27 main_v90 (broadcastInDim S3200000 ![] bcast_S_S3200000 : (⟨S_, .f32⟩ : BufTy).Contents (Elt F) → (⟨S3200000, .f32⟩ : BufTy).Contents (Elt F)),
    binary main_v90 main_v80 main_v91 (mulf : (⟨S3200000, .f32⟩ : BufTy).Contents (Elt F) → (⟨S3200000, .f32⟩ : BufTy).Contents (Elt F) → (⟨S3200000, .f32⟩ : BufTy).Contents (Elt F)),
    binary main_v91 main_v82 main_v92 (mulf : (⟨S3200000, .f32⟩ : BufTy).Contents (Elt F) → (⟨S3200000, .f32⟩ : BufTy).Contents (Elt F) → (⟨S3200000, .f32⟩ : BufTy).Contents (Elt F)),
    binary main_v89 main_v92 main_v93 (subf : (⟨S3200000, .f32⟩ : BufTy).Contents (Elt F) → (⟨S3200000, .f32⟩ : BufTy).Contents (Elt F) → (⟨S3200000, .f32⟩ : BufTy).Contents (Elt F)),
    binary main_v49 main_v61 main_v94 (subf : (⟨S3200000, .f32⟩ : BufTy).Contents (Elt F) → (⟨S3200000, .f32⟩ : BufTy).Contents (Elt F) → (⟨S3200000, .f32⟩ : BufTy).Contents (Elt F)),
    binary main_v93 main_v94 main_v95 (mulf : (⟨S3200000, .f32⟩ : BufTy).Contents (Elt F) → (⟨S3200000, .f32⟩ : BufTy).Contents (Elt F) → (⟨S3200000, .f32⟩ : BufTy).Contents (Elt F)),
    binary main_v47 main_v87 main_v96 (addf : (⟨S3200000, .f32⟩ : BufTy).Contents (Elt F) → (⟨S3200000, .f32⟩ : BufTy).Contents (Elt F) → (⟨S3200000, .f32⟩ : BufTy).Contents (Elt F)),
    binary main_v96 main_v95 main_v97 (addf : (⟨S3200000, .f32⟩ : BufTy).Contents (Elt F) → (⟨S3200000, .f32⟩ : BufTy).Contents (Elt F) → (⟨S3200000, .f32⟩ : BufTy).Contents (Elt F)),
    unary main_arg3 main_v98 (broadcastInDim S3200000x3x1 ![0, 1] bcast_S3200000x3_S3200000x3x1_0_1 : (⟨S3200000x3, .f32⟩ : BufTy).Contents (Elt F) → (⟨S3200000x3x1, .f32⟩ : BufTy).Contents (Elt F)),
    unary main_arg3 main_v99 (broadcastInDim S3200000x1x3 ![0, 2] bcast_S3200000x3_S3200000x1x3_0_2 : (⟨S3200000x3, .f32⟩ : BufTy).Contents (Elt F) → (⟨S3200000x1x3, .f32⟩ : BufTy).Contents (Elt F)),
    unary main_v98 main_v100 (broadcastInDim S3200000x3x3 ![0, 1, 2] bcast_S3200000x3x1_S3200000x3x3_0_1_2 : (⟨S3200000x3x1, .f32⟩ : BufTy).Contents (Elt F) → (⟨S3200000x3x3, .f32⟩ : BufTy).Contents (Elt F)),
    unary main_v99 main_v101 (broadcastInDim S3200000x3x3 ![0, 1, 2] bcast_S3200000x1x3_S3200000x3x3_0_1_2 : (⟨S3200000x1x3, .f32⟩ : BufTy).Contents (Elt F) → (⟨S3200000x3x3, .f32⟩ : BufTy).Contents (Elt F)),
    binary main_v100 main_v101 main_v102 (mulf : (⟨S3200000x3x3, .f32⟩ : BufTy).Contents (Elt F) → (⟨S3200000x3x3, .f32⟩ : BufTy).Contents (Elt F) → (⟨S3200000x3x3, .f32⟩ : BufTy).Contents (Elt F)),
    TRef.nullary main_call1.v0 (iotaInDim S3x3 32 0),
    TRef.nullary main_call1.v1 (iotaInDim S3x3 32 1),
    TRef.nullary main_call1.c (constantI S_ 32 0#32),
    TRef.unary main_call1.c main_call1.v2 (broadcastInDim S3x3 ![] bcast_S_S3x3),
    TRef.binary main_call1.v0 main_call1.v2 main_call1.v3 addi,
    TRef.binary main_call1.v3 main_call1.v1 main_call1.v4 (cmpi .eq),
    TRef.nullary main_call1.cst (constant S_ .f32 0x00000000#32),
    TRef.unary main_call1.cst main_call1.v5 (broadcastInDim S3200000x3x3 ![] bcast_S_S3200000x3x3),
    TRef.unary main_call1.v4 main_call1.call0.v0 (broadcastInDim S3200000x3x3 ![1, 2] bcast_S3x3_S3200000x3x3_1_2),
    TRef.ternary main_call1.call0.v0 (.of main_v102) main_call1.v5 main_call1.call0.v1 select,
    TRef.nullary main_call1.cst_0 (constant S_ .f32 0x00000000#32),
    TRef.binary main_call1.call0.v1 main_call1.cst_0 main_call1.v7 (fun x v => Host.reduceAdd x v reducesTo_S3200000x3x3_S3200000_d1_2 h_S_),
    nullary main_cst_28 (constant S_ .f32 0x40400000#32),
    unary main_cst_28 main_v104 (broadcastInDim S3200000 ![] bcast_S_S3200000 : (⟨S_, .f32⟩ : BufTy).Contents (Elt F) → (⟨S3200000, .f32⟩ : BufTy).Contents (Elt F)),
    binary main_v103 main_v104 main_v105 (Host.divf : (⟨S3200000, .f32⟩ : BufTy).Contents (Elt F) → (⟨S3200000, .f32⟩ : BufTy).Contents (Elt F) → (⟨S3200000, .f32⟩ : BufTy).Contents (Elt F)),
    unary main_v105 main_v106 (broadcastInDim S3200000x1x1 ![0] bcast_S3200000_S3200000x1x1_0 : (⟨S3200000, .f32⟩ : BufTy).Contents (Elt F) → (⟨S3200000x1x1, .f32⟩ : BufTy).Contents (Elt F)),
    nullary main_v107 (iotaInDim S3x3 32 0),
    nullary main_v108 (iotaInDim S3x3 32 1),
    nullary main_c_29 (constantI S_ 32 0#32),
    unary main_c_29 main_v109 (broadcastInDim S3x3 ![] bcast_S_S3x3 : (⟨S_, .i32⟩ : BufTy).Contents (Elt F) → (⟨S3x3, .i32⟩ : BufTy).Contents (Elt F)),
    binary main_v107 main_v109 main_v110 (addi : (⟨S3x3, .i32⟩ : BufTy).Contents (Elt F) → (⟨S3x3, .i32⟩ : BufTy).Contents (Elt F) → (⟨S3x3, .i32⟩ : BufTy).Contents (Elt F)),
    binary main_v110 main_v108 main_v111 (cmpi .eq : (⟨S3x3, .i32⟩ : BufTy).Contents (Elt F) → (⟨S3x3, .i32⟩ : BufTy).Contents (Elt F) → (⟨S3x3, .i1⟩ : BufTy).Contents (Elt F)),
    unary main_v111 main_v112 (uitofp .f32 : (⟨S3x3, .i1⟩ : BufTy).Contents (Elt F) → (⟨S3x3, .f32⟩ : BufTy).Contents (Elt F)),
    unary main_v112 main_v113 (broadcastInDim S1x3x3 ![1, 2] bcast_S3x3_S1x3x3_1_2 : (⟨S3x3, .f32⟩ : BufTy).Contents (Elt F) → (⟨S1x3x3, .f32⟩ : BufTy).Contents (Elt F)),
    unary main_v106 main_v114 (broadcastInDim S3200000x3x3 ![0, 1, 2] bcast_S3200000x1x1_S3200000x3x3_0_1_2 : (⟨S3200000x1x1, .f32⟩ : BufTy).Contents (Elt F) → (⟨S3200000x3x3, .f32⟩ : BufTy).Contents (Elt F)),
    unary main_v113 main_v115 (broadcastInDim S3200000x3x3 ![0, 1, 2] bcast_S1x3x3_S3200000x3x3_0_1_2 : (⟨S1x3x3, .f32⟩ : BufTy).Contents (Elt F) → (⟨S3200000x3x3, .f32⟩ : BufTy).Contents (Elt F)),
    binary main_v114 main_v115 main_v116 (mulf : (⟨S3200000x3x3, .f32⟩ : BufTy).Contents (Elt F) → (⟨S3200000x3x3, .f32⟩ : BufTy).Contents (Elt F) → (⟨S3200000x3x3, .f32⟩ : BufTy).Contents (Elt F)),
    binary main_v102 main_v116 main_v117 (subf : (⟨S3200000x3x3, .f32⟩ : BufTy).Contents (Elt F) → (⟨S3200000x3x3, .f32⟩ : BufTy).Contents (Elt F) → (⟨S3200000x3x3, .f32⟩ : BufTy).Contents (Elt F)),
    binary main_arg4 main_arg4 main_v118 (mulf : (⟨S3200000, .f32⟩ : BufTy).Contents (Elt F) → (⟨S3200000, .f32⟩ : BufTy).Contents (Elt F) → (⟨S3200000, .f32⟩ : BufTy).Contents (Elt F)),
    unary main_v118 main_v119 (broadcastInDim S3200000x1x1 ![0] bcast_S3200000_S3200000x1x1_0 : (⟨S3200000, .f32⟩ : BufTy).Contents (Elt F) → (⟨S3200000x1x1, .f32⟩ : BufTy).Contents (Elt F)),
    unary main_v119 main_v120 (broadcastInDim S3200000x3x3 ![0, 1, 2] bcast_S3200000x1x1_S3200000x3x3_0_1_2 : (⟨S3200000x1x1, .f32⟩ : BufTy).Contents (Elt F) → (⟨S3200000x3x3, .f32⟩ : BufTy).Contents (Elt F)),
    binary main_v117 main_v120 main_v121 (Host.divf : (⟨S3200000x3x3, .f32⟩ : BufTy).Contents (Elt F) → (⟨S3200000x3x3, .f32⟩ : BufTy).Contents (Elt F) → (⟨S3200000x3x3, .f32⟩ : BufTy).Contents (Elt F)),
    nullary main_c_30 (constantI S_ 32 0#32),
    unary main_c_30 main_v122 (broadcastInDim S3200000 ![] bcast_S_S3200000 : (⟨S_, .i32⟩ : BufTy).Contents (Elt F) → (⟨S3200000, .i32⟩ : BufTy).Contents (Elt F)),
    binary main_arg6 main_v122 main_v123 (cmpi .slt : (⟨S3200000, .i32⟩ : BufTy).Contents (Elt F) → (⟨S3200000, .i32⟩ : BufTy).Contents (Elt F) → (⟨S3200000, .i1⟩ : BufTy).Contents (Elt F)),
    nullary main_c_31 (constantI S_ 32 100000#32),
    unary main_c_31 main_v124 (broadcastInDim S3200000 ![] bcast_S_S3200000 : (⟨S_, .i32⟩ : BufTy).Contents (Elt F) → (⟨S3200000, .i32⟩ : BufTy).Contents (Elt F)),
    binary main_arg6 main_v124 main_v125 (addi : (⟨S3200000, .i32⟩ : BufTy).Contents (Elt F) → (⟨S3200000, .i32⟩ : BufTy).Contents (Elt F) → (⟨S3200000, .i32⟩ : BufTy).Contents (Elt F)),
    ternary main_v123 main_v125 main_arg6 main_v126 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v126 main_v127 (broadcastInDim S3200000x1 ![0] bcast_S3200000_S3200000x1_0 : (⟨S3200000, .i32⟩ : BufTy).Contents (Elt F) → (⟨S3200000x1, .i32⟩ : BufTy).Contents (Elt F)),
    binary main_arg2 main_v127 main_v128 ((fun x i => Host.gather gather_S100000x3x3_S3200000x1_S3200000x3x3_12_0_n_n_0_1_133 x i) : (⟨S100000x3x3, .f32⟩ : BufTy).Contents (Elt F) → (⟨S3200000x1, .i32⟩ : BufTy).Contents (Elt F) → (⟨S3200000x3x3, .f32⟩ : BufTy).Contents (Elt F)),
    binary main_v121 main_v128 main_v129 (mulf : (⟨S3200000x3x3, .f32⟩ : BufTy).Contents (Elt F) → (⟨S3200000x3x3, .f32⟩ : BufTy).Contents (Elt F) → (⟨S3200000x3x3, .f32⟩ : BufTy).Contents (Elt F)),
    nullary main_cst_32 (constant S_ .f32 0x00000000#32),
    binary main_v129 main_cst_32 main_v130 ((fun x v => Host.reduceAdd x v reducesTo_S3200000x3x3_S3200000_d1_2 h_S_) : (⟨S3200000x3x3, .f32⟩ : BufTy).Contents (Elt F) → (⟨S_, .f32⟩ : BufTy).Contents (Elt F) → (⟨S3200000, .f32⟩ : BufTy).Contents (Elt F)),
    binary main_v37 main_v130 main_v131 (mulf : (⟨S3200000, .f32⟩ : BufTy).Contents (Elt F) → (⟨S3200000, .f32⟩ : BufTy).Contents (Elt F) → (⟨S3200000, .f32⟩ : BufTy).Contents (Elt F)),
    binary main_v49 main_v61 main_v132 (subf : (⟨S3200000, .f32⟩ : BufTy).Contents (Elt F) → (⟨S3200000, .f32⟩ : BufTy).Contents (Elt F) → (⟨S3200000, .f32⟩ : BufTy).Contents (Elt F)),
    binary main_v131 main_v132 main_v133 (mulf : (⟨S3200000, .f32⟩ : BufTy).Contents (Elt F) → (⟨S3200000, .f32⟩ : BufTy).Contents (Elt F) → (⟨S3200000, .f32⟩ : BufTy).Contents (Elt F)),
    binary main_v97 main_v133 main_v134 (addf : (⟨S3200000, .f32⟩ : BufTy).Contents (Elt F) → (⟨S3200000, .f32⟩ : BufTy).Contents (Elt F) → (⟨S3200000, .f32⟩ : BufTy).Contents (Elt F)),
    nullary main_cst_33 (constant S_ .f32 0x40E664F3#32),
    unary main_cst_33 main_v135 (broadcastInDim S3200000 ![] bcast_S_S3200000 : (⟨S_, .f32⟩ : BufTy).Contents (Elt F) → (⟨S3200000, .f32⟩ : BufTy).Contents (Elt F)),
    binary main_v135 main_v134 main_v136 (mulf : (⟨S3200000, .f32⟩ : BufTy).Contents (Elt F) → (⟨S3200000, .f32⟩ : BufTy).Contents (Elt F) → (⟨S3200000, .f32⟩ : BufTy).Contents (Elt F)),
    nullary main_cst_34 (constant S_ .f32 0x41200000#32),
    unary main_cst_34 main_v137 (broadcastInDim S3200000 ![] bcast_S_S3200000 : (⟨S_, .f32⟩ : BufTy).Contents (Elt F) → (⟨S3200000, .f32⟩ : BufTy).Contents (Elt F)),
    binary main_arg4 main_v137 main_v138 (cmpf .ole : (⟨S3200000, .f32⟩ : BufTy).Contents (Elt F) → (⟨S3200000, .f32⟩ : BufTy).Contents (Elt F) → (⟨S3200000, .i1⟩ : BufTy).Contents (Elt F)),
    nullary main_cst_35 (constant S_ .f32 0x00000000#32),
    unary main_cst_35 main_v139 (broadcastInDim S3200000 ![] bcast_S_S3200000 : (⟨S_, .f32⟩ : BufTy).Contents (Elt F) → (⟨S3200000, .f32⟩ : BufTy).Contents (Elt F)),
    TRef.ternary (.of main_v138) (.of main_v136) (.of main_v139) main_call2.v0 select ]

end Cert.ReferenceIdeal.HandRun

end
-- ==== Proof.RefTerm.lean ====
/-
  The reference program's result as one pure function of its seven arguments, cut into the stages of the
  computation (index wrap, damped interaction, shifts, gathers, the three dot products, the trace and the
  traceless tensor, the quadrupole sum, the final scaling and cutoff). Each stage is the program's own
  operations in the program's own order, the three outlined functions (two selects and the trace) written out
  at their calls.
-/
import proofs.«173083_j48498770706888_2_alg».proof.ReferenceIdeal

noncomputable section

namespace Cert.ReferenceIdeal.Term

open Idealize.ShloMosaic Cert.ReferenceIdeal

variable {F : FTy → Type} [FloatOps F] [Cert.ReferenceIdeal.Facts]
open Cert.ReferenceIdeal.Facts₀ Cert.ReferenceIdeal.Facts

/-- A vector of indices made ready for a gather: 100000 added to the negative ones, then kept as one column. -/
def rIdx (i : IVec S3200000 32) : IVec S3200000x1 32 :=
  let main_c : IVec S_ 32 := constantI S_ 32 0#32
  let main_v31 : IVec S3200000 32 := (broadcastInDim S3200000 ![] bcast_S_S3200000) main_c
  let main_v32 : IVec S3200000 1 := (cmpi .slt) i main_v31
  let main_c_10 : IVec S_ 32 := constantI S_ 32 100000#32
  let main_v33 : IVec S3200000 32 := (broadcastInDim S3200000 ![] bcast_S_S3200000) main_c_10
  let main_v34 : IVec S3200000 32 := addi i main_v33
  let main_v35 : IVec S3200000 32 := select main_v32 main_v34 i
  let main_v36 : IVec S3200000x1 32 := (broadcastInDim S3200000x1 ![0] bcast_S3200000_S3200000x1_0) main_v35
  main_v36

/-- The damped interaction sw / sqrt(d·d + 1) + (1 − sw) / d of every edge, sw the quintic switch of d / 4, zero from 1 on. -/
def rChi (d : FVec F S3200000 .f32) : FVec F S3200000 .f32 :=
  let main_v0 : FVec F S3200000 .f32 := mulf d d
  let main_cst : FVec F S_ .f32 := constant S_ .f32 0x3F800000#32
  let main_v1 : FVec F S3200000 .f32 := (broadcastInDim S3200000 ![] bcast_S_S3200000) main_cst
  let main_v2 : FVec F S3200000 .f32 := addf main_v0 main_v1
  let main_v3 : FVec F S3200000 .f32 := Host.sqrt main_v2
  let main_cst_0 : FVec F S_ .f32 := constant S_ .f32 0x40800000#32
  let main_v4 : FVec F S3200000 .f32 := (broadcastInDim S3200000 ![] bcast_S_S3200000) main_cst_0
  let main_v5 : FVec F S3200000 .f32 := Host.divf d main_v4
  let main_v6 : FVec F S3200000 .f32 := mulf main_v5 main_v5
  let main_v7 : FVec F S3200000 .f32 := mulf main_v6 main_v5
  let main_cst_1 : FVec F S_ .f32 := constant S_ .f32 0x41700000#32
  let main_v8 : FVec F S3200000 .f32 := (broadcastInDim S3200000 ![] bcast_S_S3200000) main_cst_1
  let main_v9 : FVec F S3200000 .f32 := mulf main_v8 main_v5
  let main_cst_2 : FVec F S_ .f32 := constant S_ .f32 0x41200000#32
  let main_v10 : FVec F S3200000 .f32 := (broadcastInDim S3200000 ![] bcast_S_S3200000) main_cst_2
  let main_v11 : FVec F S3200000 .f32 := subf main_v10 main_v9
  let main_cst_3 : FVec F S_ .f32 := constant S_ .f32 0x40C00000#32
  let main_v12 : FVec F S3200000 .f32 := (broadcastInDim S3200000 ![] bcast_S_S3200000) main_cst_3
  let main_v13 : FVec F S3200000 .f32 := mulf main_v12 main_v5
  let main_v14 : FVec F S3200000 .f32 := mulf main_v13 main_v5
  let main_v15 : FVec F S3200000 .f32 := addf main_v11 main_v14
  let main_v16 : FVec F S3200000 .f32 := mulf main_v7 main_v15
  let main_cst_4 : FVec F S_ .f32 := constant S_ .f32 0x3F800000#32
  let main_v17 : FVec F S3200000 .f32 := (broadcastInDim S3200000 ![] bcast_S_S3200000) main_cst_4
  let main_v18 : FVec F S3200000 .f32 := subf main_v17 main_v16
  let main_cst_5 : FVec F S_ .f32 := constant S_ .f32 0x3F800000#32
  let main_v19 : FVec F S3200000 .f32 := (broadcastInDim S3200000 ![] bcast_S_S3200000) main_cst_5
  let main_v20 : IVec S3200000 1 := (cmpf .olt) main_v5 main_v19
  let main_cst_6 : FVec F S_ .f32 := constant S_ .f32 0x00000000#32
  let main_call0_v0 : FVec F S_ .f32 := id main_cst_6
  let main_call0_v1 : FVec F S3200000 .f32 := (broadcastInDim S3200000 ![] bcast_S_S3200000) main_call0_v0
  let main_v21 : FVec F S3200000 .f32 := select main_v20 main_v18 main_call0_v1
  let main_v22 : FVec F S3200000 .f32 := Host.divf main_v21 main_v3
  let main_cst_7 : FVec F S_ .f32 := constant S_ .f32 0x3F800000#32
  let main_v23 : FVec F S3200000 .f32 := (broadcastInDim S3200000 ![] bcast_S_S3200000) main_cst_7
  let main_v24 : FVec F S3200000 .f32 := subf main_v23 main_v21
  let main_v25 : FVec F S3200000 .f32 := Host.divf main_v24 d
  let main_v26 : FVec F S3200000 .f32 := addf main_v22 main_v25
  main_v26

/-- The first shift, 0.2 − d / 100. -/
def rSh1 (d : FVec F S3200000 .f32) : FVec F S3200000 .f32 :=
  let main_cst_8 : FVec F S_ .f32 := constant S_ .f32 0x42C80000#32
  let main_v27 : FVec F S3200000 .f32 := (broadcastInDim S3200000 ![] bcast_S_S3200000) main_cst_8
  let main_v28 : FVec F S3200000 .f32 := Host.divf d main_v27
  let main_cst_9 : FVec F S_ .f32 := constant S_ .f32 0x3E4CCCCD#32
  let main_v29 : FVec F S3200000 .f32 := (broadcastInDim S3200000 ![] bcast_S_S3200000) main_cst_9
  let main_v30 : FVec F S3200000 .f32 := subf main_v29 main_v28
  main_v30

/-- The second shift, 0.03 − 2·d / 1000. -/
def rSh2 (d : FVec F S3200000 .f32) : FVec F S3200000 .f32 :=
  let main_cst_13 : FVec F S_ .f32 := constant S_ .f32 0x40000000#32
  let main_v50 : FVec F S3200000 .f32 := (broadcastInDim S3200000 ![] bcast_S_S3200000) main_cst_13
  let main_v51 : FVec F S3200000 .f32 := mulf main_v50 d
  let main_cst_14 : FVec F S_ .f32 := constant S_ .f32 0x447A0000#32
  let main_v52 : FVec F S3200000 .f32 := (broadcastInDim S3200000 ![] bcast_S_S3200000) main_cst_14
  let main_v53 : FVec F S3200000 .f32 := Host.divf main_v51 main_v52
  let main_cst_15 : FVec F S_ .f32 := constant S_ .f32 0x3CF5C28F#32
  let main_v54 : FVec F S3200000 .f32 := (broadcastInDim S3200000 ![] bcast_S_S3200000) main_cst_15
  let main_v55 : FVec F S3200000 .f32 := subf main_v54 main_v53
  main_v55

/-- The third shift, 0.004 − 3·d / 10000. -/
def rSh3 (d : FVec F S3200000 .f32) : FVec F S3200000 .f32 :=
  let main_cst_16 : FVec F S_ .f32 := constant S_ .f32 0x40400000#32
  let main_v56 : FVec F S3200000 .f32 := (broadcastInDim S3200000 ![] bcast_S_S3200000) main_cst_16
  let main_v57 : FVec F S3200000 .f32 := mulf main_v56 d
  let main_cst_17 : FVec F S_ .f32 := constant S_ .f32 0x461C4000#32
  let main_v58 : FVec F S3200000 .f32 := (broadcastInDim S3200000 ![] bcast_S_S3200000) main_cst_17
  let main_v59 : FVec F S3200000 .f32 := Host.divf main_v57 main_v58
  let main_cst_18 : FVec F S_ .f32 := constant S_ .f32 0x3B83126F#32
  let main_v60 : FVec F S3200000 .f32 := (broadcastInDim S3200000 ![] bcast_S_S3200000) main_cst_18
  let main_v61 : FVec F S3200000 .f32 := subf main_v60 main_v59
  main_v61

/-- The charges gathered by a column of indices. -/
def rCh (ch : FVec F S100000 .f32) (ix : IVec S3200000x1 32) : FVec F S3200000 .f32 :=
  let main_v37 : FVec F S3200000 .f32 := (fun x i => Host.gather gather_S100000_S3200000x1_S3200000_n_0_n_n_0_1_1 x i) ch ix
  main_v37

/-- The dipole rows gathered by a column of indices. -/
def rDip (dip : FVec F S100000x3 .f32) (ix : IVec S3200000x1 32) : FVec F S3200000x3 .f32 :=
  let main_v71 : FVec F S3200000x3 .f32 := (fun x i => Host.gather gather_S100000x3_S3200000x1_S3200000x3_1_0_n_n_0_1_13 x i) dip ix
  main_v71

/-- The quadrupole matrices gathered by a column of indices. -/
def rQuad (quad : FVec F S100000x3x3 .f32) (ix : IVec S3200000x1 32) : FVec F S3200000x3x3 .f32 :=
  let main_v128 : FVec F S3200000x3x3 .f32 := (fun x i => Host.gather gather_S100000x3x3_S3200000x1_S3200000x3x3_12_0_n_n_0_1_133 x i) quad ix
  main_v128

/-- Every edge vector divided by its edge's distance. -/
def rNvec (vec : FVec F S3200000x3 .f32) (d : FVec F S3200000 .f32) : FVec F S3200000x3 .f32 :=
  let main_v62 : FVec F S3200000x1 .f32 := (broadcastInDim S3200000x1 ![0] bcast_S3200000_S3200000x1_0) d
  let main_v63 : FVec F S3200000x3 .f32 := (broadcastInDim S3200000x3 ![0, 1] bcast_S3200000x1_S3200000x3_0_1) main_v62
  let main_v64 : FVec F S3200000x3 .f32 := Host.divf vec main_v63
  main_v64

/-- The row-wise sum, from zero, of the products of two [E, 3] arrays. -/
def rDot (x y : FVec F S3200000x3 .f32) : FVec F S3200000 .f32 :=
  let main_v79 : FVec F S3200000x3 .f32 := mulf x y
  let main_cst_23 : FVec F S_ .f32 := constant S_ .f32 0x00000000#32
  let main_v80 : FVec F S3200000 .f32 := (fun x v => Host.reduceAdd x v reducesTo_S3200000x3_S3200000_d1 h_S_) main_v79 main_cst_23
  main_v80

/-- chi squared. -/
def rChi2 (chi : FVec F S3200000 .f32) : FVec F S3200000 .f32 :=
  let main_v48 : FVec F S3200000 .f32 := mulf chi chi
  main_v48

/-- chi cubed, as the square times chi. -/
def rChi3 (chi : FVec F S3200000 .f32) : FVec F S3200000 .f32 :=
  let main_v48 : FVec F S3200000 .f32 := mulf chi chi
  let main_v49 : FVec F S3200000 .f32 := mulf main_v48 chi
  main_v49

/-- Charge–charge, charge–dipole and dipole–dipole terms added up. -/
def rE1 (qu qv chi sh1 chi2 sh2 chi3 sh3 duv dvu dd : FVec F S3200000 .f32) : FVec F S3200000 .f32 :=
  let main_v45 : FVec F S3200000 .f32 := mulf qu qv
  let main_v46 : FVec F S3200000 .f32 := subf chi sh1
  let main_v47 : FVec F S3200000 .f32 := mulf main_v45 main_v46
  let main_cst_25 : FVec F S_ .f32 := constant S_ .f32 0x40000000#32
  let main_v83 : FVec F S3200000 .f32 := (broadcastInDim S3200000 ![] bcast_S_S3200000) main_cst_25
  let main_v84 : FVec F S3200000 .f32 := mulf main_v83 qu
  let main_v85 : FVec F S3200000 .f32 := mulf main_v84 duv
  let main_v86 : FVec F S3200000 .f32 := subf chi2 sh2
  let main_v87 : FVec F S3200000 .f32 := mulf main_v85 main_v86
  let main_cst_27 : FVec F S_ .f32 := constant S_ .f32 0x40400000#32
  let main_v90 : FVec F S3200000 .f32 := (broadcastInDim S3200000 ![] bcast_S_S3200000) main_cst_27
  let main_v91 : FVec F S3200000 .f32 := mulf main_v90 duv
  let main_v92 : FVec F S3200000 .f32 := mulf main_v91 dvu
  let main_v93 : FVec F S3200000 .f32 := subf dd main_v92
  let main_v94 : FVec F S3200000 .f32 := subf chi3 sh3
  let main_v95 : FVec F S3200000 .f32 := mulf main_v93 main_v94
  let main_v96 : FVec F S3200000 .f32 := addf main_v47 main_v87
  let main_v97 : FVec F S3200000 .f32 := addf main_v96 main_v95
  main_v97

/-- The outer product of every edge vector with itself. -/
def rOuter (vec : FVec F S3200000x3 .f32) : FVec F S3200000x3x3 .f32 :=
  let main_v98 : FVec F S3200000x3x1 .f32 := (broadcastInDim S3200000x3x1 ![0, 1] bcast_S3200000x3_S3200000x3x1_0_1) vec
  let main_v99 : FVec F S3200000x1x3 .f32 := (broadcastInDim S3200000x1x3 ![0, 2] bcast_S3200000x3_S3200000x1x3_0_2) vec
  let main_v100 : FVec F S3200000x3x3 .f32 := (broadcastInDim S3200000x3x3 ![0, 1, 2] bcast_S3200000x3x1_S3200000x3x3_0_1_2) main_v98
  let main_v101 : FVec F S3200000x3x3 .f32 := (broadcastInDim S3200000x3x3 ![0, 1, 2] bcast_S3200000x1x3_S3200000x3x3_0_1_2) main_v99
  let main_v102 : FVec F S3200000x3x3 .f32 := mulf main_v100 main_v101
  main_v102

/-- The trace of every 3×3 matrix: the off-diagonal entries replaced by zero, then all nine summed from zero. -/
def rTrace (o : FVec F S3200000x3x3 .f32) : FVec F S3200000 .f32 :=
  let main_call1_v0 : IVec S3x3 32 := iotaInDim S3x3 32 0
  let main_call1_v1 : IVec S3x3 32 := iotaInDim S3x3 32 1
  let main_call1_c : IVec S_ 32 := constantI S_ 32 0#32
  let main_call1_v2 : IVec S3x3 32 := (broadcastInDim S3x3 ![] bcast_S_S3x3) main_call1_c
  let main_call1_v3 : IVec S3x3 32 := addi main_call1_v0 main_call1_v2
  let main_call1_v4 : IVec S3x3 1 := (cmpi .eq) main_call1_v3 main_call1_v1
  let main_call1_cst : FVec F S_ .f32 := constant S_ .f32 0x00000000#32
  let main_call1_v5 : FVec F S3200000x3x3 .f32 := (broadcastInDim S3200000x3x3 ![] bcast_S_S3200000x3x3) main_call1_cst
  let main_call1_call0_v0 : IVec S3200000x3x3 1 := (broadcastInDim S3200000x3x3 ![1, 2] bcast_S3x3_S3200000x3x3_1_2) main_call1_v4
  let main_call1_v6 : FVec F S3200000x3x3 .f32 := select main_call1_call0_v0 o main_call1_v5
  let main_call1_cst_0 : FVec F S_ .f32 := constant S_ .f32 0x00000000#32
  let main_v103 : FVec F S3200000 .f32 := (fun x v => Host.reduceAdd x v reducesTo_S3200000x3x3_S3200000_d1_2 h_S_) main_call1_v6 main_call1_cst_0
  main_v103

/-- (o − (tr / 3)·identity) / (d·d), entry by entry. -/
def rTraceless (o : FVec F S3200000x3x3 .f32) (tr d : FVec F S3200000 .f32) : FVec F S3200000x3x3 .f32 :=
  let main_cst_28 : FVec F S_ .f32 := constant S_ .f32 0x40400000#32
  let main_v104 : FVec F S3200000 .f32 := (broadcastInDim S3200000 ![] bcast_S_S3200000) main_cst_28
  let main_v105 : FVec F S3200000 .f32 := Host.divf tr main_v104
  let main_v106 : FVec F S3200000x1x1 .f32 := (broadcastInDim S3200000x1x1 ![0] bcast_S3200000_S3200000x1x1_0) main_v105
  let main_v107 : IVec S3x3 32 := iotaInDim S3x3 32 0
  let main_v108 : IVec S3x3 32 := iotaInDim S3x3 32 1
  let main_c_29 : IVec S_ 32 := constantI S_ 32 0#32
  let main_v109 : IVec S3x3 32 := (broadcastInDim S3x3 ![] bcast_S_S3x3) main_c_29
  let main_v110 : IVec S3x3 32 := addi main_v107 main_v109
  let main_v111 : IVec S3x3 1 := (cmpi .eq) main_v110 main_v108
  let main_v112 : FVec F S3x3 .f32 := (uitofp .f32) main_v111
  let main_v113 : FVec F S1x3x3 .f32 := (broadcastInDim S1x3x3 ![1, 2] bcast_S3x3_S1x3x3_1_2) main_v112
  let main_v114 : FVec F S3200000x3x3 .f32 := (broadcastInDim S3200000x3x3 ![0, 1, 2] bcast_S3200000x1x1_S3200000x3x3_0_1_2) main_v106
  let main_v115 : FVec F S3200000x3x3 .f32 := (broadcastInDim S3200000x3x3 ![0, 1, 2] bcast_S1x3x3_S3200000x3x3_0_1_2) main_v113
  let main_v116 : FVec F S3200000x3x3 .f32 := mulf main_v114 main_v115
  let main_v117 : FVec F S3200000x3x3 .f32 := subf o main_v116
  let main_v118 : FVec F S3200000 .f32 := mulf d d
  let main_v119 : FVec F S3200000x1x1 .f32 := (broadcastInDim S3200000x1x1 ![0] bcast_S3200000_S3200000x1x1_0) main_v118
  let main_v120 : FVec F S3200000x3x3 .f32 := (broadcastInDim S3200000x3x3 ![0, 1, 2] bcast_S3200000x1x1_S3200000x3x3_0_1_2) main_v119
  let main_v121 : FVec F S3200000x3x3 .f32 := Host.divf main_v117 main_v120
  main_v121

/-- The sum, from zero, of the nine products of two 3×3 matrices per edge. -/
def rSuv (tl Q : FVec F S3200000x3x3 .f32) : FVec F S3200000 .f32 :=
  let main_v129 : FVec F S3200000x3x3 .f32 := mulf tl Q
  let main_cst_32 : FVec F S_ .f32 := constant S_ .f32 0x00000000#32
  let main_v130 : FVec F S3200000 .f32 := (fun x v => Host.reduceAdd x v reducesTo_S3200000x3x3_S3200000_d1_2 h_S_) main_v129 main_cst_32
  main_v130

/-- The charge–quadrupole term added, the whole scaled, and zero beyond distance 10. -/
def rFinal (d e1 qu suv chi3 sh3 : FVec F S3200000 .f32) : FVec F S3200000 .f32 :=
  let main_v131 : FVec F S3200000 .f32 := mulf qu suv
  let main_v132 : FVec F S3200000 .f32 := subf chi3 sh3
  let main_v133 : FVec F S3200000 .f32 := mulf main_v131 main_v132
  let main_v134 : FVec F S3200000 .f32 := addf e1 main_v133
  let main_cst_33 : FVec F S_ .f32 := constant S_ .f32 0x40E664F3#32
  let main_v135 : FVec F S3200000 .f32 := (broadcastInDim S3200000 ![] bcast_S_S3200000) main_cst_33
  let main_v136 : FVec F S3200000 .f32 := mulf main_v135 main_v134
  let main_cst_34 : FVec F S_ .f32 := constant S_ .f32 0x41200000#32
  let main_v137 : FVec F S3200000 .f32 := (broadcastInDim S3200000 ![] bcast_S_S3200000) main_cst_34
  let main_v138 : IVec S3200000 1 := (cmpf .ole) d main_v137
  let main_cst_35 : FVec F S_ .f32 := constant S_ .f32 0x00000000#32
  let main_v139 : FVec F S3200000 .f32 := (broadcastInDim S3200000 ![] bcast_S_S3200000) main_cst_35
  let main_v140 : FVec F S3200000 .f32 := select main_v138 main_v136 main_v139
  main_v140

/-- The reference's result: the stages composed as the program composes them. -/
def rOut (ch : FVec F S100000 .f32) (dip : FVec F S100000x3 .f32) (quad : FVec F S100000x3x3 .f32)
    (vec : FVec F S3200000x3 .f32) (d : FVec F S3200000 .f32) (iu iv : IVec S3200000 32) : FVec F S3200000 .f32 :=
  let qu := rCh ch (rIdx iu)
  let qv := rCh ch (rIdx iv)
  let chi := rChi d
  let a := rDip dip (rIdx iu)
  let b := rDip dip (rIdx iv)
  let n := rNvec vec d
  let o := rOuter vec
  rFinal d (rE1 qu qv chi (rSh1 d) (rChi2 chi) (rSh2 d) (rChi3 chi) (rSh3 d) (rDot n b) (rDot n a) (rDot a b)) qu
    (rSuv (rTraceless o (rTrace o) d) (rQuad quad (rIdx iv))) (rChi3 chi) (rSh3 d)

end Cert.ReferenceIdeal.Term

end
-- ==== Proof.RefRun.lean ====
/-
  The reference's run read back: every weakly fair execution of its @main terminates with the result buffer at the
  program's pure term of the arguments, the arguments unchanged.
-/
import proofs.«173083_j48498770706888_2_alg».proof.Proof.RefOps
import proofs.«173083_j48498770706888_2_alg».proof.Proof.RefTerm

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The program is its operations run in order: the three windows and the four outlined functions unfolded at their
    calls, sequencing reassociated. -/
theorem main_eq (c : Dev nD) : main (F := F) c = seq ops := by
  simp only [main, main_part0, main_part1, main_part2, fn_where.body, fn_trace.body, fn_where_0.body, fn_where_1.body,
    seq, bind_assoc, pure_bind]

/-- No buffer and no semaphore of the signature is scoped. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨
    binary_bufs_sub .., nullary_bufs_sub .., unary_bufs_sub .., binary_bufs_sub .., unary_bufs_sub .., nullary_bufs_sub ..,
    unary_bufs_sub .., binary_bufs_sub .., binary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., binary_bufs_sub .., binary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., binary_bufs_sub .., nullary_bufs_sub .., unary_bufs_sub .., binary_bufs_sub ..,
    binary_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., binary_bufs_sub .., binary_bufs_sub .., binary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    binary_bufs_sub .., binary_bufs_sub .., nullary_bufs_sub .., binary_bufs_sub .., nullary_bufs_sub .., unary_bufs_sub ..,
    binary_bufs_sub .., binary_bufs_sub .., binary_bufs_sub .., binary_bufs_sub .., binary_bufs_sub .., nullary_bufs_sub ..,
    binary_bufs_sub .., nullary_bufs_sub .., unary_bufs_sub .., binary_bufs_sub .., binary_bufs_sub .., binary_bufs_sub ..,
    binary_bufs_sub .., binary_bufs_sub .., binary_bufs_sub .., binary_bufs_sub .., unary_bufs_sub .., unary_bufs_sub ..,
    unary_bufs_sub .., unary_bufs_sub .., binary_bufs_sub .., nullary_bufs_sub .., nullary_bufs_sub .., nullary_bufs_sub ..,
    unary_bufs_sub .., binary_bufs_sub .., binary_bufs_sub .., nullary_bufs_sub .., unary_bufs_sub .., unary_bufs_sub ..,
    ternary_bufs_sub .., nullary_bufs_sub .., binary_bufs_sub .., nullary_bufs_sub .., unary_bufs_sub .., binary_bufs_sub ..,
    unary_bufs_sub .., nullary_bufs_sub .., nullary_bufs_sub .., nullary_bufs_sub .., unary_bufs_sub .., binary_bufs_sub ..,
    binary_bufs_sub .., unary_bufs_sub .., unary_bufs_sub .., unary_bufs_sub .., unary_bufs_sub .., binary_bufs_sub ..,
    binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., binary_bufs_sub .., binary_bufs_sub ..,
    binary_bufs_sub .., binary_bufs_sub .., binary_bufs_sub .., nullary_bufs_sub .., unary_bufs_sub .., binary_bufs_sub ..,
    nullary_bufs_sub .., unary_bufs_sub .., binary_bufs_sub .., nullary_bufs_sub .., unary_bufs_sub .., ternary_bufs_sub ..⟩

/- The fold of the operations at the result buffer: each operation's result at its own buffer is its function of its
   operands' contents and at any other buffer what was there, so the fold is the operations composed; that composition
   is the stage functions composed (every buffer is written once, and the five index wraps, the repeated constants and
   the repeated products are the same terms), the conversions at the outlined functions' buffers being identities. The
   reductions, gathers, broadcasts and iotas stay folded while the two sides are compared. -/
attribute [local irreducible] Host.reduceAdd Host.gather broadcastInDim iotaInDim in
set_option maxRecDepth 65536 in
set_option maxHeartbeats 40000000 in
theorem out_eq (V : Valuation τ sig (Elt F)) :
    after ops V (main_v140 : DevRef τ sig) = Term.rOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  rfl

/- No operation writes an argument's buffer. -/
set_option maxRecDepth 65536 in
set_option maxHeartbeats 4000000 in
theorem arg0_eq (V : Valuation τ sig (Elt F)) :
    after ops V (main_arg0 : DevRef τ sig) = V (main_arg0 : DevRef τ sig) := by
  after_results_simp

set_option maxRecDepth 65536 in
set_option maxHeartbeats 4000000 in
theorem arg1_eq (V : Valuation τ sig (Elt F)) :
    after ops V (main_arg1 : DevRef τ sig) = V (main_arg1 : DevRef τ sig) := by
  after_results_simp

set_option maxRecDepth 65536 in
set_option maxHeartbeats 4000000 in
theorem arg2_eq (V : Valuation τ sig (Elt F)) :
    after ops V (main_arg2 : DevRef τ sig) = V (main_arg2 : DevRef τ sig) := by
  after_results_simp

set_option maxRecDepth 65536 in
set_option maxHeartbeats 4000000 in
theorem arg3_eq (V : Valuation τ sig (Elt F)) :
    after ops V (main_arg3 : DevRef τ sig) = V (main_arg3 : DevRef τ sig) := by
  after_results_simp

set_option maxRecDepth 65536 in
set_option maxHeartbeats 4000000 in
theorem arg4_eq (V : Valuation τ sig (Elt F)) :
    after ops V (main_arg4 : DevRef τ sig) = V (main_arg4 : DevRef τ sig) := by
  after_results_simp

set_option maxRecDepth 65536 in
set_option maxHeartbeats 4000000 in
theorem arg5_eq (V : Valuation τ sig (Elt F)) :
    after ops V (main_arg5 : DevRef τ sig) = V (main_arg5 : DevRef τ sig) := by
  after_results_simp

set_option maxRecDepth 65536 in
set_option maxHeartbeats 4000000 in
theorem arg6_eq (V : Valuation τ sig (Elt F)) :
    after ops V (main_arg6 : DevRef τ sig) = V (main_arg6 : DevRef τ sig) := by
  after_results_simp

/-- On every device, for any float values, from any memory with zero counters: every weakly fair execution of @main
    terminates with the result buffer at the stage functions' composition of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v140)
        = Term.rOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v140).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (run_seq scopedRefs_eq scopedSems_eq defs main (fun _ => ops) main_eq (fun _ => ops_sub) m ρ)

end Cert.ReferenceIdeal.HandRun

end
-- ==== Proof.LibMatGather.lean ====
/-
  Which operand element a MATRIX GATHER reads. The operand is a stack of N matrices, [N, A, B]; there is one start
  index per result matrix, kept as a column [E, 1]; the result is [E, A, B]. Result entry (e, a, b) reads the operand at
  (n, a, b), where n is the start index of e read as a signed integer and clamped into [0, N − 1]: the matrix is chosen
  by the index, the row and the column are the result's own.
-/
import Idealize.ShloMosaic.Lib.ValueIdx

noncomputable section

namespace Cert.MatGather

open Idealize.ShloMosaic Idealize.ShloMosaic.ValueIdx

/-- The dimension numbers of `x[idx]` for a stack `x : [N, A, B]` of matrices and E indices kept as [E, 1]: the
    result's axes 1 and 2 are the offset axes, the operand's axis 0 is collapsed and is the one the start index
    addresses, and a slice is one whole matrix. -/
abbrev matGatherDims (N E A B : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

variable {N E A B w : Nat}
  (wf : GatherDims.WF ⟨3, ![N, A, B]⟩ ⟨2, ![E, 1]⟩ ⟨3, ![E, A, B]⟩ [1, 2] [0] [] [0] [] 1 ![1, A, B])
  (j : (⟨3, ![E, A, B]⟩ : Shape).Idx) (idx : IVec ⟨2, ![E, 1]⟩ w)

/-- The matrix a matrix gather reads for result matrix `j 0`: the start index, signed, clamped into [0, N − 1]. Axis 0
    is neither a batching axis nor a kept one, so the operand coordinate is the clamped start alone, and the start is
    read off the index column at row `j 0`. -/
theorem matGather_mat :
    (((matGatherDims N E A B wf).operandIdx j idx) 0).val
      = min (idx (ix2 (j 0) (0 : Fin 1))).toInt.toNat (N - 1) := by
  show (matGatherDims N E A B wf).start j idx 0 + (matGatherDims N E A B wf).batchCoord j 0
    + (matGatherDims N E A B wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ (matGatherDims N E A B wf).startIndexMap from List.mem_singleton.mpr rfl)]
  have hsi : (matGatherDims N E A B wf).siIdx j ⟨List.idxOf (0 : Fin 3) (matGatherDims N E A B wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The row a matrix gather reads: the result's own. Axis 1 is not addressed by the start index (start 0) and is the
    first kept axis, which the result's first offset axis supplies. -/
theorem matGather_row : (((matGatherDims N E A B wf).operandIdx j idx) 1).val = (j 1).val := by
  show (matGatherDims N E A B wf).start j idx 1 + (matGatherDims N E A B wf).batchCoord j 1
    + (matGatherDims N E A B wf).offCoord j 1 = _
  rw [GatherDims.batchCoord_eq_zero _ _ _ List.not_mem_nil]
  have hs : (matGatherDims N E A B wf).start j idx 1 = 0 := by
    unfold GatherDims.start
    rw [dif_neg (show ¬ (1 : Fin 3) ∈ [(0 : Fin 3)] by decide)]
  rw [hs]
  simp only [Nat.add_zero, Nat.zero_add]
  unfold GatherDims.offCoord
  rw [dif_pos (show (1 : Fin 3) ∈ (matGatherDims N E A B wf).sKept from
    (GatherDims.mem_sKept _ _).mpr ⟨(show ¬ (1 : Fin 3) ∈ [(0 : Fin 3)] by decide), List.not_mem_nil⟩)]
  rfl

/-- The column a matrix gather reads: the result's own. Axis 2 is the second kept axis, which the result's second
    offset axis supplies. -/
theorem matGather_col : (((matGatherDims N E A B wf).operandIdx j idx) 2).val = (j 2).val := by
  show (matGatherDims N E A B wf).start j idx 2 + (matGatherDims N E A B wf).batchCoord j 2
    + (matGatherDims N E A B wf).offCoord j 2 = _
  rw [GatherDims.batchCoord_eq_zero _ _ _ List.not_mem_nil]
  have hs : (matGatherDims N E A B wf).start j idx 2 = 0 := by
    unfold GatherDims.start
    rw [dif_neg (show ¬ (2 : Fin 3) ∈ [(0 : Fin 3)] by decide)]
  rw [hs]
  simp only [Nat.add_zero, Nat.zero_add]
  unfold GatherDims.offCoord
  rw [dif_pos (show (2 : Fin 3) ∈ (matGatherDims N E A B wf).sKept from
    (GatherDims.mem_sKept _ _).mpr ⟨(show ¬ (2 : Fin 3) ∈ [(0 : Fin 3)] by decide), List.not_mem_nil⟩)]
  rfl

/-- THE GATHER READ AT (e, a, b): the operand at the matrix the start index of `e` names (signed, clamped into
    [0, N − 1]), at row `a` and column `b`. -/
theorem matGather_apply {α : Type} (hN : 0 < N) (x : (⟨3, ![N, A, B]⟩ : Shape).Idx → α) (e : Fin E) (a : Fin A)
    (b : Fin B) :
    Host.gather (matGatherDims N E A B wf) x idx (ix3 e a b)
      = x (ix3 (⟨min (idx (ix2 e (0 : Fin 1))).toInt.toNat (N - 1), by omega⟩ : Fin N) a b) := by
  unfold Host.gather
  refine congrArg x (funext fun c => Fin.ext ?_)
  match c with
  | ⟨0, _⟩ => exact matGather_mat wf (ix3 e a b) idx
  | ⟨1, _⟩ => exact matGather_row wf (ix3 e a b) idx
  | ⟨2, _⟩ => exact matGather_col wf (ix3 e a b) idx

end Cert.MatGather

end
-- ==== Proof.RefReadLayout.lean ====
/-
  The reference's gathers and broadcasts read at an index: which atom's charge, dipole component or quadrupole
  entry an edge reads (the index wrapped, then clamped by the gather), the edge vector over the edge's distance,
  the outer product, and the traceless tensor over the squared distance.
-/
import proofs.«173083_j48498770706888_2_alg».proof.Proof.RefTerm
import proofs.«173083_j48498770706888_2_alg».proof.Proof.Gen.ReferenceIdeal
import proofs.«173083_j48498770706888_2_alg».proof.Proof.Spec
import proofs.«173083_j48498770706888_2_alg».proof.Proof.LibEdgeSum
import proofs.«173083_j48498770706888_2_alg».proof.Proof.LibMatGather
import Idealize.ShloMosaic.PureOps.Ideal.Laws
import Idealize.ShloMosaic.Lib.ValueLayout
import Idealize.ShloMosaic.Lib.Pipeline.Value

noncomputable section

namespace Cert.Elec

open Idealize.ShloMosaic Idealize.ShloMosaic.ValueIdx Cert.ReferenceIdeal Cert.ReferenceIdeal.Term

namespace ReadLayout

/-! ## Broadcasts read at an index -/

section Bcast
variable {α : Type}

/-- A scalar broadcast to any shape reads the scalar everywhere. -/
theorem bcast_scalar_apply {T : Shape} (h : S_.BroadcastsInDim T ![]) (x : S_.Idx → α) (j : T.Idx) :
    broadcastInDim T ![] h x j = x ix0 := by
  unfold broadcastInDim; exact congrArg x (funext fun a => a.elim0)

/-- [E] → [E, 1]: entry (e, 0) is element e. -/
theorem bcast_col_apply (h : S3200000.BroadcastsInDim S3200000x1 ![0]) (x : S3200000.Idx → α) (e : Fin 3200000)
    (z : Fin 1) : broadcastInDim S3200000x1 ![0] h x (ix2 e z) = x (ix1 e) :=
  broadcastInDim_apply _ h x _ _ (fun a => match a with | ⟨0, _⟩ => rfl)

/-- [E, 1] → [E, 3]: entry (e, k) is entry (e, 0). -/
theorem bcast_row_apply (h : S3200000x1.BroadcastsInDim S3200000x3 ![0, 1]) (x : S3200000x1.Idx → α)
    (e : Fin 3200000) (k : Fin 3) : broadcastInDim S3200000x3 ![0, 1] h x (ix2 e k) = x (ix2 e (0 : Fin 1)) :=
  broadcastInDim_apply _ h x _ _ (fun a => match a with | ⟨0, _⟩ => rfl | ⟨1, _⟩ => rfl)

/-- [E, 3] → [E, 3, 1]: entry (e, i, 0) is entry (e, i). -/
theorem bcast_x31_apply (h : S3200000x3.BroadcastsInDim S3200000x3x1 ![0, 1]) (x : S3200000x3.Idx → α)
    (e : Fin 3200000) (i : Fin 3) (z : Fin 1) :
    broadcastInDim S3200000x3x1 ![0, 1] h x (ix3 e i z) = x (ix2 e i) :=
  broadcastInDim_apply _ h x _ _ (fun a => match a with | ⟨0, _⟩ => rfl | ⟨1, _⟩ => rfl)

/-- [E, 3] → [E, 1, 3]: entry (e, 0, j) is entry (e, j). -/
theorem bcast_x13_apply (h : S3200000x3.BroadcastsInDim S3200000x1x3 ![0, 2]) (x : S3200000x3.Idx → α)
    (e : Fin 3200000) (z : Fin 1) (j : Fin 3) :
    broadcastInDim S3200000x1x3 ![0, 2] h x (ix3 e z j) = x (ix2 e j) :=
  broadcastInDim_apply _ h x _ _ (fun a => match a with | ⟨0, _⟩ => rfl | ⟨1, _⟩ => rfl)

/-- [E, 3, 1] → [E, 3, 3]: entry (e, i, j) is entry (e, i, 0). -/
theorem bcast_31_33_apply (h : S3200000x3x1.BroadcastsInDim S3200000x3x3 ![0, 1, 2]) (x : S3200000x3x1.Idx → α)
    (e : Fin 3200000) (i j : Fin 3) :
    broadcastInDim S3200000x3x3 ![0, 1, 2] h x (ix3 e i j) = x (ix3 e i (0 : Fin 1)) :=
  broadcastInDim_apply _ h x _ _ (fun a => match a with | ⟨0, _⟩ => rfl | ⟨1, _⟩ => rfl | ⟨2, _⟩ => rfl)

/-- [E, 1, 3] → [E, 3, 3]: entry (e, i, j) is entry (e, 0, j). -/
theorem bcast_13_33_apply (h : S3200000x1x3.BroadcastsInDim S3200000x3x3 ![0, 1, 2]) (x : S3200000x1x3.Idx → α)
    (e : Fin 3200000) (i j : Fin 3) :
    broadcastInDim S3200000x3x3 ![0, 1, 2] h x (ix3 e i j) = x (ix3 e (0 : Fin 1) j) :=
  broadcastInDim_apply _ h x _ _ (fun a => match a with | ⟨0, _⟩ => rfl | ⟨1, _⟩ => rfl | ⟨2, _⟩ => rfl)

/-- [E] → [E, 1, 1]: entry (e, 0, 0) is element e. -/
theorem bcast_x11_apply (h : S3200000.BroadcastsInDim S3200000x1x1 ![0]) (x : S3200000.Idx → α)
    (e : Fin 3200000) (z z' : Fin 1) :
    broadcastInDim S3200000x1x1 ![0] h x (ix3 e z z') = x (ix1 e) :=
  broadcastInDim_apply _ h x _ _ (fun a => match a with | ⟨0, _⟩ => rfl)

/-- [E, 1, 1] → [E, 3, 3]: entry (e, i, j) is entry (e, 0, 0). -/
theorem bcast_11_33_apply (h : S3200000x1x1.BroadcastsInDim S3200000x3x3 ![0, 1, 2]) (x : S3200000x1x1.Idx → α)
    (e : Fin 3200000) (i j : Fin 3) :
    broadcastInDim S3200000x3x3 ![0, 1, 2] h x (ix3 e i j) = x (ix3 e (0 : Fin 1) (0 : Fin 1)) :=
  broadcastInDim_apply _ h x _ _ (fun a => match a with | ⟨0, _⟩ => rfl | ⟨1, _⟩ => rfl | ⟨2, _⟩ => rfl)

/-- [3, 3] → [1, 3, 3]: entry (0, i, j) is entry (i, j). -/
theorem bcast_33_133_apply (h : S3x3.BroadcastsInDim S1x3x3 ![1, 2]) (x : S3x3.Idx → α) (z : Fin 1) (i j : Fin 3) :
    broadcastInDim S1x3x3 ![1, 2] h x (ix3 z i j) = x (ix2 i j) :=
  broadcastInDim_apply _ h x _ _ (fun a => match a with | ⟨0, _⟩ => rfl | ⟨1, _⟩ => rfl)

/-- [1, 3, 3] → [E, 3, 3]: entry (e, i, j) is entry (0, i, j). -/
theorem bcast_133_33_apply (h : S1x3x3.BroadcastsInDim S3200000x3x3 ![0, 1, 2]) (x : S1x3x3.Idx → α)
    (e : Fin 3200000) (i j : Fin 3) :
    broadcastInDim S3200000x3x3 ![0, 1, 2] h x (ix3 e i j) = x (ix3 (0 : Fin 1) i j) :=
  broadcastInDim_apply _ h x _ _ (fun a => match a with | ⟨0, _⟩ => rfl | ⟨1, _⟩ => rfl | ⟨2, _⟩ => rfl)

end Bcast

/-! ## The identity matrix as the program builds it -/

/-- "Row number equals column number" as a one-bit word, read unsigned as a real: 1 on the diagonal, 0 off it. -/
theorem eye_entry (i j : Fin 3) :
    (((IntOp.cmpi .eq (IntOp.addi (BitVec.ofNat 32 i.val) 0#32) (BitVec.ofNat 32 j.val)).toNat : ℝ) : EReal)
      = if i = j then (1 : EReal) else 0 := by
  fin_cases i <;> fin_cases j <;> simp [IntOp.cmpi, IntOp.addi]

end ReadLayout

open ReadLayout

variable (e : Fin 3200000)

/-- The prepared index column holds each index wrapped. -/
theorem rIdx_apply (i : IVec S3200000 32) : rIdx i (ix2 e (0 : Fin 1)) = wrap (i (ix1 e)) := by
  unfold rIdx
  refine (bcast_col_apply _ _ e 0).trans ?_
  rfl

/-- Edge `e` reads the charge of the atom its index names. -/
theorem rCh_apply (ch : FVec Ideal S100000 .f32) (i : IVec S3200000 32) :
    rCh (F := Ideal) ch (rIdx i) (ix1 e) = ch (ix1 (atom (i (ix1 e)))) := by
  unfold rCh
  show ch ((Cert.EdgeSum.vecGatherDims 100000 3200000 Facts₀.gather_S100000_S3200000x1_S3200000_n_0_n_n_0_1_1_wf).operandIdx
    (ix1 e) (rIdx i)) = _
  refine congrArg ch (funext fun a => Fin.ext ?_)
  match a with
  | ⟨0, _⟩ =>
    refine (Cert.EdgeSum.vecGather_elt _ (ix1 e) (rIdx i)).trans ?_
    show min (rIdx i (ix2 e (0 : Fin 1))).toInt.toNat (100000 - 1) = _
    rw [rIdx_apply]
    rfl

/-- Edge `e` reads component `k` of the dipole of the atom its index names. -/
theorem rDip_apply (dip : FVec Ideal S100000x3 .f32) (i : IVec S3200000 32) (k : Fin 3) :
    rDip (F := Ideal) dip (rIdx i) (ix2 e k) = dip (ix2 (atom (i (ix1 e))) k) := by
  unfold rDip
  show dip ((Cert.EdgeSum.rowGatherDims 100000 3200000 3 Facts₀.gather_S100000x3_S3200000x1_S3200000x3_1_0_n_n_0_1_13_wf).operandIdx
    (ix2 e k) (rIdx i)) = _
  refine congrArg dip (funext fun a => Fin.ext ?_)
  match a with
  | ⟨0, _⟩ =>
    refine (Cert.EdgeSum.rowGather_row _ (ix2 e k) (rIdx i)).trans ?_
    show min (rIdx i (ix2 e (0 : Fin 1))).toInt.toNat (100000 - 1) = _
    rw [rIdx_apply]
    rfl
  | ⟨1, _⟩ => exact Cert.EdgeSum.rowGather_col _ (ix2 e k) (rIdx i)

/-- Edge `e` reads entry (a, b) of the quadrupole of the atom its index names. -/
theorem rQuad_apply (quad : FVec Ideal S100000x3x3 .f32) (i : IVec S3200000 32) (a b : Fin 3) :
    rQuad (F := Ideal) quad (rIdx i) (ix3 e a b) = quad (ix3 (atom (i (ix1 e))) a b) := by
  unfold rQuad
  show quad ((Cert.MatGather.matGatherDims 100000 3200000 3 3 Facts₀.gather_S100000x3x3_S3200000x1_S3200000x3x3_12_0_n_n_0_1_133_wf).operandIdx
    (ix3 e a b) (rIdx i)) = _
  refine congrArg quad (funext fun c => Fin.ext ?_)
  match c with
  | ⟨0, _⟩ =>
    refine (Cert.MatGather.matGather_mat _ (ix3 e a b) (rIdx i)).trans ?_
    show min (rIdx i (ix2 e (0 : Fin 1))).toInt.toNat (100000 - 1) = _
    rw [rIdx_apply]
    rfl
  | ⟨1, _⟩ => exact Cert.MatGather.matGather_row _ (ix3 e a b) (rIdx i)
  | ⟨2, _⟩ => exact Cert.MatGather.matGather_col _ (ix3 e a b) (rIdx i)

/-- Component `k` of edge `e`'s vector over the edge's distance. -/
theorem rNvec_apply (vec : FVec Ideal S3200000x3 .f32) (d : FVec Ideal S3200000 .f32) (k : Fin 3) :
    rNvec (F := Ideal) vec d (ix2 e k) = Ideal.div (vec (ix2 e k)) (d (ix1 e)) := by
  unfold rNvec
  show Ideal.div (vec (ix2 e k)) (broadcastInDim S3200000x3 ![0, 1] _ (broadcastInDim S3200000x1 ![0] _ d) (ix2 e k)) = _
  rw [bcast_row_apply, bcast_col_apply]

/-- Entry (i, j) of the outer product of edge `e`'s vector with itself. -/
theorem rOuter_apply (vec : FVec Ideal S3200000x3 .f32) (i j : Fin 3) :
    rOuter (F := Ideal) vec (ix3 e i j) = vec (ix2 e i) * vec (ix2 e j) := by
  unfold rOuter
  show broadcastInDim S3200000x3x3 ![0, 1, 2] _ (broadcastInDim S3200000x3x1 ![0, 1] _ vec) (ix3 e i j)
      * broadcastInDim S3200000x3x3 ![0, 1, 2] _ (broadcastInDim S3200000x1x3 ![0, 2] _ vec) (ix3 e i j) = _
  rw [bcast_31_33_apply, bcast_13_33_apply, bcast_x31_apply, bcast_x13_apply]

/-- Entry (i, j) of the traceless tensor: the matrix entry less a third of the trace on the diagonal, over the squared
    distance. -/
theorem rTraceless_apply (o : FVec Ideal S3200000x3x3 .f32) (tr d : FVec Ideal S3200000 .f32) (i j : Fin 3) :
    rTraceless (F := Ideal) o tr d (ix3 e i j)
      = Ideal.div (o (ix3 e i j) - Ideal.div (tr (ix1 e)) c3 * (if i = j then (1 : EReal) else 0))
          (d (ix1 e) * d (ix1 e)) := by
  unfold rTraceless
  show Ideal.div (o (ix3 e i j)
      - broadcastInDim S3200000x3x3 ![0, 1, 2] _ (broadcastInDim S3200000x1x1 ![0] _
          (Host.divf (F := Ideal) tr (broadcastInDim S3200000 ![] _ (constant (F := Ideal) S_ .f32 0x40400000#32)))) (ix3 e i j)
        * broadcastInDim S3200000x3x3 ![0, 1, 2] _ (broadcastInDim S1x3x3 ![1, 2] _
            (uitofp (F := Ideal) .f32 (cmpi .eq (addi (iotaInDim S3x3 32 0) (broadcastInDim S3x3 ![] _ (constantI S_ 32 0#32)))
              (iotaInDim S3x3 32 1)))) (ix3 e i j))
      (broadcastInDim S3200000x3x3 ![0, 1, 2] _ (broadcastInDim S3200000x1x1 ![0] _ (mulf d d)) (ix3 e i j)) = _
  rw [bcast_11_33_apply, bcast_x11_apply, bcast_133_33_apply, bcast_33_133_apply, bcast_11_33_apply, bcast_x11_apply]
  show Ideal.div (o (ix3 e i j) - Ideal.div (tr (ix1 e)) c3
      * (((IntOp.cmpi .eq (IntOp.addi (BitVec.ofNat 32 i.val) 0#32) (BitVec.ofNat 32 j.val)).toNat : ℝ) : EReal))
      (d (ix1 e) * d (ix1 e)) = _
  rw [eye_entry]

end Cert.Elec

end
-- ==== Proof.RefReadSums.lean ====
/-
  The reference's three kinds of sum read at an edge: a row's three products, the trace of a 3×3 matrix (the
  off-diagonal entries replaced by zero before all nine are summed), and the nine products of two 3×3 matrices —
  each the initial zero plus the finite sum.
-/
import proofs.«173083_j48498770706888_2_alg».proof.Proof.RefTerm
import proofs.«173083_j48498770706888_2_alg».proof.Proof.Gen.ReferenceIdeal
import proofs.«173083_j48498770706888_2_alg».proof.Proof.Spec
import proofs.«173083_j48498770706888_2_alg».proof.Proof.LibEdgeSum
import Idealize.ShloMosaic.PureOps.Ideal.Laws
import Idealize.ShloMosaic.Lib.ValueLayout
import Idealize.ShloMosaic.Lib.Pipeline.Value

noncomputable section

namespace Cert.Elec

open Idealize.ShloMosaic Idealize.ShloMosaic.ValueIdx Cert.ReferenceIdeal Cert.ReferenceIdeal.Term

variable (e : Fin 3200000)

/-- A host sum over the last two axes of an [E, 3, 3] array, read at edge `e`: the initial value plus the double sum
    over the nine entries of the edge's matrix. The indices that drop to `e` are exactly the (e, a, b). -/
theorem hostSum33 (h : S3200000x3x3.ReducesTo [1, 2] S3200000) (x : S3200000x3x3.Idx → EReal) (init : EReal) :
    Ideal.hostReduceAdd h x init (ix1 e) = init + ∑ a : Fin 3, ∑ b : Fin 3, x (ix3 e a b) := by
  unfold Ideal.hostReduceAdd
  refine congrArg (init + ·) ?_
  rw [← Fintype.sum_prod_type' (fun (a b : Fin 3) => x (ix3 e a b))]
  refine (Finset.sum_bij (fun (p : Fin 3 × Fin 3) _ => (ix3 e p.1 p.2 : S3200000x3x3.Idx)) ?_ ?_ ?_ ?_).symm
  · intro p _
    refine Finset.mem_filter.mpr ⟨Finset.mem_univ _, ?_⟩
    funext b; refine Fin.ext ?_
    match b with
    | ⟨0, _⟩ => rfl
  · intro p _ p' _ hpp
    have h1 : p.1 = p'.1 := congrFun hpp 1
    have h2 : p.2 = p'.2 := congrFun hpp 2
    exact Prod.ext h1 h2
  · intro i hi
    have hd := (Finset.mem_filter.mp hi).2
    have h0 : (i 0).val = e.val := congrArg (fun f : S3200000.Idx => (f 0).val) hd
    refine ⟨((i 1 : Fin 3), (i 2 : Fin 3)), Finset.mem_univ _, ?_⟩
    funext a; refine Fin.ext ?_
    match a with
    | ⟨0, _⟩ => exact h0.symm
    | ⟨1, _⟩ => rfl
    | ⟨2, _⟩ => rfl
  · intro p _; rfl

/-- The sum over a row of the products of two [E, 3] arrays. -/
theorem rDot_apply (x y : FVec Ideal S3200000x3 .f32) :
    rDot (F := Ideal) x y (ix1 e) = c0 + ∑ k : Fin 3, x (ix2 e k) * y (ix2 e k) := by
  have hR : S3200000x3.Reduces [1] S3200000 := by decide
  show Ideal.hostReduceAdd _ (mulf x y) _ (ix1 e) = _
  rw [Ideal.hostReduceAdd_single _ hR]
  refine congrArg₂ (· + ·) rfl (Finset.sum_congr rfl fun k _ => ?_)
  have hl : hR.lift (ix1 e) k = ix2 e k := by
    funext a; refine Fin.ext ?_
    match a with
    | ⟨0, _⟩ => rfl
    | ⟨1, _⟩ => rfl
  show x (hR.lift (ix1 e) k) * y (hR.lift (ix1 e) k) = _
  rw [hl]
  rfl

/-- The trace of edge `e`'s matrix: entry (i, j) is kept where the row number equals the column number and replaced by
    zero elsewhere, and the nine are summed from zero. -/
theorem rTrace_apply (o : FVec Ideal S3200000x3x3 .f32) :
    rTrace (F := Ideal) o (ix1 e) = c0 + ∑ i : Fin 3, ∑ j : Fin 3, (if i = j then o (ix3 e i j) else c0) := by
  show Ideal.hostReduceAdd _ _ _ (ix1 e) = _
  rw [hostSum33]
  refine congrArg₂ (· + ·) rfl (Finset.sum_congr rfl fun a _ => Finset.sum_congr rfl fun b _ => ?_)
  fin_cases a <;> fin_cases b <;> rfl

/-- The sum of the nine products of edge `e`'s two matrices. -/
theorem rSuv_apply (tl Q : FVec Ideal S3200000x3x3 .f32) :
    rSuv (F := Ideal) tl Q (ix1 e) = c0 + ∑ i : Fin 3, ∑ j : Fin 3, tl (ix3 e i j) * Q (ix3 e i j) := by
  show Ideal.hostReduceAdd _ (mulf tl Q) _ (ix1 e) = _
  rw [hostSum33]
  rfl

end Cert.Elec

end
-- ==== Proof.RefRead.lean ====
/-
  The reference's term is the reference's whole-array function: its elementwise stages read at an edge, put together
  with the gathers, the broadcasts and the sums read at an edge.
-/
import proofs.«173083_j48498770706888_2_alg».proof.Proof.RefReadLayout
import proofs.«173083_j48498770706888_2_alg».proof.Proof.RefReadSums

noncomputable section

namespace Cert.Elec

open Idealize.ShloMosaic Idealize.ShloMosaic.ValueIdx Cert.ReferenceIdeal Cert.ReferenceIdeal.Term

/-! ## Pointwise operations and splats read at an index

At the extended reals a pointwise array operation is its scalar operation entry by entry, and a splat of a word reads
that word's value everywhere. Each is an unfolding of one definition; stated once, they are used as rewriting rules so
that no word's value is ever computed. -/

section Pointwise
variable {s : Shape} {φ : FTy}

/-- A splat of an f32 word over the edges reads the word's value at every edge. -/
theorem splat_apply (h : S_.BroadcastsInDim S3200000 (![] : Fin 0 → Fin 1)) (w : BitVec 32) (j : S3200000.Idx) :
    broadcastInDim S3200000 (![] : Fin 0 → Fin 1) h (constant (F := Ideal) S_ .f32 w) j = W w := by
  unfold broadcastInDim; rfl

/-- The host's quotient at an index is the quotient of the entries. -/
theorem hostDiv_at (a b : FVec Ideal s φ) (i : s.Idx) : Host.divf a b i = Ideal.div (a i) (b i) := rfl

/-- The host's square root at an index is the square root of the entry. -/
theorem hostSqrt_at (a : FVec Ideal s φ) (i : s.Idx) : Host.sqrt a i = Ideal.sqrt (a i) := rfl

/-- A comparison at an index compares the entries. -/
theorem cmp_at (p : CmpFPredicate) (a b : FVec Ideal s φ) (i : s.Idx) : cmpf p a b i = Ideal.cmp p (a i) (b i) := rfl

end Pointwise

variable (e : Fin 3200000)

/-- The damped interaction of one distance, as the reference computes it: the quintic switch of d/4 (zero from 1
    on) over the damped distance, plus its complement over the distance. -/
def sChi (d : EReal) : EReal :=
  let damp := Ideal.sqrt (d * d + c1)
  let x := Ideal.div d c4
  let x3 := x * x * x
  let s := c1 - x3 * ((c10 - c15 * x) + c6 * x * x)
  let sw := Scalar.select (Ideal.cmp .olt x c1) s c0
  Ideal.div sw damp + Ideal.div (c1 - sw) d

/-! Every elementwise stage at edge `e` is the scalar expression of its operands at `e`. -/

theorem rChi_apply (d : FVec Ideal S3200000 .f32) : rChi (F := Ideal) d (ix1 e) = sChi (d (ix1 e)) := by
  simp only [rChi, sChi, addf_apply, subf_apply, mulf_apply, hostDiv_at, hostSqrt_at, cmp_at, select_apply, splat_apply,
    id_eq]

theorem rSh1_apply (d : FVec Ideal S3200000 .f32) :
    rSh1 (F := Ideal) d (ix1 e) = c02 - Ideal.div (d (ix1 e)) c100 := by
  simp only [rSh1, subf_apply, hostDiv_at, splat_apply]

theorem rSh2_apply (d : FVec Ideal S3200000 .f32) :
    rSh2 (F := Ideal) d (ix1 e) = c003 - Ideal.div (c2 * d (ix1 e)) c1000 := by
  simp only [rSh2, subf_apply, mulf_apply, hostDiv_at, splat_apply]

theorem rSh3_apply (d : FVec Ideal S3200000 .f32) :
    rSh3 (F := Ideal) d (ix1 e) = c0004 - Ideal.div (c3 * d (ix1 e)) c10000 := by
  simp only [rSh3, subf_apply, mulf_apply, hostDiv_at, splat_apply]

theorem rChi2_apply (chi : FVec Ideal S3200000 .f32) :
    rChi2 (F := Ideal) chi (ix1 e) = chi (ix1 e) * chi (ix1 e) := by
  simp only [rChi2, mulf_apply]

theorem rChi3_apply (chi : FVec Ideal S3200000 .f32) :
    rChi3 (F := Ideal) chi (ix1 e) = chi (ix1 e) * chi (ix1 e) * chi (ix1 e) := by
  simp only [rChi3, mulf_apply]

theorem rE1_apply (qu qv chi sh1 chi2 sh2 chi3 sh3 duv dvu dd : FVec Ideal S3200000 .f32) :
    rE1 (F := Ideal) qu qv chi sh1 chi2 sh2 chi3 sh3 duv dvu dd (ix1 e)
      = qu (ix1 e) * qv (ix1 e) * (chi (ix1 e) - sh1 (ix1 e))
        + c2 * qu (ix1 e) * duv (ix1 e) * (chi2 (ix1 e) - sh2 (ix1 e))
        + (dd (ix1 e) - c3 * duv (ix1 e) * dvu (ix1 e)) * (chi3 (ix1 e) - sh3 (ix1 e)) := by
  simp only [rE1, addf_apply, subf_apply, mulf_apply, splat_apply]

theorem rFinal_apply (d e1 qu suv chi3 sh3 : FVec Ideal S3200000 .f32) :
    rFinal (F := Ideal) d e1 qu suv chi3 sh3 (ix1 e)
      = Scalar.select (Ideal.cmp .ole (d (ix1 e)) c10)
          (cK * (e1 (ix1 e) + qu (ix1 e) * suv (ix1 e) * (chi3 (ix1 e) - sh3 (ix1 e)))) c0 := by
  simp only [rFinal, addf_apply, subf_apply, mulf_apply, cmp_at, select_apply, splat_apply]

/-- The reference program's pure term is, edge by edge, the reference's per-edge energy of the atoms the edge's two
    indices name. -/
theorem rOut_eq_Gr (ch : FVec Ideal S100000 .f32) (dip : FVec Ideal S100000x3 .f32) (quad : FVec Ideal S100000x3x3 .f32)
    (vec : FVec Ideal S3200000x3 .f32) (d : FVec Ideal S3200000 .f32) (iu iv : IVec S3200000 32) :
    rOut (F := Ideal) ch dip quad vec d iu iv = Gr ch dip quad vec d iu iv := by
  funext j
  obtain ⟨e, rfl⟩ : ∃ e : Fin 3200000, j = ix1 e := ⟨j 0, eq_ix1 j⟩
  unfold rOut
  simp only [rFinal_apply, rE1_apply, rChi_apply, rSh1_apply, rSh2_apply, rSh3_apply, rChi2_apply, rChi3_apply,
    rCh_apply, rDot_apply, rSuv_apply, rDip_apply, rNvec_apply, rTraceless_apply, rTrace_apply, rOuter_apply,
    rQuad_apply]
  rfl

end Cert.Elec

end
-- ==== Proof.Algebra.lean ====
/-
  The two per-edge formulas agree on real data with a nonzero distance.

  Both formulas end in the same tail: a polynomial in the damped interaction chi, the two charge-dipole
  projections, the dipole-dipole product and the traceless quadrupole sum, cut off at distance 10. So it is enough
  that these ingredients agree. With d a nonzero real: a quotient by d is the product with the real 1/d; the
  inverse square root of d*d + 1 > 0 is the reciprocal of its square root; d * (1/4) = d / 4; and on real data the
  quadrupole sum is an identity of rational functions.
-/
import proofs.«173083_j48498770706888_2_alg».proof.Proof.Spec

noncomputable section

namespace Cert.Elec

open Idealize.ShloMosaic Idealize.ShloMosaic.ValueIdx

/-! ### The exactly representable words that matter -/

theorem c0_eq : c0 = (0 : EReal) := by
  simp [Ideal.ofBits, Ideal.ieee]

theorem c1_eq : c1 = (1 : EReal) := by
  simp [Ideal.ofBits, Ideal.ieee]
  norm_cast
  norm_num

theorem c025_eq : c025 = ((1 / 4 : ℝ) : EReal) := by
  simp [Ideal.ofBits, Ideal.ieee]
  norm_cast
  norm_num

theorem c4_eq : c4 = ((4 : ℝ) : EReal) := by
  simp [Ideal.ofBits, Ideal.ieee]
  norm_cast
  norm_num

theorem c3_eq : c3 = ((3 : ℝ) : EReal) := by
  simp [Ideal.ofBits, Ideal.ieee]
  norm_cast
  norm_num

/-! ### The ingredients of the two formulas, and their common tail -/

/-- The damped interaction as the kernel computes it. -/
def chiK (d : EReal) : EReal :=
  let inv := Ideal.div c1 d
  let damp := Ideal.rsqrt (d * d + c1)
  let x := d * c025
  let x3 := x * x * x
  let s := c1 - x3 * ((c10 - c15 * x) + c6 * x * x)
  let sw := Scalar.select (Ideal.cmp .olt x c1) s c0
  sw * damp + (c1 - sw) * inv

/-- The damped interaction as the reference computes it. -/
def chiR (d : EReal) : EReal :=
  let damp := Ideal.sqrt (d * d + c1)
  let x := Ideal.div d c4
  let x3 := x * x * x
  let s := c1 - x3 * ((c10 - c15 * x) + c6 * x * x)
  let sw := Scalar.select (Ideal.cmp .olt x c1) s c0
  Ideal.div sw damp + Ideal.div (c1 - sw) d

/-- The projection of a vector `b` on the unit edge vector, the kernel's way. -/
def projK (d : EReal) (v b : Fin 3 → EReal) : EReal :=
  let inv := Ideal.div c1 d
  v 0 * inv * b 0 + v 1 * inv * b 1 + v 2 * inv * b 2

/-- The projection of a vector `b` on the unit edge vector, the reference's way. -/
def projR (d : EReal) (v b : Fin 3 → EReal) : EReal :=
  c0 + ∑ k : Fin 3, Ideal.div (v k) d * b k

/-- The dot product of the two dipoles, the kernel's way. -/
def dotK (a b : Fin 3 → EReal) : EReal := a 0 * b 0 + a 1 * b 1 + a 2 * b 2

/-- The dot product of the two dipoles, the reference's way. -/
def dotR (a b : Fin 3 → EReal) : EReal := c0 + ∑ k : Fin 3, a k * b k

/-- The traceless quadrupole sum, the kernel's way. -/
def quadK (third d : EReal) (v : Fin 3 → EReal) (Q : Fin 3 → Fin 3 → EReal) : EReal :=
  let inv := Ideal.div c1 d
  let inv2 := inv * inv
  let tm := (v 0 * v 0 + v 1 * v 1 + v 2 * v 2) * third
  let term := v 0 * (v 0 * Q 0 0 + v 1 * Q 0 1 + v 2 * Q 0 2) + v 1 * (v 0 * Q 1 0 + v 1 * Q 1 1 + v 2 * Q 1 2)
    + v 2 * (v 0 * Q 2 0 + v 1 * Q 2 1 + v 2 * Q 2 2)
  (term - tm * (Q 0 0 + Q 1 1 + Q 2 2)) * inv2

/-- The traceless quadrupole sum, the reference's way. -/
def quadR (d : EReal) (v : Fin 3 → EReal) (Q : Fin 3 → Fin 3 → EReal) : EReal :=
  let tr := c0 + ∑ i : Fin 3, ∑ j : Fin 3, (if i = j then v i * v j else c0)
  let tm := Ideal.div tr c3
  c0 + ∑ i : Fin 3, ∑ j : Fin 3,
    Ideal.div (v i * v j - tm * (if i = j then (1 : EReal) else 0)) (d * d) * Q i j

/-- What both formulas do with their ingredients. -/
def tail (qu qv d chi duv dvu dd suv : EReal) : EReal :=
  let sh1 := c02 - Ideal.div d c100
  let e0 := qu * qv * (chi - sh1)
  let chi2 := chi * chi
  let chi3 := chi2 * chi
  let sh2 := c003 - Ideal.div (c2 * d) c1000
  let sh3 := c0004 - Ideal.div (c3 * d) c10000
  let ecd := c2 * qu * duv * (chi2 - sh2)
  let edd := (dd - c3 * duv * dvu) * (chi3 - sh3)
  let e1 := e0 + ecd + edd
  let e2 := e1 + qu * suv * (chi3 - sh3)
  Scalar.select (Ideal.cmp .ole d c10) (cK * e2) c0

theorem kEdge_eq (third qu qv d : EReal) (v a b : Fin 3 → EReal) (Q : Fin 3 → Fin 3 → EReal) :
    kEdge third qu qv d v a b Q
      = tail qu qv d (chiK d) (projK d v b) (projK d v a) (dotK a b) (quadK third d v Q) := rfl

theorem rEdge_eq (qu qv d : EReal) (v a b : Fin 3 → EReal) (Q : Fin 3 → Fin 3 → EReal) :
    rEdge qu qv d v a b Q
      = tail qu qv d (chiR d) (projR d v b) (projR d v a) (dotR a b) (quadR d v Q) := rfl

/-! ### The ingredients agree -/

/-- On a positive real the inverse square root is the reciprocal of the real square root. -/
theorem rsqrt_of_pos (r : ℝ) (h : 0 < r) : Ideal.rsqrt (r : EReal) = (((Real.sqrt r)⁻¹ : ℝ) : EReal) := by
  rw [Ideal.rsqrt_coe, if_neg (not_lt.mpr h.le), if_neg h.ne']

/-- On a positive real the square root is the real square root. -/
theorem sqrt_of_pos (r : ℝ) (h : 0 < r) : Ideal.sqrt (r : EReal) = ((Real.sqrt r : ℝ) : EReal) := by
  rw [Ideal.sqrt_coe, if_neg (not_lt.mpr h.le)]

/-- The damped interaction: d * (1/4) is d / 4, so the switch is the same; its two weights are the reciprocal of
    sqrt (d*d + 1) and 1/d on both sides. -/
theorem chi_eq (d : ℝ) (hd : d ≠ 0) : chiK (d : EReal) = chiR (d : EReal) := by
  have hx : (d : EReal) * c025 = Ideal.div (d : EReal) c4 := by
    rw [c025_eq, c4_eq, Ideal.div_coe (by norm_num : (4 : ℝ) ≠ 0)]
  have hpos : (0 : ℝ) < d * d + 1 := add_pos_of_nonneg_of_pos (mul_self_nonneg d) one_pos
  have hs : (d : EReal) * (d : EReal) + 1 = ((d * d + 1 : ℝ) : EReal) := by norm_cast
  have hsq : Real.sqrt (d * d + 1) ≠ 0 := (Real.sqrt_pos.mpr hpos).ne'
  unfold chiK chiR
  simp only [hx, c1_eq, hs, rsqrt_of_pos _ hpos, sqrt_of_pos _ hpos, Ideal.div_coe hsq, Ideal.div_coe hd,
    one_mul, one_div]

/-- The projections: a quotient by d is the product with 1/d. -/
theorem proj_eq (d : ℝ) (hd : d ≠ 0) (v b : Fin 3 → EReal) : projK (d : EReal) v b = projR (d : EReal) v b := by
  unfold projK projR
  simp only [Fin.sum_univ_three, Ideal.div_coe hd, c0_eq, c1_eq, zero_add, one_mul]

/-- The dot products: the sum over three components, started from 0. -/
theorem dot_eq (a b : Fin 3 → EReal) : dotK a b = dotR a b := by
  unfold dotK dotR
  simp only [Fin.sum_univ_three, c0_eq, zero_add]

/-- The traceless quadrupole sum on real data: an identity of rational functions of the components. -/
theorem quad_eq (d : ℝ) (hd : d ≠ 0) (v : Fin 3 → ℝ) (Q : Fin 3 → Fin 3 → ℝ) :
    quadK ((1 / 3 : ℝ) : EReal) (d : EReal) (fun k => (v k : EReal)) (fun i j => (Q i j : EReal))
      = quadR (d : EReal) (fun k => (v k : EReal)) (fun i j => (Q i j : EReal)) := by
  have hdd : d * d ≠ 0 := mul_self_ne_zero.mpr hd
  have h3 : (3 : ℝ) ≠ 0 := by norm_num
  unfold quadK quadR
  simp only [Fin.sum_univ_three, c0_eq, c1_eq, c3_eq, Fin.isValue, Fin.reduceEq, if_true, if_false, reduceIte,
    zero_add, add_zero, mul_zero, mul_one, sub_zero, one_mul,
    ← EReal.coe_mul, ← EReal.coe_add, ← EReal.coe_sub, Ideal.div_coe hdd, Ideal.div_coe hd, Ideal.div_coe h3]
  rw [EReal.coe_eq_coe_iff]
  field_simp
  ring

/-! ### The whole arrays -/

/-- On arrays whose float entries are all reals, with every distance nonzero, the kernel's whole-array function
    (its trace constant being one third) is the reference's. -/
theorem Gk_eq_Gr
    (ch : FVec Ideal ⟨1, ![100000]⟩ .f32) (dip : FVec Ideal ⟨2, ![100000, 3]⟩ .f32)
    (quad : FVec Ideal ⟨3, ![100000, 3, 3]⟩ .f32) (vec : FVec Ideal ⟨2, ![3200000, 3]⟩ .f32)
    (dist : FVec Ideal ⟨1, ![3200000]⟩ .f32) (iu iv : IVec ⟨1, ![3200000]⟩ 32)
    (hch : ∀ i, ∃ r : ℝ, ch i = (r : EReal)) (hdip : ∀ i, ∃ r : ℝ, dip i = (r : EReal))
    (hquad : ∀ i, ∃ r : ℝ, quad i = (r : EReal)) (hvec : ∀ i, ∃ r : ℝ, vec i = (r : EReal))
    (hdist : ∀ i, ∃ r : ℝ, dist i = (r : EReal)) (hne : ∀ i, dist i ≠ (0 : EReal)) :
    Gk ((1 / 3 : ℝ) : EReal) ch dip quad vec dist iu iv = Gr ch dip quad vec dist iu iv := by
  choose vr hvr using hvec
  choose qr hqr using hquad
  choose dr hdr using hdist
  funext j
  have hd0 : dr j ≠ 0 := by
    intro h
    apply hne j
    rw [hdr j, h, EReal.coe_zero]
  have hv : edgeV vec (j 0) = fun k => ((vr (ix2 (j 0) k) : ℝ) : EReal) := funext fun k => hvr _
  have hq : atomQ quad (atom (iv j)) = fun i k => ((qr (ix3 (atom (iv j)) i k) : ℝ) : EReal) :=
    funext fun i => funext fun k => hqr _
  show kEdge _ _ _ _ _ _ _ _ = rEdge _ _ _ _ _ _ _
  rw [kEdge_eq, rEdge_eq, hdr j, hv, hq, chi_eq _ hd0, proj_eq _ hd0, proj_eq _ hd0, dot_eq, quad_eq _ hd0]

end Cert.Elec

end
-- ==== Proof.PreDecode.lean ====
/-
  What the precondition says of the arguments: every float entry is a real number, and no distance is zero.
-/
import proofs.«173083_j48498770706888_2_alg».proof.Pre_finite_inputs
import Idealize.ShloMosaic.PureOps.Ideal
import Idealize.ShloMosaic.Lib.ReduceAll

noncomputable section

namespace Cert.Elec

open Idealize.ShloMosaic Cert.Pre_finite_inputs

namespace PreDecode

/-- The shape of a scalar has one index. -/
local instance scalarIdx_subsingleton : Subsingleton S_.Idx := ⟨fun a b => funext fun d => d.elim0⟩

/-- The f32 word 0x7F800000 denotes +∞. -/
theorem inf_word : Ideal.ofBits .f32 0x7F800000#32 = (⊤ : EReal) := by simp [Ideal.ofBits, Ideal.ieee]

/-- The f32 word 0x00000000 denotes 0. -/
theorem zero_word : Ideal.ofBits .f32 0x00000000#32 = (0 : EReal) := by simp [Ideal.ofBits, Ideal.ieee]

/-- An extended real whose absolute value, the larger of x and -x, lies below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- If the conjunction over all entries of "|x| < +∞" is 1, every entry of x is a real number; any shape. -/
theorem real_of_all_finite {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
      (cmpf .olt (Host.absf x) (broadcastInDim s ![] hb (constant S_ .f32 0x7F800000#32))) init hr hu j = 1#1)
    (i : s.Idx) : ∃ r : ℝ, x i = (r : EReal) := by
  have h1 := Host.reduce_andi_all _ init hr hu _ e i
  have h2 : Ideal.cmp .olt (max (x i : EReal) (-(x i : EReal))) (Ideal.ofBits .f32 0x7F800000#32) = 1#1 := h1
  rw [inf_word] at h2
  refine real_of_abs_lt_top (x i) ?_
  unfold Ideal.cmp at h2
  by_contra hn
  simp [hn] at h2

/-- If the conjunction over all entries of "x ≠ 0" is 1, no entry of x is zero; any shape. -/
theorem ne_zero_of_all_une {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
      (cmpf .une x (broadcastInDim s ![] hb (constant S_ .f32 0x00000000#32))) init hr hu j = 1#1)
    (i : s.Idx) : x i ≠ (0 : EReal) := by
  have h1 := Host.reduce_andi_all _ init hr hu _ e i
  have h2 : Ideal.cmp .une (x i : EReal) (Ideal.ofBits .f32 0x00000000#32) = 1#1 := h1
  rw [zero_word] at h2
  unfold Ideal.cmp at h2
  intro hn
  simp [hn] at h2

end PreDecode

open PreDecode in
/-- If the precondition's function is all ones on the seven arrays, the five float arrays hold reals only and the
    distances are nonzero. -/
theorem pre_decode [Cert.Pre_finite_inputs.Facts]
    (a0 : FVec Ideal S100000 .f32) (a1 : FVec Ideal S100000x3 .f32) (a2 : FVec Ideal S100000x3x3 .f32)
    (a3 : FVec Ideal S3200000x3 .f32) (a4 : FVec Ideal S3200000 .f32) (a5 a6 : IVec S3200000 32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, a4 i ≠ (0 : EReal)) := by
  have h0 := congrFun h (fun d => d.elim0)
  dsimp only [Cert.Pre_finite_inputs.fn, Cert.Pre_finite_inputs.fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all_finite a0 _ _ _ _ _ e0, real_of_all_finite a1 _ _ _ _ _ e1, real_of_all_finite a2 _ _ _ _ _ e2,
    real_of_all_finite a3 _ _ _ _ _ e3, real_of_all_finite a4 _ _ _ _ _ e4, ne_zero_of_all_une a4 _ _ _ _ _ e5⟩

end Cert.Elec

end
-- ==== Proof.lean ====
/-
  The damped, shifted-force electrostatic energy of 3200000 edges between 100000 atoms carrying a charge, a dipole
  and a quadrupole: a kernel that streams the gathered per-edge data through blocks of 1000 × 128 edges, against the
  plain array program. Both compute, per edge, the same rational expression of the distance d, the edge vector,
  the two charges, the two dipoles and one quadrupole; the kernel forms 1/d once and multiplies by it (and by its
  square, and by an inverse square root, and by a constant named one third), where the reference divides by d, by
  d·d, by a square root and by three. On the extended reals the two agree exactly when every input is a real number
  and the distance is not zero (at d = 0 the reference's 0/0 is not the kernel's 0·∞): the precondition says both.
  The kernel's run is read off its frame, the reference's run is read back from its list of host operations, each
  as one function of the seven arguments, edge by edge; the two functions are equal by algebra over the reals.
-/
import proofs.«173083_j48498770706888_2_alg».proof.Defs
import proofs.«173083_j48498770706888_2_alg».proof.Proof.Gen.Kernel
import proofs.«173083_j48498770706888_2_alg».proof.Proof.Gen.Kernel.Skeleton
import proofs.«173083_j48498770706888_2_alg».proof.Proof.Gen.Kernel.Launch
import proofs.«173083_j48498770706888_2_alg».proof.Proof.Gen.Kernel.Points
import proofs.«173083_j48498770706888_2_alg».proof.Proof.Gen.Kernel.Frame
import proofs.«173083_j48498770706888_2_alg».proof.Proof.Gen.KernelIdeal
import proofs.«173083_j48498770706888_2_alg».proof.Proof.Gen.KernelIdeal.Skeleton
import proofs.«173083_j48498770706888_2_alg».proof.Proof.Gen.KernelIdeal.Launch
import proofs.«173083_j48498770706888_2_alg».proof.Proof.Gen.KernelIdeal.Points
import proofs.«173083_j48498770706888_2_alg».proof.Proof.Gen.KernelIdeal.Frame
import proofs.«173083_j48498770706888_2_alg».proof.Proof.Gen.ReferenceIdeal
import proofs.«173083_j48498770706888_2_alg».proof.Proof.Gen.Pre_finite_inputs
import proofs.«173083_j48498770706888_2_alg».proof.Proof.KernelValue
import proofs.«173083_j48498770706888_2_alg».proof.Proof.RefRun
import proofs.«173083_j48498770706888_2_alg».proof.Proof.RefRead
import proofs.«173083_j48498770706888_2_alg».proof.Proof.Algebra
import proofs.«173083_j48498770706888_2_alg».proof.Proof.PreDecode
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- The one rewrite of the idealization: the word 0x3EAAAAAB, named one third, denotes 1/3. -/
theorem preserves : Cert.preserves_Kernel_KernelIdeal :=
  IdealRules.named_const.statement Cert.KernelIdeal.κ "inv_3" .f32 0x3EAAAAAB#32 ((1 / 3 : ℝ) : EReal) rfl

/-- From memories agreeing on the arguments both programs end with the same array: the kernel's whole-array function of
    the arguments, which on real data with nonzero distances is the reference's. -/
theorem algebraic : Cert.algebraic_KernelIdeal_ReferenceIdeal := by
  intro m ρ m' ρ' hpre hagree
  refine ⟨_, Cert.Elec.kernel_run m ρ, ?_⟩
  refine (θ_run Cert.ReferenceIdeal.defs _ _).mono (fun _ h c => ⟨(h c).1.trans ?_, (h c).2⟩)
    (Cert.ReferenceIdeal.HandRun.run (F := Ideal) m' ρ')
  obtain ⟨e0, e1, e2, e3, e4, e5, e6⟩ := hagree c
  rw [e0, e1, e2, e3, e4, e5, e6, Cert.Elec.rOut_eq_Gr, Cert.Elec.third_eq]
  obtain ⟨h0, h1, h2, h3, h4, hne⟩ := Cert.Elec.pre_decode _ _ _ _ _ _ _ (hpre c)
  exact (Cert.Elec.Gk_eq_Gr _ _ _ _ _ _ _ h0 h1 h2 h3 h4 hne).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
